-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S2x2000000 : Shape := ⟨2, ![2, 2000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel

variable [Facts]

def fn {F : FTy → Type} [FloatOps F] (main_arg0 : FVec F S150000x64 .f32) (main_arg1 : IVec S2x2000000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  main_v3
-- ==== Kernel.lean ====
abbrev S150000x64 : Shape := ⟨2, ![150000, 64]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S2000000x64 : Shape := ⟨2, ![2000000, 64]⟩
abbrev S8192x64 : Shape := ⟨2, ![8192, 64]⟩
abbrev S8192x1 : Shape := ⟨2, ![8192, 1]⟩
abbrev S4096x64 : Shape := ⟨2, ![4096, 64]⟩

abbrev nBuf : Space → Nat
  | .hbm => 76
  | .vmem => 20
  | .smem => 0
  | _ => 0

abbrev bufTy : (tb : Table) → Fin (tcTables nBuf tb) → BufTy
  | .hbm, ⟨0, _⟩ => ⟨S150000x64, .f32⟩
  | .hbm, ⟨1, _⟩ => ⟨S2x2000000, .i32⟩
  | .hbm, ⟨2, _⟩ => ⟨S1x2000000, .i32⟩
  | .hbm, ⟨3, _⟩ => ⟨S2000000, .i32⟩
  | .hbm, ⟨4, _⟩ => ⟨S1x2000000, .i32⟩
  | .hbm, ⟨5, _⟩ => ⟨S2000000, .i32⟩
  | .hbm, ⟨6, _⟩ => ⟨S_, .f32⟩
  | .hbm, ⟨7, _⟩ => ⟨S2000000, .f32⟩
  | .hbm, ⟨8, _⟩ => ⟨S_, .f32⟩
  | .hbm, ⟨9, _⟩ => ⟨S150000, .f32⟩
  | .hbm, ⟨10, _⟩ => ⟨S2000000x1, .i32⟩
  | .hbm, ⟨11, _⟩ => ⟨S150000, .f32⟩
  | .hbm, ⟨12, _⟩ => ⟨S_, .f32⟩
  | .hbm, ⟨13, _⟩ => ⟨S150000, .f32⟩
  | .hbm, ⟨14, _⟩ => ⟨S150000, .i1⟩
  | .hbm, ⟨15, _⟩ => ⟨S_, .f32⟩
  | .hbm, ⟨16, _⟩ => ⟨S150000, .f32⟩
  | .hbm, ⟨17, _⟩ => ⟨S150000, .i1⟩
  | .hbm, ⟨18, _⟩ => ⟨S_, .f32⟩
  | .hbm, ⟨19, _⟩ => ⟨S_, .f32⟩
  | .hbm, ⟨20, _⟩ => ⟨S150000, .f32⟩
  | .hbm, ⟨21, _⟩ => ⟨S150000, .f32⟩
  | .hbm, ⟨22, _⟩ => ⟨S150000, .f32⟩
  | .hbm, ⟨23, _⟩ => ⟨S_, .f32⟩
  | .hbm, ⟨24, _⟩ => ⟨S_, .f32⟩
  | .hbm, ⟨25, _⟩ => ⟨S150000, .f32⟩
  | .hbm, ⟨26, _⟩ => ⟨S150000, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000, .f32⟩
  | .hbm, ⟨45, _⟩ => ⟨S2000000, .f32⟩
  | .hbm, ⟨46, _⟩ => ⟨S2000000x1, .f32⟩
  | .hbm, ⟨47, _⟩ => ⟨S_, .i32⟩
  | .hbm, ⟨48, _⟩ => ⟨S2000000, .i32⟩
  | .hbm, ⟨49, _⟩ => ⟨S2000000, .i1⟩
  | .hbm, ⟨50, _⟩ => ⟨S_, .i32⟩
  | .hbm, ⟨51, _⟩ => ⟨S2000000, .i32⟩
  | .hbm, ⟨52, _⟩ => ⟨S2000000, .i32⟩
  | .hbm, ⟨53, _⟩ => ⟨S2000000, .i32⟩
  | .hbm, ⟨54, _⟩ => ⟨S2000000x1, .i32⟩
  | .hbm, ⟨55, _⟩ => ⟨S2000000x64, .f32⟩
  | .hbm, ⟨56, _⟩ => ⟨S2000000x64, .f32⟩
  | .hbm, ⟨57, _⟩ => ⟨S_, .f32⟩
  | .hbm, ⟨58, _⟩ => ⟨S150000x64, .f32⟩
  | .hbm, ⟨59, _⟩ => ⟨S2000000x1, .i32⟩
  | .hbm, ⟨60, _⟩ => ⟨S150000x64, .f32⟩
  | .hbm, ⟨61, _⟩ => ⟨S_, .i32⟩
  | .hbm, ⟨62, _⟩ => ⟨S2000000, .i32⟩
  | .hbm, ⟨63, _⟩ => ⟨S2000000, .i1⟩
  | .hbm, ⟨64, _⟩ => ⟨S_, .i32⟩
  | .hbm, ⟨65, _⟩ => ⟨S2000000, .i32⟩
  | .hbm, ⟨66, _⟩ => ⟨S2000000, .i32⟩
  | .hbm, ⟨67, _⟩ => ⟨S2000000, .i32⟩
  | .hbm, ⟨68, _⟩ => ⟨S2000000x1, .i32⟩
  | .hbm, ⟨69, _⟩ => ⟨S2000000x64, .f32⟩
  | .hbm, ⟨70, _⟩ => ⟨S2000000x64, .f32⟩
  | .hbm, ⟨71, _⟩ => ⟨S_, .f32⟩
  | .hbm, ⟨72, _⟩ => ⟨S150000x64, .f32⟩
  | .hbm, ⟨73, _⟩ => ⟨S2000000x1, .i32⟩
  | .hbm, ⟨74, _⟩ => ⟨S150000x64, .f32⟩
  | .hbm, ⟨75, _⟩ => ⟨S150000x64, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | .local _ .vmem, ⟨8, _⟩ => ⟨S8192x1, .f32⟩
  | .local _ .vmem, ⟨9, _⟩ => ⟨S8192x1, .f32⟩
  | .local _ .vmem, ⟨10, _⟩ => ⟨S8192x64, .f32⟩
  | .local _ .vmem, ⟨11, _⟩ => ⟨S8192x64, .f32⟩
  | .local _ .vmem, ⟨12, _⟩ => ⟨S4096x64, .f32⟩
  | .local _ .vmem, ⟨13, _⟩ => ⟨S4096x64, .f32⟩
  | .local _ .vmem, ⟨14, _⟩ => ⟨S4096x64, .f32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![245], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![37], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S150000x64 : S_.BroadcastsInDim S150000x64 (![] : Fin 0 → Fin S150000x64.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x64.size a < S2000000x64.size a
  hwx0_0 : ∀ i : grid0.Coords, EltTy.bits .f32 = 32 ∨ (Rect.unit (s := S2000000x64) (fun a => cc0_transform_0 i a * S8192x64.size a) (fun a => (Pipeline.Clip.of (cc0_transform_0 i a) (S8192x64.size a) (S2000000x64.size a)).extent (S8192x64.size a)) fun a => Pipeline.Clip.inb (Pipeline.Clip.ok_of (hstart0_0 i a))).WholeWords (EltTy.packing .f32)
  hwxs0_0 : ∀ i : grid0.Coords, EltTy.bits .f32 = 32 ∨ (Rect.unit (s := S8192x64) (fun _ => 0) (fun a => (Pipeline.Clip.of (cc0_transform_0 i a) (S8192x64.size a) (S2000000x64.size a)).extent (S8192x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x1.size a < S2000000x1.size a
  hwx0_1 : ∀ i : grid0.Coords, EltTy.bits .f32 = 32 ∨ (Rect.unit (s := S2000000x1) (fun a => cc0_transform_1 i a * S8192x1.size a) (fun a => (Pipeline.Clip.of (cc0_transform_1 i a) (S8192x1.size a) (S2000000x1.size a)).extent (S8192x1.size a)) fun a => Pipeline.Clip.inb (Pipeline.Clip.ok_of (hstart0_1 i a))).WholeWords (EltTy.packing .f32)
  hwxs0_1 : ∀ i : grid0.Coords, EltTy.bits .f32 = 32 ∨ (Rect.unit (s := S8192x1) (fun _ => 0) (fun a => (Pipeline.Clip.of (cc0_transform_1 i a) (S8192x1.size a) (S2000000x1.size a)).extent (S8192x1.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x64.size a < S2000000x64.size a
  hwx0_2 : ∀ i : grid0.Coords, EltTy.bits .f32 = 32 ∨ (Rect.unit (s := S2000000x64) (fun a => cc0_transform_2 i a * S8192x64.size a) (fun a => (Pipeline.Clip.of (cc0_transform_2 i a) (S8192x64.size a) (S2000000x64.size a)).extent (S8192x64.size a)) fun a => Pipeline.Clip.inb (Pipeline.Clip.ok_of (hstart0_2 i a))).WholeWords (EltTy.packing .f32)
  hwxs0_2 : ∀ i : grid0.Coords, EltTy.bits .f32 = 32 ∨ (Rect.unit (s := S8192x64) (fun _ => 0) (fun a => (Pipeline.Clip.of (cc0_transform_2 i a) (S8192x64.size a) (S2000000x64.size a)).extent (S8192x64.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x64.size a < S2000000x64.size a
  hwx1_0 : ∀ i : grid1.Coords, EltTy.bits .f32 = 32 ∨ (Rect.unit (s := S2000000x64) (fun a => cc1_transform_0 i a * S8192x64.size a) (fun a => (Pipeline.Clip.of (cc1_transform_0 i a) (S8192x64.size a) (S2000000x64.size a)).extent (S8192x64.size a)) fun a => Pipeline.Clip.inb (Pipeline.Clip.ok_of (hstart1_0 i a))).WholeWords (EltTy.packing .f32)
  hwxs1_0 : ∀ i : grid1.Coords, EltTy.bits .f32 = 32 ∨ (Rect.unit (s := S8192x64) (fun _ => 0) (fun a => (Pipeline.Clip.of (cc1_transform_0 i a) (S8192x64.size a) (S2000000x64.size a)).extent (S8192x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8192x1.size a < S2000000x1.size a
  hwx1_1 : ∀ i : grid1.Coords, EltTy.bits .f32 = 32 ∨ (Rect.unit (s := S2000000x1) (fun a => cc1_transform_1 i a * S8192x1.size a) (fun a => (Pipeline.Clip.of (cc1_transform_1 i a) (S8192x1.size a) (S2000000x1.size a)).extent (S8192x1.size a)) fun a => Pipeline.Clip.inb (Pipeline.Clip.ok_of (hstart1_1 i a))).WholeWords (EltTy.packing .f32)
  hwxs1_1 : ∀ i : grid1.Coords, EltTy.bits .f32 = 32 ∨ (Rect.unit (s := S8192x1) (fun _ => 0) (fun a => (Pipeline.Clip.of (cc1_transform_1 i a) (S8192x1.size a) (S2000000x1.size a)).extent (S8192x1.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8192x64.size a < S2000000x64.size a
  hwx1_2 : ∀ i : grid1.Coords, EltTy.bits .f32 = 32 ∨ (Rect.unit (s := S2000000x64) (fun a => cc1_transform_2 i a * S8192x64.size a) (fun a => (Pipeline.Clip.of (cc1_transform_2 i a) (S8192x64.size a) (S2000000x64.size a)).extent (S8192x64.size a)) fun a => Pipeline.Clip.inb (Pipeline.Clip.ok_of (hstart1_2 i a))).WholeWords (EltTy.packing .f32)
  hwxs1_2 : ∀ i : grid1.Coords, EltTy.bits .f32 = 32 ∨ (Rect.unit (s := S8192x64) (fun _ => 0) (fun a => (Pipeline.Clip.of (cc1_transform_2 i a) (S8192x64.size a) (S2000000x64.size a)).extent (S8192x64.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S4096x64.size a < S150000x64.size a
  hwx2_0 : ∀ i : grid2.Coords, EltTy.bits .f32 = 32 ∨ (Rect.unit (s := S150000x64) (fun a => cc2_transform_0 i a * S4096x64.size a) (fun a => (Pipeline.Clip.of (cc2_transform_0 i a) (S4096x64.size a) (S150000x64.size a)).extent (S4096x64.size a)) fun a => Pipeline.Clip.inb (Pipeline.Clip.ok_of (hstart2_0 i a))).WholeWords (EltTy.packing .f32)
  hwxs2_0 : ∀ i : grid2.Coords, EltTy.bits .f32 = 32 ∨ (Rect.unit (s := S4096x64) (fun _ => 0) (fun a => (Pipeline.Clip.of (cc2_transform_0 i a) (S4096x64.size a) (S150000x64.size a)).extent (S4096x64.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S4096x64.size a < S150000x64.size a
  hwx2_1 : ∀ i : grid2.Coords, EltTy.bits .f32 = 32 ∨ (Rect.unit (s := S150000x64) (fun a => cc2_transform_1 i a * S4096x64.size a) (fun a => (Pipeline.Clip.of (cc2_transform_1 i a) (S4096x64.size a) (S150000x64.size a)).extent (S4096x64.size a)) fun a => Pipeline.Clip.inb (Pipeline.Clip.ok_of (hstart2_1 i a))).WholeWords (EltTy.packing .f32)
  hwxs2_1 : ∀ i : grid2.Coords, EltTy.bits .f32 = 32 ∨ (Rect.unit (s := S4096x64) (fun _ => 0) (fun a => (Pipeline.Clip.of (cc2_transform_1 i a) (S4096x64.size a) (S150000x64.size a)).extent (S4096x64.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S4096x64.size a < S150000x64.size a
  hwx2_2 : ∀ i : grid2.Coords, EltTy.bits .f32 = 32 ∨ (Rect.unit (s := S150000x64) (fun a => cc2_transform_2 i a * S4096x64.size a) (fun a => (Pipeline.Clip.of (cc2_transform_2 i a) (S4096x64.size a) (S150000x64.size a)).extent (S4096x64.size a)) fun a => Pipeline.Clip.inb (Pipeline.Clip.ok_of (hstart2_2 i a))).WholeWords (EltTy.packing .f32)
  hwxs2_2 : ∀ i : grid2.Coords, EltTy.bits .f32 = 32 ∨ (Rect.unit (s := S4096x64) (fun _ => 0) (fun a => (Pipeline.Clip.of (cc2_transform_2 i a) (S4096x64.size a) (S150000x64.size a)).extent (S4096x64.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S4096x64.size a < S150000x64.size a
  hwx2_3 : ∀ i : grid2.Coords, EltTy.bits .f32 = 32 ∨ (Rect.unit (s := S150000x64) (fun a => cc2_transform_3 i a * S4096x64.size a) (fun a => (Pipeline.Clip.of (cc2_transform_3 i a) (S4096x64.size a) (S150000x64.size a)).extent (S4096x64.size a)) fun a => Pipeline.Clip.inb (Pipeline.Clip.ok_of (hstart2_3 i a))).WholeWords (EltTy.packing .f32)
  hwxs2_3 : ∀ i : grid2.Coords, EltTy.bits .f32 = 32 ∨ (Rect.unit (s := S4096x64) (fun _ => 0) (fun a => (Pipeline.Clip.of (cc2_transform_3 i a) (S4096x64.size a) (S150000x64.size a)).extent (S4096x64.size a)) fun a => (Nat.zero_add _).trans_le (Pipeline.Clip.extent_le (Pipeline.Clip.ok_of (hstart2_3 i a)))).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpecClip (Memref.whole main_v37) S8192x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v30) S8192x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v38) S8192x64.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v48) S8192x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v30) S8192x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v49) S8192x64.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_arg0) S4096x64.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v41) S4096x64.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v52) S4096x64.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v53) S4096x64.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S150000x64 : Shape := ⟨2, ![150000, 64]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S2000000x64 : Shape := ⟨2, ![2000000, 64]⟩

abbrev nBuf : Space → Nat
  | .hbm => 82
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S2x2000000, .i32⟩
  | .hbm, ⟨2, _⟩ => ⟨S1x2000000, .i32⟩
  | .hbm, ⟨3, _⟩ => ⟨S2000000, .i32⟩
  | .hbm, ⟨4, _⟩ => ⟨S1x2000000, .i32⟩
  | .hbm, ⟨5, _⟩ => ⟨S2000000, .i32⟩
  | .hbm, ⟨6, _⟩ => ⟨S_, .f32⟩
  | .hbm, ⟨7, _⟩ => ⟨S2000000, .f32⟩
  | .hbm, ⟨8, _⟩ => ⟨S_, .f32⟩
  | .hbm, ⟨9, _⟩ => ⟨S150000, .f32⟩
  | .hbm, ⟨10, _⟩ => ⟨S2000000x1, .i32⟩
  | .hbm, ⟨11, _⟩ => ⟨S150000, .f32⟩
  | .hbm, ⟨12, _⟩ => ⟨S_, .f32⟩
  | .hbm, ⟨13, _⟩ => ⟨S150000, .f32⟩
  | .hbm, ⟨14, _⟩ => ⟨S150000, .i1⟩
  | .hbm, ⟨15, _⟩ => ⟨S_, .f32⟩
  | .hbm, ⟨16, _⟩ => ⟨S150000, .f32⟩
  | .hbm, ⟨17, _⟩ => ⟨S150000, .i1⟩
  | .hbm, ⟨18, _⟩ => ⟨S_, .f32⟩
  | .hbm, ⟨19, _⟩ => ⟨S_, .f32⟩
  | .hbm, ⟨20, _⟩ => ⟨S150000, .f32⟩
  | .hbm, ⟨21, _⟩ => ⟨S150000, .f32⟩
  | .hbm, ⟨22, _⟩ => ⟨S150000, .f32⟩
  | .hbm, ⟨23, _⟩ => ⟨S_, .f32⟩
  | .hbm, ⟨24, _⟩ => ⟨S_, .f32⟩
  | .hbm, ⟨25, _⟩ => ⟨S150000, .f32⟩
  | .hbm, ⟨26, _⟩ => ⟨S150000, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000, .f32⟩
  | .hbm, ⟨45, _⟩ => ⟨S2000000, .f32⟩
  | .hbm, ⟨46, _⟩ => ⟨S2000000x1, .f32⟩
  | .hbm, ⟨47, _⟩ => ⟨S_, .i32⟩
  | .hbm, ⟨48, _⟩ => ⟨S2000000, .i32⟩
  | .hbm, ⟨49, _⟩ => ⟨S2000000, .i1⟩
  | .hbm, ⟨50, _⟩ => ⟨S_, .i32⟩
  | .hbm, ⟨51, _⟩ => ⟨S2000000, .i32⟩
  | .hbm, ⟨52, _⟩ => ⟨S2000000, .i32⟩
  | .hbm, ⟨53, _⟩ => ⟨S2000000, .i32⟩
  | .hbm, ⟨54, _⟩ => ⟨S2000000x1, .i32⟩
  | .hbm, ⟨55, _⟩ => ⟨S2000000x64, .f32⟩
  | .hbm, ⟨56, _⟩ => ⟨S2000000x64, .f32⟩
  | .hbm, ⟨57, _⟩ => ⟨S2000000x64, .f32⟩
  | .hbm, ⟨58, _⟩ => ⟨S_, .f32⟩
  | .hbm, ⟨59, _⟩ => ⟨S150000x64, .f32⟩
  | .hbm, ⟨60, _⟩ => ⟨S2000000x1, .i32⟩
  | .hbm, ⟨61, _⟩ => ⟨S150000x64, .f32⟩
  | .hbm, ⟨62, _⟩ => ⟨S_, .i32⟩
  | .hbm, ⟨63, _⟩ => ⟨S2000000, .i32⟩
  | .hbm, ⟨64, _⟩ => ⟨S2000000, .i1⟩
  | .hbm, ⟨65, _⟩ => ⟨S_, .i32⟩
  | .hbm, ⟨66, _⟩ => ⟨S2000000, .i32⟩
  | .hbm, ⟨67, _⟩ => ⟨S2000000, .i32⟩
  | .hbm, ⟨68, _⟩ => ⟨S2000000, .i32⟩
  | .hbm, ⟨69, _⟩ => ⟨S2000000x1, .i32⟩
  | .hbm, ⟨70, _⟩ => ⟨S2000000x64, .f32⟩
  | .hbm, ⟨71, _⟩ => ⟨S2000000x64, .f32⟩
  | .hbm, ⟨72, _⟩ => ⟨S2000000x64, .f32⟩
  | .hbm, ⟨73, _⟩ => ⟨S_, .f32⟩
  | .hbm, ⟨74, _⟩ => ⟨S150000x64, .f32⟩
  | .hbm, ⟨75, _⟩ => ⟨S2000000x1, .i32⟩
  | .hbm, ⟨76, _⟩ => ⟨S150000x64, .f32⟩
  | .hbm, ⟨77, _⟩ => ⟨S150000x64, .f32⟩
  | .hbm, ⟨78, _⟩ => ⟨S150000x64, .f32⟩
  | .hbm, ⟨79, _⟩ => ⟨S_, .f32⟩
  | .hbm, ⟨80, _⟩ => ⟨S150000x64, .f32⟩
  | .hbm, ⟨81, _⟩ => ⟨S150000x64, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_11 : Ref sig .tc := ⟨.hbm, 62, rfl⟩
abbrev main_v43 : Ref sig .tc := ⟨.hbm, 63, rfl⟩
abbrev main_v44 : Ref sig .tc := ⟨.hbm, 64, rfl⟩
abbrev main_c_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.LibColumnForms.lean ====
/-
  A vector kept as a one-column matrix, read at an entry.

  A row-wise reduction that keeps its axis (a sum over the columns of an [a, n] block, kept as [a, 1]) is spelt by a
  vector program in two steps: the lane sum into a vector of length a, then a shape cast that stands the vector up
  as a column. The column is then spread across the b columns of an [a, b] block by a broadcast; its transpose, a
  [1, a] row, is spread down the rows. Here each step is read at an entry given by its coordinates:

    the column of a vector              [a]    → [a, 1]   entry (i, 0) is the vector's entry i;
    a column spread across the columns  [a, 1] → [a, b]   entry (i, j) is the column's entry (i, 0);
    a lane sum over the second axis     [a, n] → [a]      entry i is the sum over k < n of the block's entry (i, k),
                                                          on the extended reals, where the zero accumulator is the
                                                          sum's neutral element and leaves no trace.

  (The transpose of a column into a row and the spreading of a row down the rows are in the library's layout file.)
-/
import Idealize.ShloMosaic.Lib.ValueIdx
import Idealize.ShloMosaic.Lib.Pipeline.Value
import Idealize.ShloMosaic.PureOps.Ideal.Laws

noncomputable section

open scoped BigOperators

namespace Idealize.ShloMosaic.ColumnForms

open Idealize.ShloMosaic Idealize.ShloMosaic.ValueIdx

variable {α : Type}

/-- A vector stood up as a one-column matrix by a shape cast: entry (i, 0) is the vector's entry i (the two indices
    have the same row-major position, i · 1 + 0 = i). -/
theorem shapeCast_a_a1_apply {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

/-- A one-column matrix spread across b columns by a broadcast: entry (i, j) is the column's entry (i, 0). -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-- A lane sum of an [a, n] block over its second axis, on the extended reals: entry i is the sum over the n columns of
    the block's row i. The accumulator word is the sum's neutral element, whatever proof of that the program carries. -/
theorem laneSum_apply {a n : ℕ} {φ : FTy} (x : FVec Ideal (⟨2, ![a, n]⟩ : Shape) φ) (acc : BitVec φ.bits)
    (h : (⟨2, ![a, n]⟩ : Shape).Reduces [1] ⟨1, ![a]⟩) (hφ : FKind.Formats φ) (hacc : acc = FKind.add.neutral φ hφ) (i : Fin a) :
    multiReduction .add [1] ⟨1, ![a]⟩ x acc h hφ hacc (ix1 i) = ∑ k : Fin n, x (ix2 i k) := by
  refine (Ideal.multiReduction_add_single x acc h hφ hacc (ix1 i)).trans ?_
  refine Finset.sum_congr rfl fun k _ => congrArg x (funext fun c => Fin.ext ?_)
  match c with
  | ⟨0, _⟩ => rfl
  | ⟨1, _⟩ => rfl

/-- The same lane sum as an f32 program prints it: the accumulator is the zero word, and the proof it carries that the
    word is the sum's neutral element is a proof that zero is zero. -/
theorem laneSum_zero_f32_apply {a n : ℕ} (x : FVec Ideal (⟨2, ![a, n]⟩ : Shape) .f32)
    (h : (⟨2, ![a, n]⟩ : Shape).Reduces [1] ⟨1, ![a]⟩) (hφ : FKind.Formats .f32)
    (hacc : (0x00000000#32 : BitVec 32) = 0x00000000#32) (i : Fin a) :
    multiReduction .add [1] ⟨1, ![a]⟩ x 0x00000000#32 h hφ hacc (ix1 i) = ∑ k : Fin n, x (ix2 i k) :=
  laneSum_apply x 0x00000000#32 h hφ hacc i

end Idealize.ShloMosaic.ColumnForms

end
-- ==== Proof.LayerSpec.lean ====
/-
  The two pointwise steps of the layer, as functions of whole arrays, index by index.

    scaleRows h n   entry (e, j) = h[e, j] · n[e, 0]            one row of features per edge, times the edge's weight;
    mean3 k a b c   entry (v, j) = ((a + b)[v, j] + c[v, j]) · k  the sum of three embeddings times a constant k.

  Both are stated over any float interpretation; nothing here mentions a program.
-/
import Idealize.ShloMosaic.PureOps
import Idealize.ShloMosaic.Lib.ValueIdx

noncomputable section

namespace Cert.LayerSpec

open Idealize.ShloMosaic Idealize.ShloMosaic.ValueIdx

variable {F : FTy → Type} [FloatOps F]

abbrev SE64 : Shape := ⟨2, ![2000000, 64]⟩
abbrev SE1 : Shape := ⟨2, ![2000000, 1]⟩
abbrev SN64 : Shape := ⟨2, ![150000, 64]⟩

/-- Every row of h times its edge's weight. -/
def scaleRows (h : FVec F SE64 .f32) (n : FVec F SE1 .f32) : FVec F SE64 .f32 :=
  fun i => FloatOps.mulf (h i) (n (ix2 (i 0) (0 : Fin 1)))

/-- The sum of three arrays, entry by entry, times a constant. -/
def mean3 (k : F .f32) (a b c : FVec F SN64 .f32) : FVec F SN64 .f32 :=
  fun i => FloatOps.mulf (FloatOps.addf (FloatOps.addf (a i) (b i)) (c i)) k

end Cert.LayerSpec

end
-- ==== Proof.KbScale0.lean ====
/-
  One call of the edge-scaling kernel, region 0 of the program: over E = 2 000 000 edges in blocks of 8192 rows,
  out[e, :] = h[e, :] · n[e, 0]  — every row of the gathered features h (E × 64) times that edge's weight n (E × 1).

  The grid has 245 points; 244 · 8192 = 1 998 848 < E, so the last block overhangs the arrays by 7040 rows. A fetch
  of that block brings in the 1152 rows that exist and leaves the rest of the staging buffer at words nothing names;
  the body multiplies all 8192 rows; the write-back returns the first 1152. What the proof needs is therefore local:
  entry (r, j) of the body's product depends on entry (r, j) of the row block and entry (r, 0) of the weight block
  only, and the three windows are cut at the same row, so a row that is written back was computed from rows that
  were fetched. Every entry of the result then is h[e, j] · n[e, 0], and the 245 blocks cover the array.
-/
import proofs.«129552_j68410239091164_1_alg».proof.Proof.Gen.Kernel.Launch
import proofs.«129552_j68410239091164_1_alg».proof.Proof.Gen.Kernel.Skeleton
import proofs.«129552_j68410239091164_1_alg».proof.Proof.Gen.Kernel.Points
import proofs.«129552_j68410239091164_1_alg».proof.Proof.LibColumnForms
import proofs.«129552_j68410239091164_1_alg».proof.Proof.LayerSpec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.Kernel.Scale0

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's product at an entry -/

/-- Entry (r, j) of the stored product: the row block's entry (r, j) times the weight column's entry (r, 0). -/
theorem product_apply (x0 : Vec F S8192x64 .f32) (x1 : Vec F S8192x1 .f32) (r : Fin 8192) (j : Fin 64) :
    k0_pay1 x0 x1 (ix2 r j) = FloatOps.mulf (x0 (ix2 r j)) (x1 (ix2 r (0 : Fin 1))) := by
  unfold k0_pay1
  show FloatOps.mulf (shapeCast S8192x64 x0 shapeCasts_S8192x64_S8192x64 (ix2 r j))
      (broadcastTo S8192x64 (shapeCast S8192x1 (shapeCast S8192x1 x1 shapeCasts_S8192x1_S8192x1) shapeCasts_S8192x1_S8192x1)
        broadcasts_S8192x1_S8192x64 (ix2 r j)) = _
  rw [shapeCast_self, shapeCast_self, shapeCast_self]
  exact congrArg _ (ColumnForms.broadcastTo_a1_ab_apply x1 broadcasts_S8192x1_S8192x64 r j)

/-- The same at any index of the block. -/
theorem product_at (x0 : Vec F S8192x64 .f32) (x1 : Vec F S8192x1 .f32) (p : S8192x64.Idx) :
    k0_pay1 x0 x1 p = FloatOps.mulf (x0 p) (x1 (ix2 (p 0) (0 : Fin 1))) := by
  have e : p = ix2 (p 0) (p 1) := eq_ix2 p
  rw [e]; exact product_apply x0 x1 (p 0) (p 1)

/-- So two pairs of blocks that agree at (r, j) and at (r, 0) give products that agree at (r, j). -/
theorem product_congr {x0 y0 : Vec F S8192x64 .f32} {x1 y1 : Vec F S8192x1 .f32} (p : S8192x64.Idx)
    (h0 : x0 p = y0 p) (h1 : x1 (ix2 (p 0) (0 : Fin 1)) = y1 (ix2 (p 0) (0 : Fin 1))) :
    k0_pay1 x0 x1 p = k0_pay1 y0 y1 p := by
  rw [product_at, product_at, h0, h1]

/-! ## The body's triple -/

abbrev rA : Rect S8192x64 := Rect.unit (s := S8192x64) ![0, 0] S8192x64.size inb_S8192x64_S8192x64_0_0
abbrev rB : Rect S8192x1 := Rect.unit (s := S8192x1) ![0, 0] S8192x1.size inb_S8192x1_S8192x1_0_0

theorem hz : (![0, 0] : Fin 2 → Nat) = fun _ => 0 := funext fun a => by fin_cases a <;> rfl

/-- What the one store leaves in the output's buffer: the product of what the two whole loads read. -/
def stored (x0 : Vec F S8192x64 .f32) (x1 : Vec F S8192x1 .f32) : Vec F S8192x64 .f32 :=
  View.canon [⟨rA, k0_pay1 (View.ld x0 rA) (View.ld x1 rB)⟩]

theorem stored_eq (x0 : Vec F S8192x64 .f32) (x1 : Vec F S8192x1 .f32) : stored x0 x1 = k0_pay1 x0 x1 := by
  unfold stored
  rw [View.canon_unit_zero hz]
  rw [View.ld_unit_zero (S := S8192x64) hz, View.ld_unit_zero (S := S8192x1) hz]

theorem stored_cover (p0 : Vec F S8192x64 .f32) (y : S8192x64.Idx) :
    ∃ pc ∈ ([⟨rA, p0⟩] : List (View.Piece (Elt F) S8192x64 .f32)), y ∈ pc.1.set :=
  ⟨_, List.mem_singleton_self _, View.mem_set_unit_zero hz inb_S8192x64_S8192x64_0_0 y⟩

set_option maxHeartbeats 1000000 in
/-- The kernel body on whole staging buffers, the two inputs' at contents x0 and x1 and the output's at anything: it
    runs to the end with the inputs' buffers as they were and the output's holding the product. -/
theorem body_triple (c : Dev nD) (E : Set ℕ) (i : grid0.Coords)
    (arg1 : Memref sig .tc .vmem S8192x64 .f32) (harg1 : arg1.IsWhole)
    (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (stored_cover _)).trans (stored_eq _ _)

end Cert.Kernel.Scale0

/-! ## The blocks the region finds -/

namespace Cert.Kernel.Scale0

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The rows of h the fetch at point t reads: the block's part inside the array. -/
def rowsBlk (c : Dev nD) (t : Fin cfg0.N) : (win0_0.xblock (grid0.coords t)).Idx → Elt F .f32 :=
  (win0_0.blk t).view.read (Elt F) (V c main_v37)
/-- The weights the fetch at point t reads. -/
def weightsBlk (c : Dev nD) (t : Fin cfg0.N) : (win0_1.xblock (grid0.coords t)).Idx → Elt F .f32 :=
  (win0_1.blk t).view.read (Elt F) (V c main_v30)

/-- The two staging buffers after the body, on the rows inside the array; past the array's end the obligation states
    nothing, and this filler is the zero word. -/
def rowsAt (c : Dev nD) (t : Fin cfg0.N) : S8192x64.Idx → Elt F .f32 :=
  win0_0.fill (grid0.coords t) (fun _ => Scalar.ofBits .f32 0#32) (rowsBlk V c t)
def weightsAt (c : Dev nD) (t : Fin cfg0.N) : S8192x1.Idx → Elt F .f32 :=
  win0_1.fill (grid0.coords t) (fun _ => Scalar.ofBits .f32 0#32) (weightsBlk V c t)

/-! ## The three windows are cut at the same row -/

/-- Whatever a fetch left past the array's end does not show at an index the fetch filled. -/
theorem fill_irrel {G : Pipeline.Grid} (w : Window sig G) {α : Type} (i : G.Coords) (d e : w.block.Idx → α)
    (g : (w.xblock i).Idx → α) (p : w.block.Idx) (h : w.moved i p = true) : w.fill i d g p = w.fill i e g p := by
  unfold Window.fill; rw [dif_pos h, dif_pos h]

/-- A row the write-back returns is a row the fetch of h filled, -/
theorem moved_rows (i : grid0.Coords) (j : (win0_2.xblock i).Idx) : win0_0.moved i (win0_2.xinj i j) = true :=
  (win0_0.moved_iff i _).mpr fun a => (j a).isLt

/-- and a row the fetch of the weights filled (its one column is never cut). -/
theorem moved_weights (i : grid0.Coords) (j : (win0_2.xblock i).Idx) :
    win0_1.moved i (ix2 (win0_2.xinj i j 0) (0 : Fin 1)) = true :=
  (win0_1.moved_iff i _).mpr fun a => match a with
    | ⟨0, _⟩ => (j 0).isLt
    | ⟨1, _⟩ => Nat.zero_lt_one

/-- So on the rows written back the product does not depend on what lay past the array's end in either input buffer. -/
theorem cut_product (i : grid0.Coords) (d0 e0 : S8192x64.Idx → Elt F .f32) (d1 e1 : S8192x1.Idx → Elt F .f32)
    (b0 : (win0_0.xblock i).Idx → Elt F .f32) (b1 : (win0_1.xblock i).Idx → Elt F .f32) :
    win0_2.cut i (k0_pay1 (win0_0.fill i d0 b0) (win0_1.fill i d1 b1))
      = win0_2.cut i (k0_pay1 (win0_0.fill i e0 b0) (win0_1.fill i e1 b1)) := by
  funext j
  show k0_pay1 _ _ (win0_2.xinj i j) = k0_pay1 _ _ (win0_2.xinj i j)
  exact product_congr _ (fill_irrel win0_0 i d0 e0 b0 _ (moved_rows i j)) (fill_irrel win0_1 i d1 e1 b1 _ (moved_weights i j))

/-! ## The pipeline's proof data -/

/-- The arrays as the region finds them; after the body each input's buffer at its block and the output's at their
    product; the class's invariant (the scoped rest and the generator register, untouched); nothing owed. -/
def dat (c : Dev nD) : Dat τ (Elt F) Unit ℕ (UR sig nD τ) ℕ cfg0 c where
  A w := V c (Pipeline.arrRef spec0 w)
  after w t := match w with
    | ⟨0, _⟩ => rowsAt V c t
    | ⟨1, _⟩ => weightsAt V c t
    | ⟨2, _⟩ => k0_pay1 (rowsAt V c t) (weightsAt V c t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = rowsAt V c t := by dsimp only [dat]
theorem after_1 (c : Dev nD) (t : Fin cfg0.N) : (dat V c).after 1 t = weightsAt V c t := by dsimp only [dat]
theorem after_2 (c : Dev nD) (t : Fin cfg0.N) : (dat V c).after 2 t = k0_pay1 (rowsAt V c t) (weightsAt V c t) := by dsimp only [dat]

/-- Both inputs are fetched at every point: the body finds each buffer at its block, and at anything past the array's end. -/
theorem before_0 (c : Dev nD) (t : Fin cfg0.N) (d) :
    (dat V c).before 0 t d = win0_0.fill (grid0.coords t) d (rowsBlk V c t) := by
  unfold Dat.before; rw [if_pos (fetch0_0 t)]; rfl
theorem before_1 (c : Dev nD) (t : Fin cfg0.N) (d) :
    (dat V c).before 1 t d = win0_1.fill (grid0.coords t) d (weightsBlk V c t) := by
  unfold Dat.before; rw [if_pos (fetch0_1 t)]; rfl

/-! ## The body obligation -/

/-- What the body is called with at point t: the invariant, the core's dues, and each window's current buffer at what it
    then holds, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns: each buffer stated on the rows inside the array only (all three windows are cut). -/
def bodyPost (c : Dev nD) (t : Fin cfg0.N) : sProp 𝕄 :=
  iprop((dat V c).Φ t.succ ∗ (dat V c).owesAt () t.succ
    ∗ (∃ d, owns (c : Thread nD τ) (st0_0 t) fullShare
        ((cfg0.win 0).fill (cfg0.grid.coords t) d ((cfg0.win 0).cut (cfg0.grid.coords t) ((dat V c).after 0 t))))
    ∗ (∃ d, owns (c : Thread nD τ) (st0_1 t) fullShare
        ((cfg0.win 1).fill (cfg0.grid.coords t) d ((cfg0.win 1).cut (cfg0.grid.coords t) ((dat V c).after 1 t))))
    ∗ (∃ d, owns (c : Thread nD τ) (st0_2 t) fullShare
        ((cfg0.win 2).fill (cfg0.grid.coords t) d ((cfg0.win 2).cut (cfg0.grid.coords t) ((dat V c).after 2 t)))))

/-- At every point: the inputs' buffers arrive holding their blocks filled out with anything, the output's holding
    anything; the body leaves the inputs' as they were and the output's at the product, which on the rows inside the
    array is the product of the blocks — all the obligation of a cut window asks. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩⟩
  rw [before_0 V c t d0, before_1 V c t d1]
  iapply (body_triple (F := F) c Set.univ (grid0.coords t) _ _ _ _ _ _
    (win0_0.fill (grid0.coords t) d0 (rowsBlk V c t)) (win0_1.fill (grid0.coords t) d1 (weightsBlk V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win0_0.cut (grid0.coords t) (rowsAt V c t) = rowsBlk V c t := win0_0.cut_fill _ _ _
  have h1 : win0_1.cut (grid0.coords t) (weightsAt V c t) = weightsBlk V c t := win0_1.cut_fill _ _ _
  isplitl [H0]
  · iexists d0
    rw [after_0]
    change _ ⊢ owns (c : Thread nD τ) (stage0_0 (cfg0.slots t 0)) fullShare
      (win0_0.fill (grid0.coords t) d0 (win0_0.cut (grid0.coords t) (rowsAt V c t)))
    rw [h0]; try iexact H0
  isplitl [H1]
  · iexists d1
    rw [after_1]
    change _ ⊢ owns (c : Thread nD τ) (stage0_1 (cfg0.slots t 1)) fullShare
      (win0_1.fill (grid0.coords t) d1 (win0_1.cut (grid0.coords t) (weightsAt V c t)))
    rw [h1]; try iexact H1
  · iexists k0_pay1 (win0_0.fill (grid0.coords t) d0 (rowsBlk V c t)) (win0_1.fill (grid0.coords t) d1 (weightsBlk V c t))
    rw [after_2]
    change _ ⊢ owns (c : Thread nD τ) (stage0_2 (cfg0.slots t 2)) fullShare
      (win0_2.fill (grid0.coords t) (k0_pay1 (win0_0.fill (grid0.coords t) d0 (rowsBlk V c t)) (win0_1.fill (grid0.coords t) d1 (weightsBlk V c t)))
        (win0_2.cut (α := Elt F .f32) (grid0.coords t) (k0_pay1 (rowsAt V c t) (weightsAt V c t))))
    unfold rowsAt weightsAt
    rw [win0_2.fill_congr_cut (grid0.coords t) (cut_product (grid0.coords t) d0 _ d1 _ (rowsBlk V c t) (weightsBlk V c t))]
    try iexact H2

/-- The same at every point, in the form the loop that drives the body takes it. -/
theorem obligation (c : Dev nD) : BodyObligationLoose (dat (F := F) V c) (defs₀ (F := F)) Variants.none () Set.univ := fun t => by
  rw [bigSep_W0, bigSep_W0]
  exact sound_body V c t

end Cert.Kernel.Scale0

/-! ## The array the region leaves -/

namespace Cert.Kernel.Scale0

open Cert.Kernel Cert.Kernel.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The index maps over the grid, decided once: block t starts at row t · 8192 and column 0 in all three windows, and
    holds min(8192, E − t · 8192) rows. -/
theorem grid_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_2.xsize (grid0.coords t) (0 : Fin 2) = min 8192 (2000000 - t.val * 8192)
    ∧ win0_2.xsize (grid0.coords t) (1 : Fin 2) = 64 :=
  (by decide +kernel : ∀ t : Fin grid0.N, _)

/-- What point t writes back is block t of the whole product h[e, j] · n[e, 0]. -/
theorem flushed_eq (c : Dev nD) (t : Fin cfg0.N) :
    (dat V c).flushed 2 t = ((cfg0.win 2).blk t).view.read (Elt F) (LayerSpec.scaleRows (V c main_v37) (V c main_v30)) := by
  funext j
  show (cfg0.win 2).cut (cfg0.grid.coords t) ((dat V c).after 2 t) j = _
  rw [after_2]
  show k0_pay1 (rowsAt V c t) (weightsAt V c t) (win0_2.xinj (grid0.coords t) j)
    = LayerSpec.scaleRows (V c main_v37) (V c main_v30) ((win0_2.blk t).view.emb j)
  rw [product_at]
  unfold LayerSpec.scaleRows
  obtain ⟨a0, a1, b0, b1, c0, c1, -, -⟩ := grid_facts t
  refine congrArg₂ FloatOps.mulf ?_ ?_
  · unfold rowsAt Window.fill
    rw [dif_pos (moved_rows (grid0.coords t) j)]
    unfold rowsBlk
    rw [View.read_apply]
    refine congrArg (V c main_v37) (funext fun a => Fin.ext ?_)
    match a with
    | ⟨0, _⟩ =>
      show win0_0.index t (0 : Fin 2) * 8192 + 1 * (j 0).val = win0_2.index t (0 : Fin 2) * 8192 + 1 * (j 0).val
      rw [a0, c0]
    | ⟨1, _⟩ =>
      show win0_0.index t (1 : Fin 2) * 64 + 1 * (j 1).val = win0_2.index t (1 : Fin 2) * 64 + 1 * (j 1).val
      rw [a1, c1]
  · unfold weightsAt Window.fill
    rw [dif_pos (moved_weights (grid0.coords t) j)]
    unfold weightsBlk
    rw [View.read_apply]
    refine congrArg (V c main_v30) (funext fun a => Fin.ext ?_)
    match a with
    | ⟨0, _⟩ =>
      show win0_1.index t (0 : Fin 2) * 8192 + 1 * (j 0).val = win0_2.index t (0 : Fin 2) * 8192 + 1 * (j 0).val
      rw [b0, c0]
    | ⟨1, _⟩ =>
      show win0_1.index t (1 : Fin 2) * 1 + 1 * 0 = 0
      rw [b1]

/-- An entry of the array lies in block t exactly when its row is among the block's rows inside the array. -/
theorem mem_blk (t : Fin cfg0.N) (i : S2000000x64.Idx) :
    i ∈ ((cfg0.win 2).blk t).view.set ↔ ∀ a, win0_2.index t a * win0_2.size a ≤ (i a).val
      ∧ (i a).val < win0_2.index t a * win0_2.size a + win0_2.xsize (grid0.coords t) a := by
  show i ∈ ((View.whole main_v38).slice (win0_2.rect t)).set ↔ _
  rw [View.set_slice_whole, Rect.mem_set_unit]

/-- Row e lies in block e / 8192: the blocks cover the array. -/
theorem cover (i : S2000000x64.Idx) : ∃ t : Fin cfg0.N, (cfg0.win 2).flush t = true ∧ i ∈ ((cfg0.win 2).blk t).view.set := by
  have hr : (i 0).val < 2000000 := (i 0).isLt
  have hc : (i 1).val < 64 := (i 1).isLt
  refine ⟨⟨(i 0).val / 8192, by rw [show cfg0.N = 245 from N_0]; omega⟩, flush0_2 _, ?_⟩
  rw [mem_blk]
  obtain ⟨-, -, -, -, c0, c1, x0, x1⟩ := grid_facts ⟨(i 0).val / 8192, by rw [show cfg0.N = 245 from N_0]; omega⟩
  intro a
  match a with
  | ⟨0, _⟩ =>
    show win0_2.index _ (0 : Fin 2) * 8192 ≤ (i 0).val ∧ (i 0).val < win0_2.index _ (0 : Fin 2) * 8192 + win0_2.xsize _ (0 : Fin 2)
    rw [c0, x0]; dsimp only; omega
  | ⟨1, _⟩ =>
    show win0_2.index _ (1 : Fin 2) * 64 ≤ (i 1).val ∧ (i 1).val < win0_2.index _ (1 : Fin 2) * 64 + win0_2.xsize _ (1 : Fin 2)
    rw [c1, x1]; omega

/-- After the region the output array holds h[e, j] · n[e, 0] at every entry. -/
theorem final (c : Dev nD) : (dat V c).arrAt 2 cfg0.N = LayerSpec.scaleRows (V c main_v37) (V c main_v30) :=
  (dat V c).arrAt_eq_of_cover 2 _ (fun t _ => flushed_eq V c t) cover

/-- The two inputs are never written. -/
theorem final_in0 (c : Dev nD) : (dat V c).arrAt 0 cfg0.N = V c main_v37 := ((dat V c).arrAt_in 0 rfl _).trans (A_eq V c 0)
theorem final_in1 (c : Dev nD) : (dat V c).arrAt 1 cfg0.N = V c main_v30 := ((dat V c).arrAt_in 1 rfl _).trans (A_eq V c 1)

end Cert.Kernel.Scale0

end
-- ==== Proof.KbScale1.lean ====
/-
  One call of the edge-scaling kernel, region 1 of the program: over E = 2 000 000 edges in blocks of 8192 rows,
  out[e, :] = h[e, :] · n[e, 0]  — every row of the gathered features h (E × 64) times that edge's weight n (E × 1).

  The grid has 245 points; 244 · 8192 = 1 998 848 < E, so the last block overhangs the arrays by 7040 rows. A fetch
  of that block brings in the 1152 rows that exist and leaves the rest of the staging buffer at words nothing names;
  the body multiplies all 8192 rows; the write-back returns the first 1152. What the proof needs is therefore local:
  entry (r, j) of the body's product depends on entry (r, j) of the row block and entry (r, 0) of the weight block
  only, and the three windows are cut at the same row, so a row that is written back was computed from rows that
  were fetched. Every entry of the result then is h[e, j] · n[e, 0], and the 245 blocks cover the array.
-/
import proofs.«129552_j68410239091164_1_alg».proof.Proof.Gen.Kernel.Launch
import proofs.«129552_j68410239091164_1_alg».proof.Proof.Gen.Kernel.Skeleton
import proofs.«129552_j68410239091164_1_alg».proof.Proof.Gen.Kernel.Points
import proofs.«129552_j68410239091164_1_alg».proof.Proof.LibColumnForms
import proofs.«129552_j68410239091164_1_alg».proof.Proof.LayerSpec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.Kernel.Scale1

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's product at an entry -/

/-- Entry (r, j) of the stored product: the row block's entry (r, j) times the weight column's entry (r, 0). -/
theorem product_apply (x0 : Vec F S8192x64 .f32) (x1 : Vec F S8192x1 .f32) (r : Fin 8192) (j : Fin 64) :
    k1_pay1 x0 x1 (ix2 r j) = FloatOps.mulf (x0 (ix2 r j)) (x1 (ix2 r (0 : Fin 1))) := by
  unfold k1_pay1
  show FloatOps.mulf (shapeCast S8192x64 x0 shapeCasts_S8192x64_S8192x64 (ix2 r j))
      (broadcastTo S8192x64 (shapeCast S8192x1 (shapeCast S8192x1 x1 shapeCasts_S8192x1_S8192x1) shapeCasts_S8192x1_S8192x1)
        broadcasts_S8192x1_S8192x64 (ix2 r j)) = _
  rw [shapeCast_self, shapeCast_self, shapeCast_self]
  exact congrArg _ (ColumnForms.broadcastTo_a1_ab_apply x1 broadcasts_S8192x1_S8192x64 r j)

/-- The same at any index of the block. -/
theorem product_at (x0 : Vec F S8192x64 .f32) (x1 : Vec F S8192x1 .f32) (p : S8192x64.Idx) :
    k1_pay1 x0 x1 p = FloatOps.mulf (x0 p) (x1 (ix2 (p 0) (0 : Fin 1))) := by
  have e : p = ix2 (p 0) (p 1) := eq_ix2 p
  rw [e]; exact product_apply x0 x1 (p 0) (p 1)

/-- So two pairs of blocks that agree at (r, j) and at (r, 0) give products that agree at (r, j). -/
theorem product_congr {x0 y0 : Vec F S8192x64 .f32} {x1 y1 : Vec F S8192x1 .f32} (p : S8192x64.Idx)
    (h0 : x0 p = y0 p) (h1 : x1 (ix2 (p 0) (0 : Fin 1)) = y1 (ix2 (p 0) (0 : Fin 1))) :
    k1_pay1 x0 x1 p = k1_pay1 y0 y1 p := by
  rw [product_at, product_at, h0, h1]

/-! ## The body's triple -/

abbrev rA : Rect S8192x64 := Rect.unit (s := S8192x64) ![0, 0] S8192x64.size inb_S8192x64_S8192x64_0_0
abbrev rB : Rect S8192x1 := Rect.unit (s := S8192x1) ![0, 0] S8192x1.size inb_S8192x1_S8192x1_0_0

theorem hz : (![0, 0] : Fin 2 → Nat) = fun _ => 0 := funext fun a => by fin_cases a <;> rfl

/-- What the one store leaves in the output's buffer: the product of what the two whole loads read. -/
def stored (x0 : Vec F S8192x64 .f32) (x1 : Vec F S8192x1 .f32) : Vec F S8192x64 .f32 :=
  View.canon [⟨rA, k1_pay1 (View.ld x0 rA) (View.ld x1 rB)⟩]

theorem stored_eq (x0 : Vec F S8192x64 .f32) (x1 : Vec F S8192x1 .f32) : stored x0 x1 = k1_pay1 x0 x1 := by
  unfold stored
  rw [View.canon_unit_zero hz]
  rw [View.ld_unit_zero (S := S8192x64) hz, View.ld_unit_zero (S := S8192x1) hz]

theorem stored_cover (p0 : Vec F S8192x64 .f32) (y : S8192x64.Idx) :
    ∃ pc ∈ ([⟨rA, p0⟩] : List (View.Piece (Elt F) S8192x64 .f32)), y ∈ pc.1.set :=
  ⟨_, List.mem_singleton_self _, View.mem_set_unit_zero hz inb_S8192x64_S8192x64_0_0 y⟩

set_option maxHeartbeats 1000000 in
/-- The kernel body on whole staging buffers, the two inputs' at contents x0 and x1 and the output's at anything: it
    runs to the end with the inputs' buffers as they were and the output's holding the product. -/
theorem body_triple (c : Dev nD) (E : Set ℕ) (i : grid1.Coords)
    (arg1 : Memref sig .tc .vmem S8192x64 .f32) (harg1 : arg1.IsWhole)
    (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (stored_cover _)).trans (stored_eq _ _)

end Cert.Kernel.Scale1

/-! ## The blocks the region finds -/

namespace Cert.Kernel.Scale1

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The rows of h the fetch at point t reads: the block's part inside the array. -/
def rowsBlk (c : Dev nD) (t : Fin cfg1.N) : (win1_0.xblock (grid1.coords t)).Idx → Elt F .f32 :=
  (win1_0.blk t).view.read (Elt F) (V c main_v48)
/-- The weights the fetch at point t reads. -/
def weightsBlk (c : Dev nD) (t : Fin cfg1.N) : (win1_1.xblock (grid1.coords t)).Idx → Elt F .f32 :=
  (win1_1.blk t).view.read (Elt F) (V c main_v30)

/-- The two staging buffers after the body, on the rows inside the array; past the array's end the obligation states
    nothing, and this filler is the zero word. -/
def rowsAt (c : Dev nD) (t : Fin cfg1.N) : S8192x64.Idx → Elt F .f32 :=
  win1_0.fill (grid1.coords t) (fun _ => Scalar.ofBits .f32 0#32) (rowsBlk V c t)
def weightsAt (c : Dev nD) (t : Fin cfg1.N) : S8192x1.Idx → Elt F .f32 :=
  win1_1.fill (grid1.coords t) (fun _ => Scalar.ofBits .f32 0#32) (weightsBlk V c t)

/-! ## The three windows are cut at the same row -/

/-- Whatever a fetch left past the array's end does not show at an index the fetch filled. -/
theorem fill_irrel {G : Pipeline.Grid} (w : Window sig G) {α : Type} (i : G.Coords) (d e : w.block.Idx → α)
    (g : (w.xblock i).Idx → α) (p : w.block.Idx) (h : w.moved i p = true) : w.fill i d g p = w.fill i e g p := by
  unfold Window.fill; rw [dif_pos h, dif_pos h]

/-- A row the write-back returns is a row the fetch of h filled, -/
theorem moved_rows (i : grid1.Coords) (j : (win1_2.xblock i).Idx) : win1_0.moved i (win1_2.xinj i j) = true :=
  (win1_0.moved_iff i _).mpr fun a => (j a).isLt

/-- and a row the fetch of the weights filled (its one column is never cut). -/
theorem moved_weights (i : grid1.Coords) (j : (win1_2.xblock i).Idx) :
    win1_1.moved i (ix2 (win1_2.xinj i j 0) (0 : Fin 1)) = true :=
  (win1_1.moved_iff i _).mpr fun a => match a with
    | ⟨0, _⟩ => (j 0).isLt
    | ⟨1, _⟩ => Nat.zero_lt_one

/-- So on the rows written back the product does not depend on what lay past the array's end in either input buffer. -/
theorem cut_product (i : grid1.Coords) (d0 e0 : S8192x64.Idx → Elt F .f32) (d1 e1 : S8192x1.Idx → Elt F .f32)
    (b0 : (win1_0.xblock i).Idx → Elt F .f32) (b1 : (win1_1.xblock i).Idx → Elt F .f32) :
    win1_2.cut i (k1_pay1 (win1_0.fill i d0 b0) (win1_1.fill i d1 b1))
      = win1_2.cut i (k1_pay1 (win1_0.fill i e0 b0) (win1_1.fill i e1 b1)) := by
  funext j
  show k1_pay1 _ _ (win1_2.xinj i j) = k1_pay1 _ _ (win1_2.xinj i j)
  exact product_congr _ (fill_irrel win1_0 i d0 e0 b0 _ (moved_rows i j)) (fill_irrel win1_1 i d1 e1 b1 _ (moved_weights i j))

/-! ## The pipeline's proof data -/

/-- The arrays as the region finds them; after the body each input's buffer at its block and the output's at their
    product; the class's invariant (the scoped rest and the generator register, untouched); nothing owed. -/
def dat (c : Dev nD) : Dat τ (Elt F) Unit ℕ (UR sig nD τ) ℕ cfg1 c where
  A w := V c (Pipeline.arrRef spec1 w)
  after w t := match w with
    | ⟨0, _⟩ => rowsAt V c t
    | ⟨1, _⟩ => weightsAt V c t
    | ⟨2, _⟩ => k1_pay1 (rowsAt V c t) (weightsAt V c t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = rowsAt V c t := by dsimp only [dat]
theorem after_1 (c : Dev nD) (t : Fin cfg1.N) : (dat V c).after 1 t = weightsAt V c t := by dsimp only [dat]
theorem after_2 (c : Dev nD) (t : Fin cfg1.N) : (dat V c).after 2 t = k1_pay1 (rowsAt V c t) (weightsAt V c t) := by dsimp only [dat]

/-- Both inputs are fetched at every point: the body finds each buffer at its block, and at anything past the array's end. -/
theorem before_0 (c : Dev nD) (t : Fin cfg1.N) (d) :
    (dat V c).before 0 t d = win1_0.fill (grid1.coords t) d (rowsBlk V c t) := by
  unfold Dat.before; rw [if_pos (fetch1_0 t)]; rfl
theorem before_1 (c : Dev nD) (t : Fin cfg1.N) (d) :
    (dat V c).before 1 t d = win1_1.fill (grid1.coords t) d (weightsBlk V c t) := by
  unfold Dat.before; rw [if_pos (fetch1_1 t)]; rfl

/-! ## The body obligation -/

/-- What the body is called with at point t: the invariant, the core's dues, and each window's current buffer at what it
    then holds, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns: each buffer stated on the rows inside the array only (all three windows are cut). -/
def bodyPost (c : Dev nD) (t : Fin cfg1.N) : sProp 𝕄 :=
  iprop((dat V c).Φ t.succ ∗ (dat V c).owesAt () t.succ
    ∗ (∃ d, owns (c : Thread nD τ) (st1_0 t) fullShare
        ((cfg1.win 0).fill (cfg1.grid.coords t) d ((cfg1.win 0).cut (cfg1.grid.coords t) ((dat V c).after 0 t))))
    ∗ (∃ d, owns (c : Thread nD τ) (st1_1 t) fullShare
        ((cfg1.win 1).fill (cfg1.grid.coords t) d ((cfg1.win 1).cut (cfg1.grid.coords t) ((dat V c).after 1 t))))
    ∗ (∃ d, owns (c : Thread nD τ) (st1_2 t) fullShare
        ((cfg1.win 2).fill (cfg1.grid.coords t) d ((cfg1.win 2).cut (cfg1.grid.coords t) ((dat V c).after 2 t)))))

/-- At every point: the inputs' buffers arrive holding their blocks filled out with anything, the output's holding
    anything; the body leaves the inputs' as they were and the output's at the product, which on the rows inside the
    array is the product of the blocks — all the obligation of a cut window asks. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩⟩
  rw [before_0 V c t d0, before_1 V c t d1]
  iapply (body_triple (F := F) c Set.univ (grid1.coords t) _ _ _ _ _ _
    (win1_0.fill (grid1.coords t) d0 (rowsBlk V c t)) (win1_1.fill (grid1.coords t) d1 (weightsBlk V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win1_0.cut (grid1.coords t) (rowsAt V c t) = rowsBlk V c t := win1_0.cut_fill _ _ _
  have h1 : win1_1.cut (grid1.coords t) (weightsAt V c t) = weightsBlk V c t := win1_1.cut_fill _ _ _
  isplitl [H0]
  · iexists d0
    rw [after_0]
    change _ ⊢ owns (c : Thread nD τ) (stage1_0 (cfg1.slots t 0)) fullShare
      (win1_0.fill (grid1.coords t) d0 (win1_0.cut (grid1.coords t) (rowsAt V c t)))
    rw [h0]; try iexact H0
  isplitl [H1]
  · iexists d1
    rw [after_1]
    change _ ⊢ owns (c : Thread nD τ) (stage1_1 (cfg1.slots t 1)) fullShare
      (win1_1.fill (grid1.coords t) d1 (win1_1.cut (grid1.coords t) (weightsAt V c t)))
    rw [h1]; try iexact H1
  · iexists k1_pay1 (win1_0.fill (grid1.coords t) d0 (rowsBlk V c t)) (win1_1.fill (grid1.coords t) d1 (weightsBlk V c t))
    rw [after_2]
    change _ ⊢ owns (c : Thread nD τ) (stage1_2 (cfg1.slots t 2)) fullShare
      (win1_2.fill (grid1.coords t) (k1_pay1 (win1_0.fill (grid1.coords t) d0 (rowsBlk V c t)) (win1_1.fill (grid1.coords t) d1 (weightsBlk V c t)))
        (win1_2.cut (α := Elt F .f32) (grid1.coords t) (k1_pay1 (rowsAt V c t) (weightsAt V c t))))
    unfold rowsAt weightsAt
    rw [win1_2.fill_congr_cut (grid1.coords t) (cut_product (grid1.coords t) d0 _ d1 _ (rowsBlk V c t) (weightsBlk V c t))]
    try iexact H2

/-- The same at every point, in the form the loop that drives the body takes it. -/
theorem obligation (c : Dev nD) : BodyObligationLoose (dat (F := F) V c) (defs₀ (F := F)) Variants.none () Set.univ := fun t => by
  rw [bigSep_W1, bigSep_W1]
  exact sound_body V c t

end Cert.Kernel.Scale1

/-! ## The array the region leaves -/

namespace Cert.Kernel.Scale1

open Cert.Kernel Cert.Kernel.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The index maps over the grid, decided once: block t starts at row t · 8192 and column 0 in all three windows, and
    holds min(8192, E − t · 8192) rows. -/
theorem grid_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_2.xsize (grid1.coords t) (0 : Fin 2) = min 8192 (2000000 - t.val * 8192)
    ∧ win1_2.xsize (grid1.coords t) (1 : Fin 2) = 64 :=
  (by decide +kernel : ∀ t : Fin grid1.N, _)

/-- What point t writes back is block t of the whole product h[e, j] · n[e, 0]. -/
theorem flushed_eq (c : Dev nD) (t : Fin cfg1.N) :
    (dat V c).flushed 2 t = ((cfg1.win 2).blk t).view.read (Elt F) (LayerSpec.scaleRows (V c main_v48) (V c main_v30)) := by
  funext j
  show (cfg1.win 2).cut (cfg1.grid.coords t) ((dat V c).after 2 t) j = _
  rw [after_2]
  show k1_pay1 (rowsAt V c t) (weightsAt V c t) (win1_2.xinj (grid1.coords t) j)
    = LayerSpec.scaleRows (V c main_v48) (V c main_v30) ((win1_2.blk t).view.emb j)
  rw [product_at]
  unfold LayerSpec.scaleRows
  obtain ⟨a0, a1, b0, b1, c0, c1, -, -⟩ := grid_facts t
  refine congrArg₂ FloatOps.mulf ?_ ?_
  · unfold rowsAt Window.fill
    rw [dif_pos (moved_rows (grid1.coords t) j)]
    unfold rowsBlk
    rw [View.read_apply]
    refine congrArg (V c main_v48) (funext fun a => Fin.ext ?_)
    match a with
    | ⟨0, _⟩ =>
      show win1_0.index t (0 : Fin 2) * 8192 + 1 * (j 0).val = win1_2.index t (0 : Fin 2) * 8192 + 1 * (j 0).val
      rw [a0, c0]
    | ⟨1, _⟩ =>
      show win1_0.index t (1 : Fin 2) * 64 + 1 * (j 1).val = win1_2.index t (1 : Fin 2) * 64 + 1 * (j 1).val
      rw [a1, c1]
  · unfold weightsAt Window.fill
    rw [dif_pos (moved_weights (grid1.coords t) j)]
    unfold weightsBlk
    rw [View.read_apply]
    refine congrArg (V c main_v30) (funext fun a => Fin.ext ?_)
    match a with
    | ⟨0, _⟩ =>
      show win1_1.index t (0 : Fin 2) * 8192 + 1 * (j 0).val = win1_2.index t (0 : Fin 2) * 8192 + 1 * (j 0).val
      rw [b0, c0]
    | ⟨1, _⟩ =>
      show win1_1.index t (1 : Fin 2) * 1 + 1 * 0 = 0
      rw [b1]

/-- An entry of the array lies in block t exactly when its row is among the block's rows inside the array. -/
theorem mem_blk (t : Fin cfg1.N) (i : S2000000x64.Idx) :
    i ∈ ((cfg1.win 2).blk t).view.set ↔ ∀ a, win1_2.index t a * win1_2.size a ≤ (i a).val
      ∧ (i a).val < win1_2.index t a * win1_2.size a + win1_2.xsize (grid1.coords t) a := by
  show i ∈ ((View.whole main_v49).slice (win1_2.rect t)).set ↔ _
  rw [View.set_slice_whole, Rect.mem_set_unit]

/-- Row e lies in block e / 8192: the blocks cover the array. -/
theorem cover (i : S2000000x64.Idx) : ∃ t : Fin cfg1.N, (cfg1.win 2).flush t = true ∧ i ∈ ((cfg1.win 2).blk t).view.set := by
  have hr : (i 0).val < 2000000 := (i 0).isLt
  have hc : (i 1).val < 64 := (i 1).isLt
  refine ⟨⟨(i 0).val / 8192, by rw [show cfg1.N = 245 from N_1]; omega⟩, flush1_2 _, ?_⟩
  rw [mem_blk]
  obtain ⟨-, -, -, -, c0, c1, x0, x1⟩ := grid_facts ⟨(i 0).val / 8192, by rw [show cfg1.N = 245 from N_1]; omega⟩
  intro a
  match a with
  | ⟨0, _⟩ =>
    show win1_2.index _ (0 : Fin 2) * 8192 ≤ (i 0).val ∧ (i 0).val < win1_2.index _ (0 : Fin 2) * 8192 + win1_2.xsize _ (0 : Fin 2)
    rw [c0, x0]; dsimp only; omega
  | ⟨1, _⟩ =>
    show win1_2.index _ (1 : Fin 2) * 64 ≤ (i 1).val ∧ (i 1).val < win1_2.index _ (1 : Fin 2) * 64 + win1_2.xsize _ (1 : Fin 2)
    rw [c1, x1]; omega

/-- After the region the output array holds h[e, j] · n[e, 0] at every entry. -/
theorem final (c : Dev nD) : (dat V c).arrAt 2 cfg1.N = LayerSpec.scaleRows (V c main_v48) (V c main_v30) :=
  (dat V c).arrAt_eq_of_cover 2 _ (fun t _ => flushed_eq V c t) cover

/-- The two inputs are never written. -/
theorem final_in0 (c : Dev nD) : (dat V c).arrAt 0 cfg1.N = V c main_v48 := ((dat V c).arrAt_in 0 rfl _).trans (A_eq V c 0)
theorem final_in1 (c : Dev nD) : (dat V c).arrAt 1 cfg1.N = V c main_v30 := ((dat V c).arrAt_in 1 rfl _).trans (A_eq V c 1)

end Cert.Kernel.Scale1

end
-- ==== Proof.KbMean.lean ====
/-
  The averaging kernel, region 2 of the program: over N = 150 000 nodes in blocks of 4096 rows,
  out[v, :] = ((e0 + e1)[v, :] + e2[v, :]) · k  for the three layer embeddings e0, e1, e2 (N × 64) and one constant k.

  The grid has 37 points; 36 · 4096 = 147 456 < N, so the last block overhangs the arrays by 1552 rows: its fetches bring
  in the 2544 rows that exist, the body works on all 4096, the write-back returns the first 2544. The body is pointwise:
  entry (r, j) of what it stores depends on entry (r, j) of the three input blocks only, and the four windows are cut at
  the same row; so every entry of the result is the constant times the sum of the three arrays' entries there, and the
  37 blocks cover the array.
-/
import proofs.«129552_j68410239091164_1_alg».proof.Proof.Gen.Kernel.Launch
import proofs.«129552_j68410239091164_1_alg».proof.Proof.Gen.Kernel.Skeleton
import proofs.«129552_j68410239091164_1_alg».proof.Proof.Gen.Kernel.Points
import proofs.«129552_j68410239091164_1_alg».proof.Proof.LayerSpec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.Kernel.Mean

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's value at an entry -/

/-- Entry p of what the body stores: the sum of the three blocks' entries there, times the constant. -/
theorem mean_at (x0 x1 x2 : Vec F S4096x64 .f32) (p : S4096x64.Idx) :
    k2_pay1 x0 x1 x2 p = FloatOps.mulf (FloatOps.addf (FloatOps.addf (x0 p) (x1 p)) (x2 p)) (Scalar.ofBits .f32 0x3EAAAAAB#32 : F .f32) := by
  unfold k2_pay1
  show FloatOps.mulf (FloatOps.addf (FloatOps.addf (x0 p) (shapeCast S4096x64 x1 shapeCasts_S4096x64_S4096x64 p))
      (shapeCast S4096x64 x2 shapeCasts_S4096x64_S4096x64 p)) (broadcast S4096x64 (Scalar.ofBits .f32 0x3EAAAAAB#32 : F .f32) p) = _
  rw [shapeCast_self, shapeCast_self]; rfl

/-- So blocks that agree at p give values that agree at p. -/
theorem mean_congr {x0 y0 x1 y1 x2 y2 : Vec F S4096x64 .f32} (p : S4096x64.Idx)
    (h0 : x0 p = y0 p) (h1 : x1 p = y1 p) (h2 : x2 p = y2 p) : k2_pay1 x0 x1 x2 p = k2_pay1 y0 y1 y2 p := by
  rw [mean_at, mean_at, h0, h1, h2]

/-! ## The body's triple -/

abbrev rA : Rect S4096x64 := Rect.unit (s := S4096x64) ![0, 0] S4096x64.size inb_S4096x64_S4096x64_0_0

theorem hz : (![0, 0] : Fin 2 → Nat) = fun _ => 0 := funext fun a => by fin_cases a <;> rfl

/-- What the one store leaves in the output's buffer, from what the three whole loads read. -/
def stored (x0 x1 x2 : Vec F S4096x64 .f32) : Vec F S4096x64 .f32 :=
  View.canon [⟨rA, k2_pay1 (View.ld x0 rA) (View.ld x1 rA) (View.ld x2 rA)⟩]

theorem stored_eq (x0 x1 x2 : Vec F S4096x64 .f32) : stored x0 x1 x2 = k2_pay1 x0 x1 x2 := by
  unfold stored
  rw [View.canon_unit_zero hz]
  rw [View.ld_unit_zero (S := S4096x64) hz, View.ld_unit_zero (S := S4096x64) hz, View.ld_unit_zero (S := S4096x64) hz]

theorem stored_cover (p0 : Vec F S4096x64 .f32) (y : S4096x64.Idx) :
    ∃ pc ∈ ([⟨rA, p0⟩] : List (View.Piece (Elt F) S4096x64 .f32)), y ∈ pc.1.set :=
  ⟨_, List.mem_singleton_self _, View.mem_set_unit_zero hz inb_S4096x64_S4096x64_0_0 y⟩

set_option maxHeartbeats 1000000 in
/-- The kernel body on whole staging buffers, the three inputs' at contents x0, x1, x2 and the output's at anything: it
    runs to the end with the inputs' buffers as they were and the output's holding the scaled sum. -/
theorem body_triple (c : Dev nD) (E : Set ℕ) (i : grid2.Coords)
    (arg1 : Memref sig .tc .vmem S4096x64 .f32) (harg1 : arg1.IsWhole)
    (arg2 : Memref sig .tc .vmem S4096x64 .f32) (harg2 : arg2.IsWhole)
    (arg3 : Memref sig .tc .vmem S4096x64 .f32) (harg3 : arg3.IsWhole)
    (arg4 : Memref sig .tc .vmem S4096x64 .f32) (harg4 : arg4.IsWhole)
    (x0 x1 x2 : Vec F S4096x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k2_pay1 x0 x1 x2)) -∗ K ⟨⟩))
      ⊢ wp frame (wpE (defs₀ (F := F)) Variants.none c none) E (cc2__avg_kernel i arg1 harg1 arg2 harg2 arg3 harg3 arg4 harg4) K := by
  simp only [cc2__avg_kernel_eq_skeleton]; unfold cc2__avg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (stored_cover _)).trans (stored_eq _ _ _)

/-! ## The blocks the region finds -/

-- the TensorCore's buffer contents when the region is entered
variable (V : (c : Dev nD) → (b : Ref sig .tc) → Buf (Elt F) ((c : Thread nD τ).loc b))

/-- The rows of each embedding the fetch at point t reads: the block's part inside the array. -/
def blk0 (c : Dev nD) (t : Fin cfg2.N) : (win2_0.xblock (grid2.coords t)).Idx → Elt F .f32 :=
  (win2_0.blk t).view.read (Elt F) (V c main_arg0)
def blk1 (c : Dev nD) (t : Fin cfg2.N) : (win2_1.xblock (grid2.coords t)).Idx → Elt F .f32 :=
  (win2_1.blk t).view.read (Elt F) (V c main_v41)
def blk2 (c : Dev nD) (t : Fin cfg2.N) : (win2_2.xblock (grid2.coords t)).Idx → Elt F .f32 :=
  (win2_2.blk t).view.read (Elt F) (V c main_v52)

/-- The three staging buffers after the body, on the rows inside the array; past the array's end the obligation states
    nothing, and this filler is the zero word. -/
def at0 (c : Dev nD) (t : Fin cfg2.N) : S4096x64.Idx → Elt F .f32 :=
  win2_0.fill (grid2.coords t) (fun _ => Scalar.ofBits .f32 0#32) (blk0 V c t)
def at1 (c : Dev nD) (t : Fin cfg2.N) : S4096x64.Idx → Elt F .f32 :=
  win2_1.fill (grid2.coords t) (fun _ => Scalar.ofBits .f32 0#32) (blk1 V c t)
def at2 (c : Dev nD) (t : Fin cfg2.N) : S4096x64.Idx → Elt F .f32 :=
  win2_2.fill (grid2.coords t) (fun _ => Scalar.ofBits .f32 0#32) (blk2 V c t)

/-! ## The four windows are cut at the same row -/

/-- Whatever a fetch left past the array's end does not show at an index the fetch filled. -/
theorem fill_irrel {G : Pipeline.Grid} (w : Window sig G) {α : Type} (i : G.Coords) (d e : w.block.Idx → α)
    (g : (w.xblock i).Idx → α) (p : w.block.Idx) (h : w.moved i p = true) : w.fill i d g p = w.fill i e g p := by
  unfold Window.fill; rw [dif_pos h, dif_pos h]

/-- A row the write-back returns is a row each of the three fetches filled. -/
theorem moved0 (i : grid2.Coords) (j : (win2_3.xblock i).Idx) : win2_0.moved i (win2_3.xinj i j) = true :=
  (win2_0.moved_iff i _).mpr fun a => (j a).isLt
theorem moved1 (i : grid2.Coords) (j : (win2_3.xblock i).Idx) : win2_1.moved i (win2_3.xinj i j) = true :=
  (win2_1.moved_iff i _).mpr fun a => (j a).isLt
theorem moved2 (i : grid2.Coords) (j : (win2_3.xblock i).Idx) : win2_2.moved i (win2_3.xinj i j) = true :=
  (win2_2.moved_iff i _).mpr fun a => (j a).isLt

/-- So on the rows written back the result does not depend on what lay past the array's end in the input buffers. -/
theorem cut_mean (i : grid2.Coords) (d0 e0 d1 e1 d2 e2 : S4096x64.Idx → Elt F .f32)
    (b0 : (win2_0.xblock i).Idx → Elt F .f32) (b1 : (win2_1.xblock i).Idx → Elt F .f32) (b2 : (win2_2.xblock i).Idx → Elt F .f32) :
    win2_3.cut i (k2_pay1 (win2_0.fill i d0 b0) (win2_1.fill i d1 b1) (win2_2.fill i d2 b2))
      = win2_3.cut i (k2_pay1 (win2_0.fill i e0 b0) (win2_1.fill i e1 b1) (win2_2.fill i e2 b2)) := by
  funext j
  show k2_pay1 _ _ _ (win2_3.xinj i j) = k2_pay1 _ _ _ (win2_3.xinj i j)
  exact mean_congr _ (fill_irrel win2_0 i d0 e0 b0 _ (moved0 i j)) (fill_irrel win2_1 i d1 e1 b1 _ (moved1 i j))
    (fill_irrel win2_2 i d2 e2 b2 _ (moved2 i j))

/-! ## The pipeline's proof data -/

/-- The arrays as the region finds them; after the body each input's buffer at its block and the output's at the scaled
    sum; the class's invariant (the scoped rest and the generator register, untouched); nothing owed. -/
def dat (c : Dev nD) : Dat τ (Elt F) Unit ℕ (UR sig nD τ) ℕ cfg2 c where
  A w := V c (Pipeline.arrRef spec2 w)
  after w t := match w with
    | ⟨0, _⟩ => at0 V c t
    | ⟨1, _⟩ => at1 V c t
    | ⟨2, _⟩ => at2 V c t
    | ⟨3, _⟩ => k2_pay1 (at0 V c t) (at1 V c t) (at2 V c t)
  Φ _ := Pipeline.ΦA spec2 c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = at0 V c t := by dsimp only [dat]
theorem after_1 (c : Dev nD) (t : Fin cfg2.N) : (dat V c).after 1 t = at1 V c t := by dsimp only [dat]
theorem after_2 (c : Dev nD) (t : Fin cfg2.N) : (dat V c).after 2 t = at2 V c t := by dsimp only [dat]
theorem after_3 (c : Dev nD) (t : Fin cfg2.N) : (dat V c).after 3 t = k2_pay1 (at0 V c t) (at1 V c t) (at2 V c t) := by dsimp only [dat]

/-- The three inputs are fetched at every point: the body finds each buffer at its block, and at anything past the array's end. -/
theorem before_0 (c : Dev nD) (t : Fin cfg2.N) (d) :
    (dat V c).before 0 t d = win2_0.fill (grid2.coords t) d (blk0 V c t) := by
  unfold Dat.before; rw [if_pos (fetch2_0 t)]; rfl
theorem before_1 (c : Dev nD) (t : Fin cfg2.N) (d) :
    (dat V c).before 1 t d = win2_1.fill (grid2.coords t) d (blk1 V c t) := by
  unfold Dat.before; rw [if_pos (fetch2_1 t)]; rfl
theorem before_2 (c : Dev nD) (t : Fin cfg2.N) (d) :
    (dat V c).before 2 t d = win2_2.fill (grid2.coords t) d (blk2 V c t) := by
  unfold Dat.before; rw [if_pos (fetch2_2 t)]; rfl

/-! ## The body obligation -/

/-- What the body is called with at point t, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns: each buffer stated on the rows inside the array only (all four windows are cut). -/
def bodyPost (c : Dev nD) (t : Fin cfg2.N) : sProp 𝕄 :=
  iprop((dat V c).Φ t.succ ∗ (dat V c).owesAt () t.succ
    ∗ (∃ d, owns (c : Thread nD τ) (st2_0 t) fullShare
        ((cfg2.win 0).fill (cfg2.grid.coords t) d ((cfg2.win 0).cut (cfg2.grid.coords t) ((dat V c).after 0 t))))
    ∗ (∃ d, owns (c : Thread nD τ) (st2_1 t) fullShare
        ((cfg2.win 1).fill (cfg2.grid.coords t) d ((cfg2.win 1).cut (cfg2.grid.coords t) ((dat V c).after 1 t))))
    ∗ (∃ d, owns (c : Thread nD τ) (st2_2 t) fullShare
        ((cfg2.win 2).fill (cfg2.grid.coords t) d ((cfg2.win 2).cut (cfg2.grid.coords t) ((dat V c).after 2 t))))
    ∗ (∃ d, owns (c : Thread nD τ) (st2_3 t) fullShare
        ((cfg2.win 3).fill (cfg2.grid.coords t) d ((cfg2.win 3).cut (cfg2.grid.coords t) ((dat V c).after 3 t)))))

/-- At every point: the inputs' buffers arrive holding their blocks filled out with anything, the output's holding
    anything; the body leaves the inputs' as they were and the output's at the scaled sum, which on the rows inside the
    array is the scaled sum of the blocks — all the obligation of a cut window asks. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩⟩
  rw [before_0 V c t d0, before_1 V c t d1, before_2 V c t d2]
  iapply (body_triple (F := F) c Set.univ (grid2.coords t) _ _ _ _ _ _ _ _
    (win2_0.fill (grid2.coords t) d0 (blk0 V c t)) (win2_1.fill (grid2.coords t) d1 (blk1 V c t))
    (win2_2.fill (grid2.coords t) d2 (blk2 V c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h0 : win2_0.cut (grid2.coords t) (at0 V c t) = blk0 V c t := win2_0.cut_fill _ _ _
  have h1 : win2_1.cut (grid2.coords t) (at1 V c t) = blk1 V c t := win2_1.cut_fill _ _ _
  have h2 : win2_2.cut (grid2.coords t) (at2 V c t) = blk2 V c t := win2_2.cut_fill _ _ _
  isplitl [H0]
  · iexists d0
    rw [after_0]
    change _ ⊢ owns (c : Thread nD τ) (stage2_0 (cfg2.slots t 0)) fullShare
      (win2_0.fill (grid2.coords t) d0 (win2_0.cut (grid2.coords t) (at0 V c t)))
    rw [h0]; try iexact H0
  isplitl [H1]
  · iexists d1
    rw [after_1]
    change _ ⊢ owns (c : Thread nD τ) (stage2_1 (cfg2.slots t 1)) fullShare
      (win2_1.fill (grid2.coords t) d1 (win2_1.cut (grid2.coords t) (at1 V c t)))
    rw [h1]; try iexact H1
  isplitl [H2]
  · iexists d2
    rw [after_2]
    change _ ⊢ owns (c : Thread nD τ) (stage2_2 (cfg2.slots t 2)) fullShare
      (win2_2.fill (grid2.coords t) d2 (win2_2.cut (grid2.coords t) (at2 V c t)))
    rw [h2]; try iexact H2
  · iexists k2_pay1 (win2_0.fill (grid2.coords t) d0 (blk0 V c t)) (win2_1.fill (grid2.coords t) d1 (blk1 V c t)) (win2_2.fill (grid2.coords t) d2 (blk2 V c t))
    rw [after_3]
    change _ ⊢ owns (c : Thread nD τ) (stage2_3 (cfg2.slots t 3)) fullShare
      (win2_3.fill (grid2.coords t) (k2_pay1 (win2_0.fill (grid2.coords t) d0 (blk0 V c t)) (win2_1.fill (grid2.coords t) d1 (blk1 V c t)) (win2_2.fill (grid2.coords t) d2 (blk2 V c t)))
        (win2_3.cut (α := Elt F .f32) (grid2.coords t) (k2_pay1 (at0 V c t) (at1 V c t) (at2 V c t))))
    unfold at0 at1 at2
    rw [win2_3.fill_congr_cut (grid2.coords t) (cut_mean (grid2.coords t) d0 _ d1 _ d2 _ (blk0 V c t) (blk1 V c t) (blk2 V c t))]
    try iexact H3

/-- The same at every point, in the form the loop that drives the body takes it. -/
theorem obligation (c : Dev nD) : BodyObligationLoose (dat (F := F) V c) (defs₀ (F := F)) Variants.none () Set.univ := fun t => by
  rw [bigSep_W2, bigSep_W2]
  exact sound_body V c t

/-! ## The array the region leaves -/

/-- The index maps over the grid, decided once: block t starts at row t · 4096 and column 0 in all four windows, and
    holds min(4096, N − t · 4096) rows. -/
theorem grid_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_3.xsize (grid2.coords t) (0 : Fin 2) = min 4096 (150000 - t.val * 4096)
    ∧ win2_3.xsize (grid2.coords t) (1 : Fin 2) = 64 :=
  (by decide +kernel : ∀ t : Fin grid2.N, _)

/-- What point t writes back is block t of the whole scaled sum. -/
theorem flushed_eq (c : Dev nD) (t : Fin cfg2.N) :
    (dat V c).flushed 3 t = ((cfg2.win 3).blk t).view.read (Elt F)
      (LayerSpec.mean3 (Scalar.ofBits .f32 0x3EAAAAAB#32 : F .f32) (V c main_arg0) (V c main_v41) (V c main_v52)) := by
  funext j
  show (cfg2.win 3).cut (cfg2.grid.coords t) ((dat V c).after 3 t) j = _
  rw [after_3]
  show k2_pay1 (at0 V c t) (at1 V c t) (at2 V c t) (win2_3.xinj (grid2.coords t) j)
    = LayerSpec.mean3 (Scalar.ofBits .f32 0x3EAAAAAB#32 : F .f32) (V c main_arg0) (V c main_v41) (V c main_v52) ((win2_3.blk t).view.emb j)
  rw [mean_at]
  unfold LayerSpec.mean3
  obtain ⟨a0, a1, b0, b1, c0, c1, e0, e1, -, -⟩ := grid_facts t
  refine congrArg (FloatOps.mulf · (Scalar.ofBits .f32 0x3EAAAAAB#32 : F .f32)) ?_
  refine congrArg₂ FloatOps.addf (congrArg₂ FloatOps.addf ?_ ?_) ?_
  · unfold at0 Window.fill
    rw [dif_pos (moved0 (grid2.coords t) j)]
    unfold blk0
    rw [View.read_apply]
    refine congrArg (V c main_arg0) (funext fun a => Fin.ext ?_)
    match a with
    | ⟨0, _⟩ =>
      show win2_0.index t (0 : Fin 2) * 4096 + 1 * (j 0).val = win2_3.index t (0 : Fin 2) * 4096 + 1 * (j 0).val
      rw [a0, e0]
    | ⟨1, _⟩ =>
      show win2_0.index t (1 : Fin 2) * 64 + 1 * (j 1).val = win2_3.index t (1 : Fin 2) * 64 + 1 * (j 1).val
      rw [a1, e1]
  · unfold at1 Window.fill
    rw [dif_pos (moved1 (grid2.coords t) j)]
    unfold blk1
    rw [View.read_apply]
    refine congrArg (V c main_v41) (funext fun a => Fin.ext ?_)
    match a with
    | ⟨0, _⟩ =>
      show win2_1.index t (0 : Fin 2) * 4096 + 1 * (j 0).val = win2_3.index t (0 : Fin 2) * 4096 + 1 * (j 0).val
      rw [b0, e0]
    | ⟨1, _⟩ =>
      show win2_1.index t (1 : Fin 2) * 64 + 1 * (j 1).val = win2_3.index t (1 : Fin 2) * 64 + 1 * (j 1).val
      rw [b1, e1]
  · unfold at2 Window.fill
    rw [dif_pos (moved2 (grid2.coords t) j)]
    unfold blk2
    rw [View.read_apply]
    refine congrArg (V c main_v52) (funext fun a => Fin.ext ?_)
    match a with
    | ⟨0, _⟩ =>
      show win2_2.index t (0 : Fin 2) * 4096 + 1 * (j 0).val = win2_3.index t (0 : Fin 2) * 4096 + 1 * (j 0).val
      rw [c0, e0]
    | ⟨1, _⟩ =>
      show win2_2.index t (1 : Fin 2) * 64 + 1 * (j 1).val = win2_3.index t (1 : Fin 2) * 64 + 1 * (j 1).val
      rw [c1, e1]

/-- An entry of the array lies in block t exactly when its row is among the block's rows inside the array. -/
theorem mem_blk (t : Fin cfg2.N) (i : S150000x64.Idx) :
    i ∈ ((cfg2.win 3).blk t).view.set ↔ ∀ a, win2_3.index t a * win2_3.size a ≤ (i a).val
      ∧ (i a).val < win2_3.index t a * win2_3.size a + win2_3.xsize (grid2.coords t) a := by
  show i ∈ ((View.whole main_v53).slice (win2_3.rect t)).set ↔ _
  rw [View.set_slice_whole, Rect.mem_set_unit]

/-- Row v lies in block v / 4096: the blocks cover the array. -/
theorem cover (i : S150000x64.Idx) : ∃ t : Fin cfg2.N, (cfg2.win 3).flush t = true ∧ i ∈ ((cfg2.win 3).blk t).view.set := by
  have hr : (i 0).val < 150000 := (i 0).isLt
  have hc : (i 1).val < 64 := (i 1).isLt
  refine ⟨⟨(i 0).val / 4096, by rw [show cfg2.N = 37 from N_2]; omega⟩, flush2_3 _, ?_⟩
  rw [mem_blk]
  obtain ⟨-, -, -, -, -, -, e0, e1, x0, x1⟩ := grid_facts ⟨(i 0).val / 4096, by rw [show cfg2.N = 37 from N_2]; omega⟩
  intro a
  match a with
  | ⟨0, _⟩ =>
    show win2_3.index _ (0 : Fin 2) * 4096 ≤ (i 0).val ∧ (i 0).val < win2_3.index _ (0 : Fin 2) * 4096 + win2_3.xsize _ (0 : Fin 2)
    rw [e0, x0]; dsimp only; omega
  | ⟨1, _⟩ =>
    show win2_3.index _ (1 : Fin 2) * 64 ≤ (i 1).val ∧ (i 1).val < win2_3.index _ (1 : Fin 2) * 64 + win2_3.xsize _ (1 : Fin 2)
    rw [e1, x1]; omega

/-- After the region the output array holds the constant times the sum of the three embeddings at every entry. -/
theorem final (c : Dev nD) : (dat V c).arrAt 3 cfg2.N = LayerSpec.mean3 (Scalar.ofBits .f32 0x3EAAAAAB#32 : F .f32) (V c main_arg0) (V c main_v41) (V c main_v52) :=
  (dat V c).arrAt_eq_of_cover 3 _ (fun t _ => flushed_eq V c t) cover

/-- The three inputs are never written. -/
theorem final_in0 (c : Dev nD) : (dat V c).arrAt 0 cfg2.N = V c main_arg0 := ((dat V c).arrAt_in 0 rfl _).trans (A_eq V c 0)
theorem final_in1 (c : Dev nD) : (dat V c).arrAt 1 cfg2.N = V c main_v41 := ((dat V c).arrAt_in 1 rfl _).trans (A_eq V c 1)
theorem final_in2 (c : Dev nD) : (dat V c).arrAt 2 cfg2.N = V c main_v52 := ((dat V c).arrAt_in 2 rfl _).trans (A_eq V c 2)

end Cert.Kernel.Mean

end
-- ==== Proof.KbRun.lean ====
/-
  The whole program as a run: host operations, the first scaling call, host operations, the second scaling call, host
  operations, the averaging call. Between two items the thread holds every unscoped buffer at known contents: the launch
  memory, then each stretch of host operations folded over it, then — after a call — the call's arrays at what its
  write-backs leave and every other buffer as it was. Every weakly fair execution ends, faults nowhere, and the final
  memory holds every unscoped buffer at the last of these contents; in particular the two argument arrays as launched,
  and the result array at the averaging call's output.
-/
import proofs.«129552_j68410239091164_1_alg».proof.Proof.Gen.Kernel.Regions
import proofs.«129552_j68410239091164_1_alg».proof.Proof.KbScale0
import proofs.«129552_j68410239091164_1_alg».proof.Proof.KbScale1
import proofs.«129552_j68410239091164_1_alg».proof.Proof.KbMean
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Before the first call: the launch memory with the first five stretches of host operations folded over it. -/
abbrev W5 : Dev nD → Valuation τ sig (Elt F) := fun c => Gen.V5 m c
abbrev W5r : (c : Dev nD) → (b : Ref sig .tc) → Buf (Elt F) ((c : Thread nD τ).loc b) := fun c b => W5 m c b

/-- At region 0's exit: its arrays at what the pipeline leaves (the inputs as entered, the output's write-backs folded),
    every other buffer as entered. -/
def W6 (c : Dev nD) : Valuation τ sig (Elt F) :=
  Pipeline.withArrays spec0 c (W5 m c) fun w => (Scale0.dat (W5r m) c).arrAt w cfg0.N
theorem W6_arr (c : Dev nD) (w : Fin cfg0.W) :
    W6 m c (Proc.devRef .tc (Pipeline.arrRef spec0 w)) = (Scale0.dat (W5r m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
/-- The same read at the TensorCore's references. -/
abbrev W6r : (c : Dev nD) → (b : Ref sig .tc) → Buf (Elt F) ((c : Thread nD τ).loc b) := fun c b => W6 m c b
theorem hF0 (c : Dev nD) (w : Fin cfg0.W) : (Scale0.dat (W5r m) c).arrAt w cfg0.N = W6r m c (Pipeline.arrRef spec0 w) :=
  (W6_arr m c w).symm
theorem hrest0 (c : Dev nD) : ∀ b, b ∉ Finset.univ.image (Pipeline.arrRef spec0) → W6r m c b = W5r m c b :=
  fun b hb => W6_of_ne m c b fun w e => hb (Finset.mem_image.mpr ⟨w, Finset.mem_univ _, e⟩)

/-- Before the second call. -/
abbrev W7 : Dev nD → Valuation τ sig (Elt F) := fun c => StableHlo.after hostOps1 (W6 m c)
abbrev W7r : (c : Dev nD) → (b : Ref sig .tc) → Buf (Elt F) ((c : Thread nD τ).loc b) := fun c b => W7 m c b

/-- At region 1's exit: its arrays at what the pipeline leaves (the inputs as entered, the output's write-backs folded),
    every other buffer as entered. -/
def W8 (c : Dev nD) : Valuation τ sig (Elt F) :=
  Pipeline.withArrays spec1 c (W7 m c) fun w => (Scale1.dat (W7r m) c).arrAt w cfg1.N
theorem W8_arr (c : Dev nD) (w : Fin cfg1.W) :
    W8 m c (Proc.devRef .tc (Pipeline.arrRef spec1 w)) = (Scale1.dat (W7r m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- The same read at the TensorCore's references. -/
abbrev W8r : (c : Dev nD) → (b : Ref sig .tc) → Buf (Elt F) ((c : Thread nD τ).loc b) := fun c b => W8 m c b
theorem hF1 (c : Dev nD) (w : Fin cfg1.W) : (Scale1.dat (W7r m) c).arrAt w cfg1.N = W8r m c (Pipeline.arrRef spec1 w) :=
  (W8_arr m c w).symm
theorem hrest1 (c : Dev nD) : ∀ b, b ∉ Finset.univ.image (Pipeline.arrRef spec1) → W8r m c b = W7r m c b :=
  fun b hb => W8_of_ne m c b fun w e => hb (Finset.mem_image.mpr ⟨w, Finset.mem_univ _, e⟩)

/-- Before the averaging call. -/
abbrev W9 : Dev nD → Valuation τ sig (Elt F) := fun c => StableHlo.after hostOps2 (W8 m c)
abbrev W9r : (c : Dev nD) → (b : Ref sig .tc) → Buf (Elt F) ((c : Thread nD τ).loc b) := fun c b => W9 m c b

/-- At region 2's exit: its arrays at what the pipeline leaves (the inputs as entered, the output's write-backs folded),
    every other buffer as entered. -/
def W10 (c : Dev nD) : Valuation τ sig (Elt F) :=
  Pipeline.withArrays spec2 c (W9 m c) fun w => (Mean.dat (W9r m) c).arrAt w cfg2.N
theorem W10_arr (c : Dev nD) (w : Fin cfg2.W) :
    W10 m c (Proc.devRef .tc (Pipeline.arrRef spec2 w)) = (Mean.dat (W9r m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- The same read at the TensorCore's references. -/
abbrev W10r : (c : Dev nD) → (b : Ref sig .tc) → Buf (Elt F) ((c : Thread nD τ).loc b) := fun c b => W10 m c b
theorem hF2 (c : Dev nD) (w : Fin cfg2.W) : (Mean.dat (W9r m) c).arrAt w cfg2.N = W10r m c (Pipeline.arrRef spec2 w) :=
  (W10_arr m c w).symm
theorem hrest2 (c : Dev nD) : ∀ b, b ∉ Finset.univ.image (Pipeline.arrRef spec2) → W10r m c b = W9r m c b :=
  fun b hb => W10_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Scale0.dat (W5r m) c
  | ⟨1, _⟩ => fun c => Scale1.dat (W7r m) c
  | ⟨2, _⟩ => fun c => Mean.dat (W9r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W10 m c) ∗ ∃ r, prngReg c r)

/-! ## The calls as items -/

set_option backward.isDefEq.respectTransparency.types false in
/-- Region 0 over the thread state: entered with every unscoped buffer at the contents before it, left with the region's
    arrays at what its write-backs leave and every other buffer as entered. Its arrays are split out of the unscoped
    buffers and put back; the generator register goes into the invariant and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Scale0.obligation (W5r m) c
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (W5r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (W5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (W5r m c) (W6r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the region's
    arrays at what its write-backs leave and every other buffer as entered. Its arrays are split out of the unscoped
    buffers and put back; the generator register goes into the invariant and comes out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Scale1.obligation (W7r m) c
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (W7r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (W7r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (W7r m c) (W8r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the region's
    arrays at what its write-backs leave and every other buffer as entered. Its arrays are split out of the unscoped
    buffers and put back; the generator register goes into the invariant and comes out; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := Mean.obligation (W9r m) c
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (W9r m c)
  hentry c := by
    rw [Pipeline.ownSems0_none]
    have hsplit := Pipeline.arrays_of_unscopedBufs (p := 2) (pcfgs (F := F)) adm (pdats m) launch2.win launch2.arr_whole c
      ((pdats m 2 c).share_full fun _ => rfl) (W9r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (W9r m c) (W10r m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The ten items in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (W6 m)),
    .region (reg1 m),
    .host (hseg hostOps2 hostOps2_sub hostOps2_fresh (W8 m)),
    .region (reg2 m) ]

/-- The program is the run of its items. -/
theorem main_run (c : Dev nD) : main (F := F) c = Pipeline.Seg.run (segs m) := by
  rw [main_chain c, Pipeline.Seg.run_eq_chain]
  rfl

set_option backward.isDefEq.respectTransparency.types false in
/-- From any memory with zero counters, every weakly fair execution of the program terminates, nothing faulting, and the
    final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## The arguments end as launched -/

/-- No stretch of host operations writes the first argument, the two scaling calls do not touch it, and the averaging call
    only reads it. -/
theorem W10_arg0 (c : Dev nD) : W10 m c (Proc.devRef .tc main_arg0) = m ((c : Thread nD τ).loc main_arg0) :=
  calc W10 m c (Proc.devRef .tc main_arg0)
    _ = W9 m c (Proc.devRef .tc main_arg0) := (W10_arr m c 0).trans (Mean.final_in0 (W9r m) c)
    _ = W8 m c (Proc.devRef .tc main_arg0) := StableHlo.after_of_writes_sub hostOps2 _ hostOps2_writes (by decide)
    _ = W7 m c (Proc.devRef .tc main_arg0) := W8_of_ne m c main_arg0 (by decide)
    _ = W6 m c (Proc.devRef .tc main_arg0) := StableHlo.after_of_writes_sub hostOps1 _ hostOps1_writes (by decide)
    _ = W5 m c (Proc.devRef .tc main_arg0) := W6_of_ne m c main_arg0 (by decide)
    _ = m ((c : Thread nD τ).loc main_arg0) :=
      (Gen.V5_of m c main_arg0 (by decide)).trans <| (Gen.V4_of m c main_arg0 (by decide)).trans <|
        (Gen.V3_of m c main_arg0 (by decide)).trans <| (Gen.V2_of m c main_arg0 (by decide)).trans <|
        (Gen.V1_of m c main_arg0 (by decide)).trans rfl

/-- Nothing writes the second argument, and no call has it for an array. -/
theorem W10_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps2 _ hostOps2_writes (by decide)
    _ = W7 m c (Proc.devRef .tc main_arg1) := W8_of_ne m c main_arg1 (by decide)
    _ = W6 m c (Proc.devRef .tc main_arg1) := StableHlo.after_of_writes_sub hostOps1 _ hostOps1_writes (by decide)
    _ = W5 m c (Proc.devRef .tc main_arg1) := W6_of_ne m c main_arg1 (by decide)
    _ = m ((c : Thread nD τ).loc main_arg1) :=
      (Gen.V5_of m c main_arg1 (by decide)).trans <| (Gen.V4_of m c main_arg1 (by decide)).trans <|
        (Gen.V3_of m c main_arg1 (by decide)).trans <| (Gen.V2_of m c main_arg1 (by decide)).trans <|
        (Gen.V1_of m c main_arg1 (by decide)).trans rfl

/-- The frame: both argument arrays end holding what they held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W10_arg0 m c), (h c _ (mem_uc main_arg1 (by decide))).trans (W10_arg1 m c)⟩)
    (run m ρ)

end Cert.Kernel.Whole

end
-- ==== Proof.KiScale0.lean ====
/-
  One call of the edge-scaling kernel, region 0 of the program: over E = 2 000 000 edges in blocks of 8192 rows,
  out[e, :] = h[e, :] · n[e, 0]  — every row of the gathered features h (E × 64) times that edge's weight n (E × 1).

  The grid has 245 points; 244 · 8192 = 1 998 848 < E, so the last block overhangs the arrays by 7040 rows. A fetch
  of that block brings in the 1152 rows that exist and leaves the rest of the staging buffer at words nothing names;
  the body multiplies all 8192 rows; the write-back returns the first 1152. What the proof needs is therefore local:
  entry (r, j) of the body's product depends on entry (r, j) of the row block and entry (r, 0) of the weight block
  only, and the three windows are cut at the same row, so a row that is written back was computed from rows that
  were fetched. Every entry of the result then is h[e, j] · n[e, 0], and the 245 blocks cover the array.
-/
import proofs.«129552_j68410239091164_1_alg».proof.Proof.Gen.KernelIdeal.Launch
import proofs.«129552_j68410239091164_1_alg».proof.Proof.Gen.KernelIdeal.Skeleton
import proofs.«129552_j68410239091164_1_alg».proof.Proof.Gen.KernelIdeal.Points
import proofs.«129552_j68410239091164_1_alg».proof.Proof.LibColumnForms
import proofs.«129552_j68410239091164_1_alg».proof.Proof.LayerSpec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.KernelIdeal.Scale0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's product at an entry -/

/-- Entry (r, j) of the stored product: the row block's entry (r, j) times the weight column's entry (r, 0). -/
theorem product_apply (x0 : Vec F S8192x64 .f32) (x1 : Vec F S8192x1 .f32) (r : Fin 8192) (j : Fin 64) :
    k0_pay1 x0 x1 (ix2 r j) = FloatOps.mulf (x0 (ix2 r j)) (x1 (ix2 r (0 : Fin 1))) := by
  unfold k0_pay1
  show FloatOps.mulf (shapeCast S8192x64 x0 shapeCasts_S8192x64_S8192x64 (ix2 r j))
      (broadcastTo S8192x64 (shapeCast S8192x1 (shapeCast S8192x1 x1 shapeCasts_S8192x1_S8192x1) shapeCasts_S8192x1_S8192x1)
        broadcasts_S8192x1_S8192x64 (ix2 r j)) = _
  rw [shapeCast_self, shapeCast_self, shapeCast_self]
  exact congrArg _ (ColumnForms.broadcastTo_a1_ab_apply x1 broadcasts_S8192x1_S8192x64 r j)

/-- The same at any index of the block. -/
theorem product_at (x0 : Vec F S8192x64 .f32) (x1 : Vec F S8192x1 .f32) (p : S8192x64.Idx) :
    k0_pay1 x0 x1 p = FloatOps.mulf (x0 p) (x1 (ix2 (p 0) (0 : Fin 1))) := by
  have e : p = ix2 (p 0) (p 1) := eq_ix2 p
  rw [e]; exact product_apply x0 x1 (p 0) (p 1)

/-- So two pairs of blocks that agree at (r, j) and at (r, 0) give products that agree at (r, j). -/
theorem product_congr {x0 y0 : Vec F S8192x64 .f32} {x1 y1 : Vec F S8192x1 .f32} (p : S8192x64.Idx)
    (h0 : x0 p = y0 p) (h1 : x1 (ix2 (p 0) (0 : Fin 1)) = y1 (ix2 (p 0) (0 : Fin 1))) :
    k0_pay1 x0 x1 p = k0_pay1 y0 y1 p := by
  rw [product_at, product_at, h0, h1]

/-! ## The body's triple -/

abbrev rA : Rect S8192x64 := Rect.unit (s := S8192x64) ![0, 0] S8192x64.size inb_S8192x64_S8192x64_0_0
abbrev rB : Rect S8192x1 := Rect.unit (s := S8192x1) ![0, 0] S8192x1.size inb_S8192x1_S8192x1_0_0

theorem hz : (![0, 0] : Fin 2 → Nat) = fun _ => 0 := funext fun a => by fin_cases a <;> rfl

/-- What the one store leaves in the output's buffer: the product of what the two whole loads read. -/
def stored (x0 : Vec F S8192x64 .f32) (x1 : Vec F S8192x1 .f32) : Vec F S8192x64 .f32 :=
  View.canon [⟨rA, k0_pay1 (View.ld x0 rA) (View.ld x1 rB)⟩]

theorem stored_eq (x0 : Vec F S8192x64 .f32) (x1 : Vec F S8192x1 .f32) : stored x0 x1 = k0_pay1 x0 x1 := by
  unfold stored
  rw [View.canon_unit_zero hz]
  rw [View.ld_unit_zero (S := S8192x64) hz, View.ld_unit_zero (S := S8192x1) hz]

theorem stored_cover (p0 : Vec F S8192x64 .f32) (y : S8192x64.Idx) :
    ∃ pc ∈ ([⟨rA, p0⟩] : List (View.Piece (Elt F) S8192x64 .f32)), y ∈ pc.1.set :=
  ⟨_, List.mem_singleton_self _, View.mem_set_unit_zero hz inb_S8192x64_S8192x64_0_0 y⟩

set_option maxHeartbeats 1000000 in
/-- The kernel body on whole staging buffers, the two inputs' at contents x0 and x1 and the output's at anything: it
    runs to the end with the inputs' buffers as they were and the output's holding the product. -/
theorem body_triple (c : Dev nD) (E : Set ℕ) (i : grid0.Coords)
    (arg1 : Memref sig .tc .vmem S8192x64 .f32) (harg1 : arg1.IsWhole)
    (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (stored_cover _)).trans (stored_eq _ _)

end Cert.KernelIdeal.Scale0

/-! ## The blocks the region finds -/

namespace Cert.KernelIdeal.Scale0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The rows of h the fetch at point t reads: the block's part inside the array. -/
def rowsBlk (c : Dev nD) (t : Fin cfg0.N) : (win0_0.xblock (grid0.coords t)).Idx → Elt F .f32 :=
  (win0_0.blk t).view.read (Elt F) (V c main_v37)
/-- The weights the fetch at point t reads. -/
def weightsBlk (c : Dev nD) (t : Fin cfg0.N) : (win0_1.xblock (grid0.coords t)).Idx → Elt F .f32 :=
  (win0_1.blk t).view.read (Elt F) (V c main_v30)

/-- The two staging buffers after the body, on the rows inside the array; past the array's end the obligation states
    nothing, and this filler is the zero word. -/
def rowsAt (c : Dev nD) (t : Fin cfg0.N) : S8192x64.Idx → Elt F .f32 :=
  win0_0.fill (grid0.coords t) (fun _ => Scalar.ofBits .f32 0#32) (rowsBlk V c t)
def weightsAt (c : Dev nD) (t : Fin cfg0.N) : S8192x1.Idx → Elt F .f32 :=
  win0_1.fill (grid0.coords t) (fun _ => Scalar.ofBits .f32 0#32) (weightsBlk V c t)

/-! ## The three windows are cut at the same row -/

/-- Whatever a fetch left past the array's end does not show at an index the fetch filled. -/
theorem fill_irrel {G : Pipeline.Grid} (w : Window sig G) {α : Type} (i : G.Coords) (d e : w.block.Idx → α)
    (g : (w.xblock i).Idx → α) (p : w.block.Idx) (h : w.moved i p = true) : w.fill i d g p = w.fill i e g p := by
  unfold Window.fill; rw [dif_pos h, dif_pos h]

/-- A row the write-back returns is a row the fetch of h filled, -/
theorem moved_rows (i : grid0.Coords) (j : (win0_2.xblock i).Idx) : win0_0.moved i (win0_2.xinj i j) = true :=
  (win0_0.moved_iff i _).mpr fun a => (j a).isLt

/-- and a row the fetch of the weights filled (its one column is never cut). -/
theorem moved_weights (i : grid0.Coords) (j : (win0_2.xblock i).Idx) :
    win0_1.moved i (ix2 (win0_2.xinj i j 0) (0 : Fin 1)) = true :=
  (win0_1.moved_iff i _).mpr fun a => match a with
    | ⟨0, _⟩ => (j 0).isLt
    | ⟨1, _⟩ => Nat.zero_lt_one

/-- So on the rows written back the product does not depend on what lay past the array's end in either input buffer. -/
theorem cut_product (i : grid0.Coords) (d0 e0 : S8192x64.Idx → Elt F .f32) (d1 e1 : S8192x1.Idx → Elt F .f32)
    (b0 : (win0_0.xblock i).Idx → Elt F .f32) (b1 : (win0_1.xblock i).Idx → Elt F .f32) :
    win0_2.cut i (k0_pay1 (win0_0.fill i d0 b0) (win0_1.fill i d1 b1))
      = win0_2.cut i (k0_pay1 (win0_0.fill i e0 b0) (win0_1.fill i e1 b1)) := by
  funext j
  show k0_pay1 _ _ (win0_2.xinj i j) = k0_pay1 _ _ (win0_2.xinj i j)
  exact product_congr _ (fill_irrel win0_0 i d0 e0 b0 _ (moved_rows i j)) (fill_irrel win0_1 i d1 e1 b1 _ (moved_weights i j))

/-! ## The pipeline's proof data -/

/-- The arrays as the region finds them; after the body each input's buffer at its block and the output's at their
    product; the class's invariant (the scoped rest and the generator register, untouched); nothing owed. -/
def dat (c : Dev nD) : Dat τ (Elt F) Unit ℕ (UR sig nD τ) ℕ cfg0 c where
  A w := V c (Pipeline.arrRef spec0 w)
  after w t := match w with
    | ⟨0, _⟩ => rowsAt V c t
    | ⟨1, _⟩ => weightsAt V c t
    | ⟨2, _⟩ => k0_pay1 (rowsAt V c t) (weightsAt V c t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = rowsAt V c t := by dsimp only [dat]
theorem after_1 (c : Dev nD) (t : Fin cfg0.N) : (dat V c).after 1 t = weightsAt V c t := by dsimp only [dat]
theorem after_2 (c : Dev nD) (t : Fin cfg0.N) : (dat V c).after 2 t = k0_pay1 (rowsAt V c t) (weightsAt V c t) := by dsimp only [dat]

/-- Both inputs are fetched at every point: the body finds each buffer at its block, and at anything past the array's end. -/
theorem before_0 (c : Dev nD) (t : Fin cfg0.N) (d) :
    (dat V c).before 0 t d = win0_0.fill (grid0.coords t) d (rowsBlk V c t) := by
  unfold Dat.before; rw [if_pos (fetch0_0 t)]; rfl
theorem before_1 (c : Dev nD) (t : Fin cfg0.N) (d) :
    (dat V c).before 1 t d = win0_1.fill (grid0.coords t) d (weightsBlk V c t) := by
  unfold Dat.before; rw [if_pos (fetch0_1 t)]; rfl

/-! ## The body obligation -/

/-- What the body is called with at point t: the invariant, the core's dues, and each window's current buffer at what it
    then holds, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns: each buffer stated on the rows inside the array only (all three windows are cut). -/
def bodyPost (c : Dev nD) (t : Fin cfg0.N) : sProp 𝕄 :=
  iprop((dat V c).Φ t.succ ∗ (dat V c).owesAt () t.succ
    ∗ (∃ d, owns (c : Thread nD τ) (st0_0 t) fullShare
        ((cfg0.win 0).fill (cfg0.grid.coords t) d ((cfg0.win 0).cut (cfg0.grid.coords t) ((dat V c).after 0 t))))
    ∗ (∃ d, owns (c : Thread nD τ) (st0_1 t) fullShare
        ((cfg0.win 1).fill (cfg0.grid.coords t) d ((cfg0.win 1).cut (cfg0.grid.coords t) ((dat V c).after 1 t))))
    ∗ (∃ d, owns (c : Thread nD τ) (st0_2 t) fullShare
        ((cfg0.win 2).fill (cfg0.grid.coords t) d ((cfg0.win 2).cut (cfg0.grid.coords t) ((dat V c).after 2 t)))))

/-- At every point: the inputs' buffers arrive holding their blocks filled out with anything, the output's holding
    anything; the body leaves the inputs' as they were and the output's at the product, which on the rows inside the
    array is the product of the blocks — all the obligation of a cut window asks. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩⟩
  rw [before_0 V c t d0, before_1 V c t d1]
  iapply (body_triple (F := F) c Set.univ (grid0.coords t) _ _ _ _ _ _
    (win0_0.fill (grid0.coords t) d0 (rowsBlk V c t)) (win0_1.fill (grid0.coords t) d1 (weightsBlk V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win0_0.cut (grid0.coords t) (rowsAt V c t) = rowsBlk V c t := win0_0.cut_fill _ _ _
  have h1 : win0_1.cut (grid0.coords t) (weightsAt V c t) = weightsBlk V c t := win0_1.cut_fill _ _ _
  isplitl [H0]
  · iexists d0
    rw [after_0]
    change _ ⊢ owns (c : Thread nD τ) (stage0_0 (cfg0.slots t 0)) fullShare
      (win0_0.fill (grid0.coords t) d0 (win0_0.cut (grid0.coords t) (rowsAt V c t)))
    rw [h0]; try iexact H0
  isplitl [H1]
  · iexists d1
    rw [after_1]
    change _ ⊢ owns (c : Thread nD τ) (stage0_1 (cfg0.slots t 1)) fullShare
      (win0_1.fill (grid0.coords t) d1 (win0_1.cut (grid0.coords t) (weightsAt V c t)))
    rw [h1]; try iexact H1
  · iexists k0_pay1 (win0_0.fill (grid0.coords t) d0 (rowsBlk V c t)) (win0_1.fill (grid0.coords t) d1 (weightsBlk V c t))
    rw [after_2]
    change _ ⊢ owns (c : Thread nD τ) (stage0_2 (cfg0.slots t 2)) fullShare
      (win0_2.fill (grid0.coords t) (k0_pay1 (win0_0.fill (grid0.coords t) d0 (rowsBlk V c t)) (win0_1.fill (grid0.coords t) d1 (weightsBlk V c t)))
        (win0_2.cut (α := Elt F .f32) (grid0.coords t) (k0_pay1 (rowsAt V c t) (weightsAt V c t))))
    unfold rowsAt weightsAt
    rw [win0_2.fill_congr_cut (grid0.coords t) (cut_product (grid0.coords t) d0 _ d1 _ (rowsBlk V c t) (weightsBlk V c t))]
    try iexact H2

/-- The same at every point, in the form the loop that drives the body takes it. -/
theorem obligation (c : Dev nD) : BodyObligationLoose (dat (F := F) V c) (defs₀ (F := F)) Variants.none () Set.univ := fun t => by
  rw [bigSep_W0, bigSep_W0]
  exact sound_body V c t

end Cert.KernelIdeal.Scale0

/-! ## The array the region leaves -/

namespace Cert.KernelIdeal.Scale0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The index maps over the grid, decided once: block t starts at row t · 8192 and column 0 in all three windows, and
    holds min(8192, E − t · 8192) rows. -/
theorem grid_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_2.xsize (grid0.coords t) (0 : Fin 2) = min 8192 (2000000 - t.val * 8192)
    ∧ win0_2.xsize (grid0.coords t) (1 : Fin 2) = 64 :=
  (by decide +kernel : ∀ t : Fin grid0.N, _)

/-- What point t writes back is block t of the whole product h[e, j] · n[e, 0]. -/
theorem flushed_eq (c : Dev nD) (t : Fin cfg0.N) :
    (dat V c).flushed 2 t = ((cfg0.win 2).blk t).view.read (Elt F) (LayerSpec.scaleRows (V c main_v37) (V c main_v30)) := by
  funext j
  show (cfg0.win 2).cut (cfg0.grid.coords t) ((dat V c).after 2 t) j = _
  rw [after_2]
  show k0_pay1 (rowsAt V c t) (weightsAt V c t) (win0_2.xinj (grid0.coords t) j)
    = LayerSpec.scaleRows (V c main_v37) (V c main_v30) ((win0_2.blk t).view.emb j)
  rw [product_at]
  unfold LayerSpec.scaleRows
  obtain ⟨a0, a1, b0, b1, c0, c1, -, -⟩ := grid_facts t
  refine congrArg₂ FloatOps.mulf ?_ ?_
  · unfold rowsAt Window.fill
    rw [dif_pos (moved_rows (grid0.coords t) j)]
    unfold rowsBlk
    rw [View.read_apply]
    refine congrArg (V c main_v37) (funext fun a => Fin.ext ?_)
    match a with
    | ⟨0, _⟩ =>
      show win0_0.index t (0 : Fin 2) * 8192 + 1 * (j 0).val = win0_2.index t (0 : Fin 2) * 8192 + 1 * (j 0).val
      rw [a0, c0]
    | ⟨1, _⟩ =>
      show win0_0.index t (1 : Fin 2) * 64 + 1 * (j 1).val = win0_2.index t (1 : Fin 2) * 64 + 1 * (j 1).val
      rw [a1, c1]
  · unfold weightsAt Window.fill
    rw [dif_pos (moved_weights (grid0.coords t) j)]
    unfold weightsBlk
    rw [View.read_apply]
    refine congrArg (V c main_v30) (funext fun a => Fin.ext ?_)
    match a with
    | ⟨0, _⟩ =>
      show win0_1.index t (0 : Fin 2) * 8192 + 1 * (j 0).val = win0_2.index t (0 : Fin 2) * 8192 + 1 * (j 0).val
      rw [b0, c0]
    | ⟨1, _⟩ =>
      show win0_1.index t (1 : Fin 2) * 1 + 1 * 0 = 0
      rw [b1]

/-- An entry of the array lies in block t exactly when its row is among the block's rows inside the array. -/
theorem mem_blk (t : Fin cfg0.N) (i : S2000000x64.Idx) :
    i ∈ ((cfg0.win 2).blk t).view.set ↔ ∀ a, win0_2.index t a * win0_2.size a ≤ (i a).val
      ∧ (i a).val < win0_2.index t a * win0_2.size a + win0_2.xsize (grid0.coords t) a := by
  show i ∈ ((View.whole main_v38).slice (win0_2.rect t)).set ↔ _
  rw [View.set_slice_whole, Rect.mem_set_unit]

/-- Row e lies in block e / 8192: the blocks cover the array. -/
theorem cover (i : S2000000x64.Idx) : ∃ t : Fin cfg0.N, (cfg0.win 2).flush t = true ∧ i ∈ ((cfg0.win 2).blk t).view.set := by
  have hr : (i 0).val < 2000000 := (i 0).isLt
  have hc : (i 1).val < 64 := (i 1).isLt
  refine ⟨⟨(i 0).val / 8192, by rw [show cfg0.N = 245 from N_0]; omega⟩, flush0_2 _, ?_⟩
  rw [mem_blk]
  obtain ⟨-, -, -, -, c0, c1, x0, x1⟩ := grid_facts ⟨(i 0).val / 8192, by rw [show cfg0.N = 245 from N_0]; omega⟩
  intro a
  match a with
  | ⟨0, _⟩ =>
    show win0_2.index _ (0 : Fin 2) * 8192 ≤ (i 0).val ∧ (i 0).val < win0_2.index _ (0 : Fin 2) * 8192 + win0_2.xsize _ (0 : Fin 2)
    rw [c0, x0]; dsimp only; omega
  | ⟨1, _⟩ =>
    show win0_2.index _ (1 : Fin 2) * 64 ≤ (i 1).val ∧ (i 1).val < win0_2.index _ (1 : Fin 2) * 64 + win0_2.xsize _ (1 : Fin 2)
    rw [c1, x1]; omega

/-- After the region the output array holds h[e, j] · n[e, 0] at every entry. -/
theorem final (c : Dev nD) : (dat V c).arrAt 2 cfg0.N = LayerSpec.scaleRows (V c main_v37) (V c main_v30) :=
  (dat V c).arrAt_eq_of_cover 2 _ (fun t _ => flushed_eq V c t) cover

/-- The two inputs are never written. -/
theorem final_in0 (c : Dev nD) : (dat V c).arrAt 0 cfg0.N = V c main_v37 := ((dat V c).arrAt_in 0 rfl _).trans (A_eq V c 0)
theorem final_in1 (c : Dev nD) : (dat V c).arrAt 1 cfg0.N = V c main_v30 := ((dat V c).arrAt_in 1 rfl _).trans (A_eq V c 1)

end Cert.KernelIdeal.Scale0

end
-- ==== Proof.KiScale1.lean ====
/-
  One call of the edge-scaling kernel, region 1 of the program: over E = 2 000 000 edges in blocks of 8192 rows,
  out[e, :] = h[e, :] · n[e, 0]  — every row of the gathered features h (E × 64) times that edge's weight n (E × 1).

  The grid has 245 points; 244 · 8192 = 1 998 848 < E, so the last block overhangs the arrays by 7040 rows. A fetch
  of that block brings in the 1152 rows that exist and leaves the rest of the staging buffer at words nothing names;
  the body multiplies all 8192 rows; the write-back returns the first 1152. What the proof needs is therefore local:
  entry (r, j) of the body's product depends on entry (r, j) of the row block and entry (r, 0) of the weight block
  only, and the three windows are cut at the same row, so a row that is written back was computed from rows that
  were fetched. Every entry of the result then is h[e, j] · n[e, 0], and the 245 blocks cover the array.
-/
import proofs.«129552_j68410239091164_1_alg».proof.Proof.Gen.KernelIdeal.Launch
import proofs.«129552_j68410239091164_1_alg».proof.Proof.Gen.KernelIdeal.Skeleton
import proofs.«129552_j68410239091164_1_alg».proof.Proof.Gen.KernelIdeal.Points
import proofs.«129552_j68410239091164_1_alg».proof.Proof.LibColumnForms
import proofs.«129552_j68410239091164_1_alg».proof.Proof.LayerSpec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.KernelIdeal.Scale1

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's product at an entry -/

/-- Entry (r, j) of the stored product: the row block's entry (r, j) times the weight column's entry (r, 0). -/
theorem product_apply (x0 : Vec F S8192x64 .f32) (x1 : Vec F S8192x1 .f32) (r : Fin 8192) (j : Fin 64) :
    k1_pay1 x0 x1 (ix2 r j) = FloatOps.mulf (x0 (ix2 r j)) (x1 (ix2 r (0 : Fin 1))) := by
  unfold k1_pay1
  show FloatOps.mulf (shapeCast S8192x64 x0 shapeCasts_S8192x64_S8192x64 (ix2 r j))
      (broadcastTo S8192x64 (shapeCast S8192x1 (shapeCast S8192x1 x1 shapeCasts_S8192x1_S8192x1) shapeCasts_S8192x1_S8192x1)
        broadcasts_S8192x1_S8192x64 (ix2 r j)) = _
  rw [shapeCast_self, shapeCast_self, shapeCast_self]
  exact congrArg _ (ColumnForms.broadcastTo_a1_ab_apply x1 broadcasts_S8192x1_S8192x64 r j)

/-- The same at any index of the block. -/
theorem product_at (x0 : Vec F S8192x64 .f32) (x1 : Vec F S8192x1 .f32) (p : S8192x64.Idx) :
    k1_pay1 x0 x1 p = FloatOps.mulf (x0 p) (x1 (ix2 (p 0) (0 : Fin 1))) := by
  have e : p = ix2 (p 0) (p 1) := eq_ix2 p
  rw [e]; exact product_apply x0 x1 (p 0) (p 1)

/-- So two pairs of blocks that agree at (r, j) and at (r, 0) give products that agree at (r, j). -/
theorem product_congr {x0 y0 : Vec F S8192x64 .f32} {x1 y1 : Vec F S8192x1 .f32} (p : S8192x64.Idx)
    (h0 : x0 p = y0 p) (h1 : x1 (ix2 (p 0) (0 : Fin 1)) = y1 (ix2 (p 0) (0 : Fin 1))) :
    k1_pay1 x0 x1 p = k1_pay1 y0 y1 p := by
  rw [product_at, product_at, h0, h1]

/-! ## The body's triple -/

abbrev rA : Rect S8192x64 := Rect.unit (s := S8192x64) ![0, 0] S8192x64.size inb_S8192x64_S8192x64_0_0
abbrev rB : Rect S8192x1 := Rect.unit (s := S8192x1) ![0, 0] S8192x1.size inb_S8192x1_S8192x1_0_0

theorem hz : (![0, 0] : Fin 2 → Nat) = fun _ => 0 := funext fun a => by fin_cases a <;> rfl

/-- What the one store leaves in the output's buffer: the product of what the two whole loads read. -/
def stored (x0 : Vec F S8192x64 .f32) (x1 : Vec F S8192x1 .f32) : Vec F S8192x64 .f32 :=
  View.canon [⟨rA, k1_pay1 (View.ld x0 rA) (View.ld x1 rB)⟩]

theorem stored_eq (x0 : Vec F S8192x64 .f32) (x1 : Vec F S8192x1 .f32) : stored x0 x1 = k1_pay1 x0 x1 := by
  unfold stored
  rw [View.canon_unit_zero hz]
  rw [View.ld_unit_zero (S := S8192x64) hz, View.ld_unit_zero (S := S8192x1) hz]

theorem stored_cover (p0 : Vec F S8192x64 .f32) (y : S8192x64.Idx) :
    ∃ pc ∈ ([⟨rA, p0⟩] : List (View.Piece (Elt F) S8192x64 .f32)), y ∈ pc.1.set :=
  ⟨_, List.mem_singleton_self _, View.mem_set_unit_zero hz inb_S8192x64_S8192x64_0_0 y⟩

set_option maxHeartbeats 1000000 in
/-- The kernel body on whole staging buffers, the two inputs' at contents x0 and x1 and the output's at anything: it
    runs to the end with the inputs' buffers as they were and the output's holding the product. -/
theorem body_triple (c : Dev nD) (E : Set ℕ) (i : grid1.Coords)
    (arg1 : Memref sig .tc .vmem S8192x64 .f32) (harg1 : arg1.IsWhole)
    (arg2 : Memref sig .tc .vmem S8192x1 .f32) (harg2 : arg2.IsWhole)
    (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (stored_cover _)).trans (stored_eq _ _)

end Cert.KernelIdeal.Scale1

/-! ## The blocks the region finds -/

namespace Cert.KernelIdeal.Scale1

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The rows of h the fetch at point t reads: the block's part inside the array. -/
def rowsBlk (c : Dev nD) (t : Fin cfg1.N) : (win1_0.xblock (grid1.coords t)).Idx → Elt F .f32 :=
  (win1_0.blk t).view.read (Elt F) (V c main_v48)
/-- The weights the fetch at point t reads. -/
def weightsBlk (c : Dev nD) (t : Fin cfg1.N) : (win1_1.xblock (grid1.coords t)).Idx → Elt F .f32 :=
  (win1_1.blk t).view.read (Elt F) (V c main_v30)

/-- The two staging buffers after the body, on the rows inside the array; past the array's end the obligation states
    nothing, and this filler is the zero word. -/
def rowsAt (c : Dev nD) (t : Fin cfg1.N) : S8192x64.Idx → Elt F .f32 :=
  win1_0.fill (grid1.coords t) (fun _ => Scalar.ofBits .f32 0#32) (rowsBlk V c t)
def weightsAt (c : Dev nD) (t : Fin cfg1.N) : S8192x1.Idx → Elt F .f32 :=
  win1_1.fill (grid1.coords t) (fun _ => Scalar.ofBits .f32 0#32) (weightsBlk V c t)

/-! ## The three windows are cut at the same row -/

/-- Whatever a fetch left past the array's end does not show at an index the fetch filled. -/
theorem fill_irrel {G : Pipeline.Grid} (w : Window sig G) {α : Type} (i : G.Coords) (d e : w.block.Idx → α)
    (g : (w.xblock i).Idx → α) (p : w.block.Idx) (h : w.moved i p = true) : w.fill i d g p = w.fill i e g p := by
  unfold Window.fill; rw [dif_pos h, dif_pos h]

/-- A row the write-back returns is a row the fetch of h filled, -/
theorem moved_rows (i : grid1.Coords) (j : (win1_2.xblock i).Idx) : win1_0.moved i (win1_2.xinj i j) = true :=
  (win1_0.moved_iff i _).mpr fun a => (j a).isLt

/-- and a row the fetch of the weights filled (its one column is never cut). -/
theorem moved_weights (i : grid1.Coords) (j : (win1_2.xblock i).Idx) :
    win1_1.moved i (ix2 (win1_2.xinj i j 0) (0 : Fin 1)) = true :=
  (win1_1.moved_iff i _).mpr fun a => match a with
    | ⟨0, _⟩ => (j 0).isLt
    | ⟨1, _⟩ => Nat.zero_lt_one

/-- So on the rows written back the product does not depend on what lay past the array's end in either input buffer. -/
theorem cut_product (i : grid1.Coords) (d0 e0 : S8192x64.Idx → Elt F .f32) (d1 e1 : S8192x1.Idx → Elt F .f32)
    (b0 : (win1_0.xblock i).Idx → Elt F .f32) (b1 : (win1_1.xblock i).Idx → Elt F .f32) :
    win1_2.cut i (k1_pay1 (win1_0.fill i d0 b0) (win1_1.fill i d1 b1))
      = win1_2.cut i (k1_pay1 (win1_0.fill i e0 b0) (win1_1.fill i e1 b1)) := by
  funext j
  show k1_pay1 _ _ (win1_2.xinj i j) = k1_pay1 _ _ (win1_2.xinj i j)
  exact product_congr _ (fill_irrel win1_0 i d0 e0 b0 _ (moved_rows i j)) (fill_irrel win1_1 i d1 e1 b1 _ (moved_weights i j))

/-! ## The pipeline's proof data -/

/-- The arrays as the region finds them; after the body each input's buffer at its block and the output's at their
    product; the class's invariant (the scoped rest and the generator register, untouched); nothing owed. -/
def dat (c : Dev nD) : Dat τ (Elt F) Unit ℕ (UR sig nD τ) ℕ cfg1 c where
  A w := V c (Pipeline.arrRef spec1 w)
  after w t := match w with
    | ⟨0, _⟩ => rowsAt V c t
    | ⟨1, _⟩ => weightsAt V c t
    | ⟨2, _⟩ => k1_pay1 (rowsAt V c t) (weightsAt V c t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = rowsAt V c t := by dsimp only [dat]
theorem after_1 (c : Dev nD) (t : Fin cfg1.N) : (dat V c).after 1 t = weightsAt V c t := by dsimp only [dat]
theorem after_2 (c : Dev nD) (t : Fin cfg1.N) : (dat V c).after 2 t = k1_pay1 (rowsAt V c t) (weightsAt V c t) := by dsimp only [dat]

/-- Both inputs are fetched at every point: the body finds each buffer at its block, and at anything past the array's end. -/
theorem before_0 (c : Dev nD) (t : Fin cfg1.N) (d) :
    (dat V c).before 0 t d = win1_0.fill (grid1.coords t) d (rowsBlk V c t) := by
  unfold Dat.before; rw [if_pos (fetch1_0 t)]; rfl
theorem before_1 (c : Dev nD) (t : Fin cfg1.N) (d) :
    (dat V c).before 1 t d = win1_1.fill (grid1.coords t) d (weightsBlk V c t) := by
  unfold Dat.before; rw [if_pos (fetch1_1 t)]; rfl

/-! ## The body obligation -/

/-- What the body is called with at point t: the invariant, the core's dues, and each window's current buffer at what it
    then holds, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns: each buffer stated on the rows inside the array only (all three windows are cut). -/
def bodyPost (c : Dev nD) (t : Fin cfg1.N) : sProp 𝕄 :=
  iprop((dat V c).Φ t.succ ∗ (dat V c).owesAt () t.succ
    ∗ (∃ d, owns (c : Thread nD τ) (st1_0 t) fullShare
        ((cfg1.win 0).fill (cfg1.grid.coords t) d ((cfg1.win 0).cut (cfg1.grid.coords t) ((dat V c).after 0 t))))
    ∗ (∃ d, owns (c : Thread nD τ) (st1_1 t) fullShare
        ((cfg1.win 1).fill (cfg1.grid.coords t) d ((cfg1.win 1).cut (cfg1.grid.coords t) ((dat V c).after 1 t))))
    ∗ (∃ d, owns (c : Thread nD τ) (st1_2 t) fullShare
        ((cfg1.win 2).fill (cfg1.grid.coords t) d ((cfg1.win 2).cut (cfg1.grid.coords t) ((dat V c).after 2 t)))))

/-- At every point: the inputs' buffers arrive holding their blocks filled out with anything, the output's holding
    anything; the body leaves the inputs' as they were and the output's at the product, which on the rows inside the
    array is the product of the blocks — all the obligation of a cut window asks. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩⟩
  rw [before_0 V c t d0, before_1 V c t d1]
  iapply (body_triple (F := F) c Set.univ (grid1.coords t) _ _ _ _ _ _
    (win1_0.fill (grid1.coords t) d0 (rowsBlk V c t)) (win1_1.fill (grid1.coords t) d1 (weightsBlk V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win1_0.cut (grid1.coords t) (rowsAt V c t) = rowsBlk V c t := win1_0.cut_fill _ _ _
  have h1 : win1_1.cut (grid1.coords t) (weightsAt V c t) = weightsBlk V c t := win1_1.cut_fill _ _ _
  isplitl [H0]
  · iexists d0
    rw [after_0]
    change _ ⊢ owns (c : Thread nD τ) (stage1_0 (cfg1.slots t 0)) fullShare
      (win1_0.fill (grid1.coords t) d0 (win1_0.cut (grid1.coords t) (rowsAt V c t)))
    rw [h0]; try iexact H0
  isplitl [H1]
  · iexists d1
    rw [after_1]
    change _ ⊢ owns (c : Thread nD τ) (stage1_1 (cfg1.slots t 1)) fullShare
      (win1_1.fill (grid1.coords t) d1 (win1_1.cut (grid1.coords t) (weightsAt V c t)))
    rw [h1]; try iexact H1
  · iexists k1_pay1 (win1_0.fill (grid1.coords t) d0 (rowsBlk V c t)) (win1_1.fill (grid1.coords t) d1 (weightsBlk V c t))
    rw [after_2]
    change _ ⊢ owns (c : Thread nD τ) (stage1_2 (cfg1.slots t 2)) fullShare
      (win1_2.fill (grid1.coords t) (k1_pay1 (win1_0.fill (grid1.coords t) d0 (rowsBlk V c t)) (win1_1.fill (grid1.coords t) d1 (weightsBlk V c t)))
        (win1_2.cut (α := Elt F .f32) (grid1.coords t) (k1_pay1 (rowsAt V c t) (weightsAt V c t))))
    unfold rowsAt weightsAt
    rw [win1_2.fill_congr_cut (grid1.coords t) (cut_product (grid1.coords t) d0 _ d1 _ (rowsBlk V c t) (weightsBlk V c t))]
    try iexact H2

/-- The same at every point, in the form the loop that drives the body takes it. -/
theorem obligation (c : Dev nD) : BodyObligationLoose (dat (F := F) V c) (defs₀ (F := F)) Variants.none () Set.univ := fun t => by
  rw [bigSep_W1, bigSep_W1]
  exact sound_body V c t

end Cert.KernelIdeal.Scale1

/-! ## The array the region leaves -/

namespace Cert.KernelIdeal.Scale1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The index maps over the grid, decided once: block t starts at row t · 8192 and column 0 in all three windows, and
    holds min(8192, E − t · 8192) rows. -/
theorem grid_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_2.xsize (grid1.coords t) (0 : Fin 2) = min 8192 (2000000 - t.val * 8192)
    ∧ win1_2.xsize (grid1.coords t) (1 : Fin 2) = 64 :=
  (by decide +kernel : ∀ t : Fin grid1.N, _)

/-- What point t writes back is block t of the whole product h[e, j] · n[e, 0]. -/
theorem flushed_eq (c : Dev nD) (t : Fin cfg1.N) :
    (dat V c).flushed 2 t = ((cfg1.win 2).blk t).view.read (Elt F) (LayerSpec.scaleRows (V c main_v48) (V c main_v30)) := by
  funext j
  show (cfg1.win 2).cut (cfg1.grid.coords t) ((dat V c).after 2 t) j = _
  rw [after_2]
  show k1_pay1 (rowsAt V c t) (weightsAt V c t) (win1_2.xinj (grid1.coords t) j)
    = LayerSpec.scaleRows (V c main_v48) (V c main_v30) ((win1_2.blk t).view.emb j)
  rw [product_at]
  unfold LayerSpec.scaleRows
  obtain ⟨a0, a1, b0, b1, c0, c1, -, -⟩ := grid_facts t
  refine congrArg₂ FloatOps.mulf ?_ ?_
  · unfold rowsAt Window.fill
    rw [dif_pos (moved_rows (grid1.coords t) j)]
    unfold rowsBlk
    rw [View.read_apply]
    refine congrArg (V c main_v48) (funext fun a => Fin.ext ?_)
    match a with
    | ⟨0, _⟩ =>
      show win1_0.index t (0 : Fin 2) * 8192 + 1 * (j 0).val = win1_2.index t (0 : Fin 2) * 8192 + 1 * (j 0).val
      rw [a0, c0]
    | ⟨1, _⟩ =>
      show win1_0.index t (1 : Fin 2) * 64 + 1 * (j 1).val = win1_2.index t (1 : Fin 2) * 64 + 1 * (j 1).val
      rw [a1, c1]
  · unfold weightsAt Window.fill
    rw [dif_pos (moved_weights (grid1.coords t) j)]
    unfold weightsBlk
    rw [View.read_apply]
    refine congrArg (V c main_v30) (funext fun a => Fin.ext ?_)
    match a with
    | ⟨0, _⟩ =>
      show win1_1.index t (0 : Fin 2) * 8192 + 1 * (j 0).val = win1_2.index t (0 : Fin 2) * 8192 + 1 * (j 0).val
      rw [b0, c0]
    | ⟨1, _⟩ =>
      show win1_1.index t (1 : Fin 2) * 1 + 1 * 0 = 0
      rw [b1]

/-- An entry of the array lies in block t exactly when its row is among the block's rows inside the array. -/
theorem mem_blk (t : Fin cfg1.N) (i : S2000000x64.Idx) :
    i ∈ ((cfg1.win 2).blk t).view.set ↔ ∀ a, win1_2.index t a * win1_2.size a ≤ (i a).val
      ∧ (i a).val < win1_2.index t a * win1_2.size a + win1_2.xsize (grid1.coords t) a := by
  show i ∈ ((View.whole main_v49).slice (win1_2.rect t)).set ↔ _
  rw [View.set_slice_whole, Rect.mem_set_unit]

/-- Row e lies in block e / 8192: the blocks cover the array. -/
theorem cover (i : S2000000x64.Idx) : ∃ t : Fin cfg1.N, (cfg1.win 2).flush t = true ∧ i ∈ ((cfg1.win 2).blk t).view.set := by
  have hr : (i 0).val < 2000000 := (i 0).isLt
  have hc : (i 1).val < 64 := (i 1).isLt
  refine ⟨⟨(i 0).val / 8192, by rw [show cfg1.N = 245 from N_1]; omega⟩, flush1_2 _, ?_⟩
  rw [mem_blk]
  obtain ⟨-, -, -, -, c0, c1, x0, x1⟩ := grid_facts ⟨(i 0).val / 8192, by rw [show cfg1.N = 245 from N_1]; omega⟩
  intro a
  match a with
  | ⟨0, _⟩ =>
    show win1_2.index _ (0 : Fin 2) * 8192 ≤ (i 0).val ∧ (i 0).val < win1_2.index _ (0 : Fin 2) * 8192 + win1_2.xsize _ (0 : Fin 2)
    rw [c0, x0]; dsimp only; omega
  | ⟨1, _⟩ =>
    show win1_2.index _ (1 : Fin 2) * 64 ≤ (i 1).val ∧ (i 1).val < win1_2.index _ (1 : Fin 2) * 64 + win1_2.xsize _ (1 : Fin 2)
    rw [c1, x1]; omega

/-- After the region the output array holds h[e, j] · n[e, 0] at every entry. -/
theorem final (c : Dev nD) : (dat V c).arrAt 2 cfg1.N = LayerSpec.scaleRows (V c main_v48) (V c main_v30) :=
  (dat V c).arrAt_eq_of_cover 2 _ (fun t _ => flushed_eq V c t) cover

/-- The two inputs are never written. -/
theorem final_in0 (c : Dev nD) : (dat V c).arrAt 0 cfg1.N = V c main_v48 := ((dat V c).arrAt_in 0 rfl _).trans (A_eq V c 0)
theorem final_in1 (c : Dev nD) : (dat V c).arrAt 1 cfg1.N = V c main_v30 := ((dat V c).arrAt_in 1 rfl _).trans (A_eq V c 1)

end Cert.KernelIdeal.Scale1

end
-- ==== Proof.KiMean.lean ====
/-
  The averaging kernel, region 2 of the program: over N = 150 000 nodes in blocks of 4096 rows,
  out[v, :] = ((e0 + e1)[v, :] + e2[v, :]) · k  for the three layer embeddings e0, e1, e2 (N × 64) and one constant k.

  The grid has 37 points; 36 · 4096 = 147 456 < N, so the last block overhangs the arrays by 1552 rows: its fetches bring
  in the 2544 rows that exist, the body works on all 4096, the write-back returns the first 2544. The body is pointwise:
  entry (r, j) of what it stores depends on entry (r, j) of the three input blocks only, and the four windows are cut at
  the same row; so every entry of the result is the constant times the sum of the three arrays' entries there, and the
  37 blocks cover the array.
-/
import proofs.«129552_j68410239091164_1_alg».proof.Proof.Gen.KernelIdeal.Launch
import proofs.«129552_j68410239091164_1_alg».proof.Proof.Gen.KernelIdeal.Skeleton
import proofs.«129552_j68410239091164_1_alg».proof.Proof.Gen.KernelIdeal.Points
import proofs.«129552_j68410239091164_1_alg».proof.Proof.LayerSpec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.KernelIdeal.Mean

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's value at an entry -/

/-- Entry p of what the body stores: the sum of the three blocks' entries there, times the constant. -/
theorem mean_at (x0 x1 x2 : Vec F S4096x64 .f32) (p : S4096x64.Idx) :
    k2_pay1 x0 x1 x2 p = FloatOps.mulf (FloatOps.addf (FloatOps.addf (x0 p) (x1 p)) (x2 p)) (Named.named κ "inv_3" 0x3EAAAAAB#32 : F .f32) := by
  unfold k2_pay1
  show FloatOps.mulf (FloatOps.addf (FloatOps.addf (x0 p) (shapeCast S4096x64 x1 shapeCasts_S4096x64_S4096x64 p))
      (shapeCast S4096x64 x2 shapeCasts_S4096x64_S4096x64 p)) (broadcast S4096x64 (Named.named κ "inv_3" 0x3EAAAAAB#32 : F .f32) p) = _
  rw [shapeCast_self, shapeCast_self]; rfl

/-- So blocks that agree at p give values that agree at p. -/
theorem mean_congr {x0 y0 x1 y1 x2 y2 : Vec F S4096x64 .f32} (p : S4096x64.Idx)
    (h0 : x0 p = y0 p) (h1 : x1 p = y1 p) (h2 : x2 p = y2 p) : k2_pay1 x0 x1 x2 p = k2_pay1 y0 y1 y2 p := by
  rw [mean_at, mean_at, h0, h1, h2]

/-! ## The body's triple -/

abbrev rA : Rect S4096x64 := Rect.unit (s := S4096x64) ![0, 0] S4096x64.size inb_S4096x64_S4096x64_0_0

theorem hz : (![0, 0] : Fin 2 → Nat) = fun _ => 0 := funext fun a => by fin_cases a <;> rfl

/-- What the one store leaves in the output's buffer, from what the three whole loads read. -/
def stored (x0 x1 x2 : Vec F S4096x64 .f32) : Vec F S4096x64 .f32 :=
  View.canon [⟨rA, k2_pay1 (View.ld x0 rA) (View.ld x1 rA) (View.ld x2 rA)⟩]

theorem stored_eq (x0 x1 x2 : Vec F S4096x64 .f32) : stored x0 x1 x2 = k2_pay1 x0 x1 x2 := by
  unfold stored
  rw [View.canon_unit_zero hz]
  rw [View.ld_unit_zero (S := S4096x64) hz, View.ld_unit_zero (S := S4096x64) hz, View.ld_unit_zero (S := S4096x64) hz]

theorem stored_cover (p0 : Vec F S4096x64 .f32) (y : S4096x64.Idx) :
    ∃ pc ∈ ([⟨rA, p0⟩] : List (View.Piece (Elt F) S4096x64 .f32)), y ∈ pc.1.set :=
  ⟨_, List.mem_singleton_self _, View.mem_set_unit_zero hz inb_S4096x64_S4096x64_0_0 y⟩

set_option maxHeartbeats 1000000 in
/-- The kernel body on whole staging buffers, the three inputs' at contents x0, x1, x2 and the output's at anything: it
    runs to the end with the inputs' buffers as they were and the output's holding the scaled sum. -/
theorem body_triple (c : Dev nD) (E : Set ℕ) (i : grid2.Coords)
    (arg1 : Memref sig .tc .vmem S4096x64 .f32) (harg1 : arg1.IsWhole)
    (arg2 : Memref sig .tc .vmem S4096x64 .f32) (harg2 : arg2.IsWhole)
    (arg3 : Memref sig .tc .vmem S4096x64 .f32) (harg3 : arg3.IsWhole)
    (arg4 : Memref sig .tc .vmem S4096x64 .f32) (harg4 : arg4.IsWhole)
    (x0 x1 x2 : Vec F S4096x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k2_pay1 x0 x1 x2)) -∗ K ⟨⟩))
      ⊢ wp frame (wpE (defs₀ (F := F)) Variants.none c none) E (cc2__avg_kernel i arg1 harg1 arg2 harg2 arg3 harg3 arg4 harg4) K := by
  simp only [cc2__avg_kernel_eq_skeleton]; unfold cc2__avg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (stored_cover _)).trans (stored_eq _ _ _)

/-! ## The blocks the region finds -/

-- the TensorCore's buffer contents when the region is entered
variable (V : (c : Dev nD) → (b : Ref sig .tc) → Buf (Elt F) ((c : Thread nD τ).loc b))

/-- The rows of each embedding the fetch at point t reads: the block's part inside the array. -/
def blk0 (c : Dev nD) (t : Fin cfg2.N) : (win2_0.xblock (grid2.coords t)).Idx → Elt F .f32 :=
  (win2_0.blk t).view.read (Elt F) (V c main_arg0)
def blk1 (c : Dev nD) (t : Fin cfg2.N) : (win2_1.xblock (grid2.coords t)).Idx → Elt F .f32 :=
  (win2_1.blk t).view.read (Elt F) (V c main_v41)
def blk2 (c : Dev nD) (t : Fin cfg2.N) : (win2_2.xblock (grid2.coords t)).Idx → Elt F .f32 :=
  (win2_2.blk t).view.read (Elt F) (V c main_v52)

/-- The three staging buffers after the body, on the rows inside the array; past the array's end the obligation states
    nothing, and this filler is the zero word. -/
def at0 (c : Dev nD) (t : Fin cfg2.N) : S4096x64.Idx → Elt F .f32 :=
  win2_0.fill (grid2.coords t) (fun _ => Scalar.ofBits .f32 0#32) (blk0 V c t)
def at1 (c : Dev nD) (t : Fin cfg2.N) : S4096x64.Idx → Elt F .f32 :=
  win2_1.fill (grid2.coords t) (fun _ => Scalar.ofBits .f32 0#32) (blk1 V c t)
def at2 (c : Dev nD) (t : Fin cfg2.N) : S4096x64.Idx → Elt F .f32 :=
  win2_2.fill (grid2.coords t) (fun _ => Scalar.ofBits .f32 0#32) (blk2 V c t)

/-! ## The four windows are cut at the same row -/

/-- Whatever a fetch left past the array's end does not show at an index the fetch filled. -/
theorem fill_irrel {G : Pipeline.Grid} (w : Window sig G) {α : Type} (i : G.Coords) (d e : w.block.Idx → α)
    (g : (w.xblock i).Idx → α) (p : w.block.Idx) (h : w.moved i p = true) : w.fill i d g p = w.fill i e g p := by
  unfold Window.fill; rw [dif_pos h, dif_pos h]

/-- A row the write-back returns is a row each of the three fetches filled. -/
theorem moved0 (i : grid2.Coords) (j : (win2_3.xblock i).Idx) : win2_0.moved i (win2_3.xinj i j) = true :=
  (win2_0.moved_iff i _).mpr fun a => (j a).isLt
theorem moved1 (i : grid2.Coords) (j : (win2_3.xblock i).Idx) : win2_1.moved i (win2_3.xinj i j) = true :=
  (win2_1.moved_iff i _).mpr fun a => (j a).isLt
theorem moved2 (i : grid2.Coords) (j : (win2_3.xblock i).Idx) : win2_2.moved i (win2_3.xinj i j) = true :=
  (win2_2.moved_iff i _).mpr fun a => (j a).isLt

/-- So on the rows written back the result does not depend on what lay past the array's end in the input buffers. -/
theorem cut_mean (i : grid2.Coords) (d0 e0 d1 e1 d2 e2 : S4096x64.Idx → Elt F .f32)
    (b0 : (win2_0.xblock i).Idx → Elt F .f32) (b1 : (win2_1.xblock i).Idx → Elt F .f32) (b2 : (win2_2.xblock i).Idx → Elt F .f32) :
    win2_3.cut i (k2_pay1 (win2_0.fill i d0 b0) (win2_1.fill i d1 b1) (win2_2.fill i d2 b2))
      = win2_3.cut i (k2_pay1 (win2_0.fill i e0 b0) (win2_1.fill i e1 b1) (win2_2.fill i e2 b2)) := by
  funext j
  show k2_pay1 _ _ _ (win2_3.xinj i j) = k2_pay1 _ _ _ (win2_3.xinj i j)
  exact mean_congr _ (fill_irrel win2_0 i d0 e0 b0 _ (moved0 i j)) (fill_irrel win2_1 i d1 e1 b1 _ (moved1 i j))
    (fill_irrel win2_2 i d2 e2 b2 _ (moved2 i j))

/-! ## The pipeline's proof data -/

/-- The arrays as the region finds them; after the body each input's buffer at its block and the output's at the scaled
    sum; the class's invariant (the scoped rest and the generator register, untouched); nothing owed. -/
def dat (c : Dev nD) : Dat τ (Elt F) Unit ℕ (UR sig nD τ) ℕ cfg2 c where
  A w := V c (Pipeline.arrRef spec2 w)
  after w t := match w with
    | ⟨0, _⟩ => at0 V c t
    | ⟨1, _⟩ => at1 V c t
    | ⟨2, _⟩ => at2 V c t
    | ⟨3, _⟩ => k2_pay1 (at0 V c t) (at1 V c t) (at2 V c t)
  Φ _ := Pipeline.ΦA spec2 c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = at0 V c t := by dsimp only [dat]
theorem after_1 (c : Dev nD) (t : Fin cfg2.N) : (dat V c).after 1 t = at1 V c t := by dsimp only [dat]
theorem after_2 (c : Dev nD) (t : Fin cfg2.N) : (dat V c).after 2 t = at2 V c t := by dsimp only [dat]
theorem after_3 (c : Dev nD) (t : Fin cfg2.N) : (dat V c).after 3 t = k2_pay1 (at0 V c t) (at1 V c t) (at2 V c t) := by dsimp only [dat]

/-- The three inputs are fetched at every point: the body finds each buffer at its block, and at anything past the array's end. -/
theorem before_0 (c : Dev nD) (t : Fin cfg2.N) (d) :
    (dat V c).before 0 t d = win2_0.fill (grid2.coords t) d (blk0 V c t) := by
  unfold Dat.before; rw [if_pos (fetch2_0 t)]; rfl
theorem before_1 (c : Dev nD) (t : Fin cfg2.N) (d) :
    (dat V c).before 1 t d = win2_1.fill (grid2.coords t) d (blk1 V c t) := by
  unfold Dat.before; rw [if_pos (fetch2_1 t)]; rfl
theorem before_2 (c : Dev nD) (t : Fin cfg2.N) (d) :
    (dat V c).before 2 t d = win2_2.fill (grid2.coords t) d (blk2 V c t) := by
  unfold Dat.before; rw [if_pos (fetch2_2 t)]; rfl

/-! ## The body obligation -/

/-- What the body is called with at point t, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns: each buffer stated on the rows inside the array only (all four windows are cut). -/
def bodyPost (c : Dev nD) (t : Fin cfg2.N) : sProp 𝕄 :=
  iprop((dat V c).Φ t.succ ∗ (dat V c).owesAt () t.succ
    ∗ (∃ d, owns (c : Thread nD τ) (st2_0 t) fullShare
        ((cfg2.win 0).fill (cfg2.grid.coords t) d ((cfg2.win 0).cut (cfg2.grid.coords t) ((dat V c).after 0 t))))
    ∗ (∃ d, owns (c : Thread nD τ) (st2_1 t) fullShare
        ((cfg2.win 1).fill (cfg2.grid.coords t) d ((cfg2.win 1).cut (cfg2.grid.coords t) ((dat V c).after 1 t))))
    ∗ (∃ d, owns (c : Thread nD τ) (st2_2 t) fullShare
        ((cfg2.win 2).fill (cfg2.grid.coords t) d ((cfg2.win 2).cut (cfg2.grid.coords t) ((dat V c).after 2 t))))
    ∗ (∃ d, owns (c : Thread nD τ) (st2_3 t) fullShare
        ((cfg2.win 3).fill (cfg2.grid.coords t) d ((cfg2.win 3).cut (cfg2.grid.coords t) ((dat V c).after 3 t)))))

/-- At every point: the inputs' buffers arrive holding their blocks filled out with anything, the output's holding
    anything; the body leaves the inputs' as they were and the output's at the scaled sum, which on the rows inside the
    array is the scaled sum of the blocks — all the obligation of a cut window asks. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩⟩
  rw [before_0 V c t d0, before_1 V c t d1, before_2 V c t d2]
  iapply (body_triple (F := F) c Set.univ (grid2.coords t) _ _ _ _ _ _ _ _
    (win2_0.fill (grid2.coords t) d0 (blk0 V c t)) (win2_1.fill (grid2.coords t) d1 (blk1 V c t))
    (win2_2.fill (grid2.coords t) d2 (blk2 V c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h0 : win2_0.cut (grid2.coords t) (at0 V c t) = blk0 V c t := win2_0.cut_fill _ _ _
  have h1 : win2_1.cut (grid2.coords t) (at1 V c t) = blk1 V c t := win2_1.cut_fill _ _ _
  have h2 : win2_2.cut (grid2.coords t) (at2 V c t) = blk2 V c t := win2_2.cut_fill _ _ _
  isplitl [H0]
  · iexists d0
    rw [after_0]
    change _ ⊢ owns (c : Thread nD τ) (stage2_0 (cfg2.slots t 0)) fullShare
      (win2_0.fill (grid2.coords t) d0 (win2_0.cut (grid2.coords t) (at0 V c t)))
    rw [h0]; try iexact H0
  isplitl [H1]
  · iexists d1
    rw [after_1]
    change _ ⊢ owns (c : Thread nD τ) (stage2_1 (cfg2.slots t 1)) fullShare
      (win2_1.fill (grid2.coords t) d1 (win2_1.cut (grid2.coords t) (at1 V c t)))
    rw [h1]; try iexact H1
  isplitl [H2]
  · iexists d2
    rw [after_2]
    change _ ⊢ owns (c : Thread nD τ) (stage2_2 (cfg2.slots t 2)) fullShare
      (win2_2.fill (grid2.coords t) d2 (win2_2.cut (grid2.coords t) (at2 V c t)))
    rw [h2]; try iexact H2
  · iexists k2_pay1 (win2_0.fill (grid2.coords t) d0 (blk0 V c t)) (win2_1.fill (grid2.coords t) d1 (blk1 V c t)) (win2_2.fill (grid2.coords t) d2 (blk2 V c t))
    rw [after_3]
    change _ ⊢ owns (c : Thread nD τ) (stage2_3 (cfg2.slots t 3)) fullShare
      (win2_3.fill (grid2.coords t) (k2_pay1 (win2_0.fill (grid2.coords t) d0 (blk0 V c t)) (win2_1.fill (grid2.coords t) d1 (blk1 V c t)) (win2_2.fill (grid2.coords t) d2 (blk2 V c t)))
        (win2_3.cut (α := Elt F .f32) (grid2.coords t) (k2_pay1 (at0 V c t) (at1 V c t) (at2 V c t))))
    unfold at0 at1 at2
    rw [win2_3.fill_congr_cut (grid2.coords t) (cut_mean (grid2.coords t) d0 _ d1 _ d2 _ (blk0 V c t) (blk1 V c t) (blk2 V c t))]
    try iexact H3

/-- The same at every point, in the form the loop that drives the body takes it. -/
theorem obligation (c : Dev nD) : BodyObligationLoose (dat (F := F) V c) (defs₀ (F := F)) Variants.none () Set.univ := fun t => by
  rw [bigSep_W2, bigSep_W2]
  exact sound_body V c t

/-! ## The array the region leaves -/

/-- The index maps over the grid, decided once: block t starts at row t · 4096 and column 0 in all four windows, and
    holds min(4096, N − t · 4096) rows. -/
theorem grid_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_3.xsize (grid2.coords t) (0 : Fin 2) = min 4096 (150000 - t.val * 4096)
    ∧ win2_3.xsize (grid2.coords t) (1 : Fin 2) = 64 :=
  (by decide +kernel : ∀ t : Fin grid2.N, _)

/-- What point t writes back is block t of the whole scaled sum. -/
theorem flushed_eq (c : Dev nD) (t : Fin cfg2.N) :
    (dat V c).flushed 3 t = ((cfg2.win 3).blk t).view.read (Elt F)
      (LayerSpec.mean3 (Named.named κ "inv_3" 0x3EAAAAAB#32 : F .f32) (V c main_arg0) (V c main_v41) (V c main_v52)) := by
  funext j
  show (cfg2.win 3).cut (cfg2.grid.coords t) ((dat V c).after 3 t) j = _
  rw [after_3]
  show k2_pay1 (at0 V c t) (at1 V c t) (at2 V c t) (win2_3.xinj (grid2.coords t) j)
    = LayerSpec.mean3 (Named.named κ "inv_3" 0x3EAAAAAB#32 : F .f32) (V c main_arg0) (V c main_v41) (V c main_v52) ((win2_3.blk t).view.emb j)
  rw [mean_at]
  unfold LayerSpec.mean3
  obtain ⟨a0, a1, b0, b1, c0, c1, e0, e1, -, -⟩ := grid_facts t
  refine congrArg (FloatOps.mulf · (Named.named κ "inv_3" 0x3EAAAAAB#32 : F .f32)) ?_
  refine congrArg₂ FloatOps.addf (congrArg₂ FloatOps.addf ?_ ?_) ?_
  · unfold at0 Window.fill
    rw [dif_pos (moved0 (grid2.coords t) j)]
    unfold blk0
    rw [View.read_apply]
    refine congrArg (V c main_arg0) (funext fun a => Fin.ext ?_)
    match a with
    | ⟨0, _⟩ =>
      show win2_0.index t (0 : Fin 2) * 4096 + 1 * (j 0).val = win2_3.index t (0 : Fin 2) * 4096 + 1 * (j 0).val
      rw [a0, e0]
    | ⟨1, _⟩ =>
      show win2_0.index t (1 : Fin 2) * 64 + 1 * (j 1).val = win2_3.index t (1 : Fin 2) * 64 + 1 * (j 1).val
      rw [a1, e1]
  · unfold at1 Window.fill
    rw [dif_pos (moved1 (grid2.coords t) j)]
    unfold blk1
    rw [View.read_apply]
    refine congrArg (V c main_v41) (funext fun a => Fin.ext ?_)
    match a with
    | ⟨0, _⟩ =>
      show win2_1.index t (0 : Fin 2) * 4096 + 1 * (j 0).val = win2_3.index t (0 : Fin 2) * 4096 + 1 * (j 0).val
      rw [b0, e0]
    | ⟨1, _⟩ =>
      show win2_1.index t (1 : Fin 2) * 64 + 1 * (j 1).val = win2_3.index t (1 : Fin 2) * 64 + 1 * (j 1).val
      rw [b1, e1]
  · unfold at2 Window.fill
    rw [dif_pos (moved2 (grid2.coords t) j)]
    unfold blk2
    rw [View.read_apply]
    refine congrArg (V c main_v52) (funext fun a => Fin.ext ?_)
    match a with
    | ⟨0, _⟩ =>
      show win2_2.index t (0 : Fin 2) * 4096 + 1 * (j 0).val = win2_3.index t (0 : Fin 2) * 4096 + 1 * (j 0).val
      rw [c0, e0]
    | ⟨1, _⟩ =>
      show win2_2.index t (1 : Fin 2) * 64 + 1 * (j 1).val = win2_3.index t (1 : Fin 2) * 64 + 1 * (j 1).val
      rw [c1, e1]

/-- An entry of the array lies in block t exactly when its row is among the block's rows inside the array. -/
theorem mem_blk (t : Fin cfg2.N) (i : S150000x64.Idx) :
    i ∈ ((cfg2.win 3).blk t).view.set ↔ ∀ a, win2_3.index t a * win2_3.size a ≤ (i a).val
      ∧ (i a).val < win2_3.index t a * win2_3.size a + win2_3.xsize (grid2.coords t) a := by
  show i ∈ ((View.whole main_v53).slice (win2_3.rect t)).set ↔ _
  rw [View.set_slice_whole, Rect.mem_set_unit]

/-- Row v lies in block v / 4096: the blocks cover the array. -/
theorem cover (i : S150000x64.Idx) : ∃ t : Fin cfg2.N, (cfg2.win 3).flush t = true ∧ i ∈ ((cfg2.win 3).blk t).view.set := by
  have hr : (i 0).val < 150000 := (i 0).isLt
  have hc : (i 1).val < 64 := (i 1).isLt
  refine ⟨⟨(i 0).val / 4096, by rw [show cfg2.N = 37 from N_2]; omega⟩, flush2_3 _, ?_⟩
  rw [mem_blk]
  obtain ⟨-, -, -, -, -, -, e0, e1, x0, x1⟩ := grid_facts ⟨(i 0).val / 4096, by rw [show cfg2.N = 37 from N_2]; omega⟩
  intro a
  match a with
  | ⟨0, _⟩ =>
    show win2_3.index _ (0 : Fin 2) * 4096 ≤ (i 0).val ∧ (i 0).val < win2_3.index _ (0 : Fin 2) * 4096 + win2_3.xsize _ (0 : Fin 2)
    rw [e0, x0]; dsimp only; omega
  | ⟨1, _⟩ =>
    show win2_3.index _ (1 : Fin 2) * 64 ≤ (i 1).val ∧ (i 1).val < win2_3.index _ (1 : Fin 2) * 64 + win2_3.xsize _ (1 : Fin 2)
    rw [e1, x1]; omega

/-- After the region the output array holds the constant times the sum of the three embeddings at every entry. -/
theorem final (c : Dev nD) : (dat V c).arrAt 3 cfg2.N = LayerSpec.mean3 (Named.named κ "inv_3" 0x3EAAAAAB#32 : F .f32) (V c main_arg0) (V c main_v41) (V c main_v52) :=
  (dat V c).arrAt_eq_of_cover 3 _ (fun t _ => flushed_eq V c t) cover

/-- The three inputs are never written. -/
theorem final_in0 (c : Dev nD) : (dat V c).arrAt 0 cfg2.N = V c main_arg0 := ((dat V c).arrAt_in 0 rfl _).trans (A_eq V c 0)
theorem final_in1 (c : Dev nD) : (dat V c).arrAt 1 cfg2.N = V c main_v41 := ((dat V c).arrAt_in 1 rfl _).trans (A_eq V c 1)
theorem final_in2 (c : Dev nD) : (dat V c).arrAt 2 cfg2.N = V c main_v52 := ((dat V c).arrAt_in 2 rfl _).trans (A_eq V c 2)

end Cert.KernelIdeal.Mean

end
-- ==== Proof.KiRun.lean ====
/-
  The whole program as a run: host operations, the first scaling call, host operations, the second scaling call, host
  operations, the averaging call. Between two items the thread holds every unscoped buffer at known contents: the launch
  memory, then each stretch of host operations folded over it, then — after a call — the call's arrays at what its
  write-backs leave and every other buffer as it was. Every weakly fair execution ends, faults nowhere, and the final
  memory holds every unscoped buffer at the last of these contents; in particular the two argument arrays as launched,
  and the result array at the averaging call's output.
-/
import proofs.«129552_j68410239091164_1_alg».proof.Proof.Gen.KernelIdeal.Regions
import proofs.«129552_j68410239091164_1_alg».proof.Proof.KiScale0
import proofs.«129552_j68410239091164_1_alg».proof.Proof.KiScale1
import proofs.«129552_j68410239091164_1_alg».proof.Proof.KiMean
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Before the first call: the launch memory with the first five stretches of host operations folded over it. -/
abbrev W5 : Dev nD → Valuation τ sig (Elt F) := fun c => Gen.V5 m c
abbrev W5r : (c : Dev nD) → (b : Ref sig .tc) → Buf (Elt F) ((c : Thread nD τ).loc b) := fun c b => W5 m c b

/-- At region 0's exit: its arrays at what the pipeline leaves (the inputs as entered, the output's write-backs folded),
    every other buffer as entered. -/
def W6 (c : Dev nD) : Valuation τ sig (Elt F) :=
  Pipeline.withArrays spec0 c (W5 m c) fun w => (Scale0.dat (W5r m) c).arrAt w cfg0.N
theorem W6_arr (c : Dev nD) (w : Fin cfg0.W) :
    W6 m c (Proc.devRef .tc (Pipeline.arrRef spec0 w)) = (Scale0.dat (W5r m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
/-- The same read at the TensorCore's references. -/
abbrev W6r : (c : Dev nD) → (b : Ref sig .tc) → Buf (Elt F) ((c : Thread nD τ).loc b) := fun c b => W6 m c b
theorem hF0 (c : Dev nD) (w : Fin cfg0.W) : (Scale0.dat (W5r m) c).arrAt w cfg0.N = W6r m c (Pipeline.arrRef spec0 w) :=
  (W6_arr m c w).symm
theorem hrest0 (c : Dev nD) : ∀ b, b ∉ Finset.univ.image (Pipeline.arrRef spec0) → W6r m c b = W5r m c b :=
  fun b hb => W6_of_ne m c b fun w e => hb (Finset.mem_image.mpr ⟨w, Finset.mem_univ _, e⟩)

/-- Before the second call. -/
abbrev W7 : Dev nD → Valuation τ sig (Elt F) := fun c => StableHlo.after hostOps1 (W6 m c)
abbrev W7r : (c : Dev nD) → (b : Ref sig .tc) → Buf (Elt F) ((c : Thread nD τ).loc b) := fun c b => W7 m c b

/-- At region 1's exit: its arrays at what the pipeline leaves (the inputs as entered, the output's write-backs folded),
    every other buffer as entered. -/
def W8 (c : Dev nD) : Valuation τ sig (Elt F) :=
  Pipeline.withArrays spec1 c (W7 m c) fun w => (Scale1.dat (W7r m) c).arrAt w cfg1.N
theorem W8_arr (c : Dev nD) (w : Fin cfg1.W) :
    W8 m c (Proc.devRef .tc (Pipeline.arrRef spec1 w)) = (Scale1.dat (W7r m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- The same read at the TensorCore's references. -/
abbrev W8r : (c : Dev nD) → (b : Ref sig .tc) → Buf (Elt F) ((c : Thread nD τ).loc b) := fun c b => W8 m c b
theorem hF1 (c : Dev nD) (w : Fin cfg1.W) : (Scale1.dat (W7r m) c).arrAt w cfg1.N = W8r m c (Pipeline.arrRef spec1 w) :=
  (W8_arr m c w).symm
theorem hrest1 (c : Dev nD) : ∀ b, b ∉ Finset.univ.image (Pipeline.arrRef spec1) → W8r m c b = W7r m c b :=
  fun b hb => W8_of_ne m c b fun w e => hb (Finset.mem_image.mpr ⟨w, Finset.mem_univ _, e⟩)

/-- Before the averaging call. -/
abbrev W9 : Dev nD → Valuation τ sig (Elt F) := fun c => StableHlo.after hostOps2 (W8 m c)
abbrev W9r : (c : Dev nD) → (b : Ref sig .tc) → Buf (Elt F) ((c : Thread nD τ).loc b) := fun c b => W9 m c b

/-- At region 2's exit: its arrays at what the pipeline leaves (the inputs as entered, the output's write-backs folded),
    every other buffer as entered. -/
def W10 (c : Dev nD) : Valuation τ sig (Elt F) :=
  Pipeline.withArrays spec2 c (W9 m c) fun w => (Mean.dat (W9r m) c).arrAt w cfg2.N
theorem W10_arr (c : Dev nD) (w : Fin cfg2.W) :
    W10 m c (Proc.devRef .tc (Pipeline.arrRef spec2 w)) = (Mean.dat (W9r m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- The same read at the TensorCore's references. -/
abbrev W10r : (c : Dev nD) → (b : Ref sig .tc) → Buf (Elt F) ((c : Thread nD τ).loc b) := fun c b => W10 m c b
theorem hF2 (c : Dev nD) (w : Fin cfg2.W) : (Mean.dat (W9r m) c).arrAt w cfg2.N = W10r m c (Pipeline.arrRef spec2 w) :=
  (W10_arr m c w).symm
theorem hrest2 (c : Dev nD) : ∀ b, b ∉ Finset.univ.image (Pipeline.arrRef spec2) → W10r m c b = W9r m c b :=
  fun b hb => W10_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Scale0.dat (W5r m) c
  | ⟨1, _⟩ => fun c => Scale1.dat (W7r m) c
  | ⟨2, _⟩ => fun c => Mean.dat (W9r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W10 m c) ∗ ∃ r, prngReg c r)

/-! ## The calls as items -/

set_option backward.isDefEq.respectTransparency.types false in
/-- Region 0 over the thread state: entered with every unscoped buffer at the contents before it, left with the region's
    arrays at what its write-backs leave and every other buffer as entered. Its arrays are split out of the unscoped
    buffers and put back; the generator register goes into the invariant and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Scale0.obligation (W5r m) c
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (W5r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (W5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (W5r m c) (W6r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the region's
    arrays at what its write-backs leave and every other buffer as entered. Its arrays are split out of the unscoped
    buffers and put back; the generator register goes into the invariant and comes out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Scale1.obligation (W7r m) c
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (W7r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (W7r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (W7r m c) (W8r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the region's
    arrays at what its write-backs leave and every other buffer as entered. Its arrays are split out of the unscoped
    buffers and put back; the generator register goes into the invariant and comes out; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := Mean.obligation (W9r m) c
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (W9r m c)
  hentry c := by
    rw [Pipeline.ownSems0_none]
    have hsplit := Pipeline.arrays_of_unscopedBufs (p := 2) (pcfgs (F := F)) adm (pdats m) launch2.win launch2.arr_whole c
      ((pdats m 2 c).share_full fun _ => rfl) (W9r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (W9r m c) (W10r m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The ten items in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (W6 m)),
    .region (reg1 m),
    .host (hseg hostOps2 hostOps2_sub hostOps2_fresh (W8 m)),
    .region (reg2 m) ]

/-- The program is the run of its items. -/
theorem main_run (c : Dev nD) : main (F := F) c = Pipeline.Seg.run (segs m) := by
  rw [main_chain c, Pipeline.Seg.run_eq_chain]
  rfl

set_option backward.isDefEq.respectTransparency.types false in
/-- From any memory with zero counters, every weakly fair execution of the program terminates, nothing faulting, and the
    final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## The arguments end as launched -/

/-- No stretch of host operations writes the first argument, the two scaling calls do not touch it, and the averaging call
    only reads it. -/
theorem W10_arg0 (c : Dev nD) : W10 m c (Proc.devRef .tc main_arg0) = m ((c : Thread nD τ).loc main_arg0) :=
  calc W10 m c (Proc.devRef .tc main_arg0)
    _ = W9 m c (Proc.devRef .tc main_arg0) := (W10_arr m c 0).trans (Mean.final_in0 (W9r m) c)
    _ = W8 m c (Proc.devRef .tc main_arg0) := StableHlo.after_of_writes_sub hostOps2 _ hostOps2_writes (by decide)
    _ = W7 m c (Proc.devRef .tc main_arg0) := W8_of_ne m c main_arg0 (by decide)
    _ = W6 m c (Proc.devRef .tc main_arg0) := StableHlo.after_of_writes_sub hostOps1 _ hostOps1_writes (by decide)
    _ = W5 m c (Proc.devRef .tc main_arg0) := W6_of_ne m c main_arg0 (by decide)
    _ = m ((c : Thread nD τ).loc main_arg0) :=
      (Gen.V5_of m c main_arg0 (by decide)).trans <| (Gen.V4_of m c main_arg0 (by decide)).trans <|
        (Gen.V3_of m c main_arg0 (by decide)).trans <| (Gen.V2_of m c main_arg0 (by decide)).trans <|
        (Gen.V1_of m c main_arg0 (by decide)).trans rfl

/-- Nothing writes the second argument, and no call has it for an array. -/
theorem W10_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps2 _ hostOps2_writes (by decide)
    _ = W7 m c (Proc.devRef .tc main_arg1) := W8_of_ne m c main_arg1 (by decide)
    _ = W6 m c (Proc.devRef .tc main_arg1) := StableHlo.after_of_writes_sub hostOps1 _ hostOps1_writes (by decide)
    _ = W5 m c (Proc.devRef .tc main_arg1) := W6_of_ne m c main_arg1 (by decide)
    _ = m ((c : Thread nD τ).loc main_arg1) :=
      (Gen.V5_of m c main_arg1 (by decide)).trans <| (Gen.V4_of m c main_arg1 (by decide)).trans <|
        (Gen.V3_of m c main_arg1 (by decide)).trans <| (Gen.V2_of m c main_arg1 (by decide)).trans <|
        (Gen.V1_of m c main_arg1 (by decide)).trans rfl

/-- The frame: both argument arrays end holding what they held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W10_arg0 m c), (h c _ (mem_uc main_arg1 (by decide))).trans (W10_arg1 m c)⟩)
    (run m ρ)

end Cert.KernelIdeal.Whole

end
-- ==== Proof.KiValue.lean ====
/-
  The value the idealized kernel program leaves in its result array, as a function of its two argument arrays.

  Before the first scaling call the host has computed the edges' source and target vectors, the weight column and the
  gathered rows of x. The first call leaves  h[e, j] · n[e, 0]; the host sums those rows into the targets (one layer,
  L x) and gathers again; the second call and the second sum give L (L x); the averaging call leaves
  (x + L x + L (L x)) · k  with k the kernel's constant. Each step is read off the contents at the boundary before it.
-/
import proofs.«129552_j68410239091164_1_alg».proof.Proof.KiRun
import proofs.«129552_j68410239091164_1_alg».proof.Proof.LayerSpec

set_option maxRecDepth 16384

noncomputable section

namespace Cert.KernelIdeal.Net

open Cert.KernelIdeal Cert.KernelIdeal.Gen Idealize.ShloMosaic Idealize.ShloMosaic.TcCoe Idealize.SL.Sem

variable {F : FTy → Type} [FloatOps F]

/-- Row 0 of the edge list, the edges' source nodes, as a vector; -/
def rowVec (e : IVec S2x2000000 32) : IVec S2000000 32 :=
  shapeCast S2000000 (extractStridedSlice S1x2000000 ![0, 0] (e) slices_S2x2000000_S1x2000000_0_0) shapeCasts_S1x2000000_S2000000

/-- row 1, their target nodes. -/
def colVec (e : IVec S2x2000000 32) : IVec S2000000 32 :=
  shapeCast S2000000 (extractStridedSlice S1x2000000 ![1, 0] (e) slices_S2x2000000_S1x2000000_1_0) shapeCasts_S1x2000000_S2000000

/-- A vector of node numbers as a column of indices for a scatter-add: where each row of messages is added. -/
def colIdxOf (cv : IVec S2000000 32) : IVec S2000000x1 32 :=
  broadcastInDim S2000000x1 ![0] bcast_S2000000_S2000000x1_0 cv

/-- A vector of node numbers, a negative one counted from the end, as a column of indices for a gather. -/
def rowIdxOf (rv : IVec S2000000 32) : IVec S2000000x1 32 :=
  broadcastInDim S2000000x1 ![0] bcast_S2000000_S2000000x1_0 (select (cmpi .slt rv (broadcastInDim S2000000 ![] bcast_S_S2000000 (constantI S_ 32 0#32))) (addi rv (broadcastInDim S2000000 ![] bcast_S_S2000000 (constantI S_ 32 150000#32))) rv)

/-- The edges' weights as a column: with deg the number of edges into each node and s = 1/√deg where deg > 0 and 0
    elsewhere, edge e has weight s[source e] · s[target e]. -/
def weights (e : IVec S2x2000000 32) : FVec F S2000000x1 .f32 :=
  broadcastInDim S2000000x1 ![0] bcast_S2000000_S2000000x1_0 (mulf (Host.gather gather_S150000_S2000000x1_S2000000_n_0_n_n_0_1_1 (select (cmpf .ogt (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (constant (F := F) S_ .f32 0x00000000#32))) (Host.rsqrt (select (cmpf .ogt (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (constant (F := F) S_ .f32 0x00000000#32))) (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (id (constant (F := F) S_ .f32 0x3F800000#32))))) (broadcastInDim S150000 ![] bcast_S_S150000 (id (constant (F := F) S_ .f32 0x00000000#32)))) (broadcastInDim S2000000x1 ![0] bcast_S2000000_S2000000x1_0 (select (cmpi .slt (shapeCast _ (extractStridedSlice S1x2000000 ![0, 0] (e) slices_S2x2000000_S1x2000000_0_0) shapeCasts_S1x2000000_S2000000) (broadcastInDim S2000000 ![] bcast_S_S2000000 (constantI S_ 32 0#32))) (addi (shapeCast _ (extractStridedSlice S1x2000000 ![0, 0] (e) slices_S2x2000000_S1x2000000_0_0) shapeCasts_S1x2000000_S2000000) (broadcastInDim S2000000 ![] bcast_S_S2000000 (constantI S_ 32 150000#32))) (shapeCast _ (extractStridedSlice S1x2000000 ![0, 0] (e) slices_S2x2000000_S1x2000000_0_0) shapeCasts_S1x2000000_S2000000)))) (Host.gather gather_S150000_S2000000x1_S2000000_n_0_n_n_0_1_1 (select (cmpf .ogt (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (constant (F := F) S_ .f32 0x00000000#32))) (Host.rsqrt (select (cmpf .ogt (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (constant (F := F) S_ .f32 0x00000000#32))) (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (id (constant (F := F) S_ .f32 0x3F800000#32))))) (broadcastInDim S150000 ![] bcast_S_S150000 (id (constant (F := F) S_ .f32 0x00000000#32)))) (broadcastInDim S2000000x1 ![0] bcast_S2000000_S2000000x1_0 (select (cmpi .slt (shapeCast _ (extractStridedSlice S1x2000000 ![1, 0] (e) slices_S2x2000000_S1x2000000_1_0) shapeCasts_S1x2000000_S2000000) (broadcastInDim S2000000 ![] bcast_S_S2000000 (constantI S_ 32 0#32))) (addi (shapeCast _ (extractStridedSlice S1x2000000 ![1, 0] (e) slices_S2x2000000_S1x2000000_1_0) shapeCasts_S1x2000000_S2000000) (broadcastInDim S2000000 ![] bcast_S_S2000000 (constantI S_ 32 150000#32))) (shapeCast _ (extractStridedSlice S1x2000000 ![1, 0] (e) slices_S2x2000000_S1x2000000_1_0) shapeCasts_S1x2000000_S2000000)))))

/-- One row of features per edge: the row of the node the edge's index names. -/
def gatherRowsOf (x : FVec F S150000x64 .f32) (rv : IVec S2000000 32) : FVec F S2000000x64 .f32 :=
  Host.gather gather_S150000x64_S2000000x1_S2000000x64_1_0_n_n_0_1_164 x (rowIdxOf rv)

/-- The rows of messages summed into the nodes their indices name, from zero. -/
def scatterColsOf (u : FVec F S2000000x64 .f32) (cv : IVec S2000000 32) : FVec F S150000x64 .f32 :=
  Host.scatterAdd scatter_S150000x64_S2000000x1_S2000000x64_1_0_0_1 (broadcastInDim S150000x64 ![] bcast_S_S150000x64 (constant (F := F) S_ .f32 0x00000000#32)) (colIdxOf cv) u

/-- One propagation layer: gather the sources' rows, weight each edge's row, sum into the targets. -/
def layer (x : FVec F S150000x64 .f32) (e : IVec S2x2000000 32) : FVec F S150000x64 .f32 :=
  scatterColsOf (LayerSpec.scaleRows (gatherRowsOf x (rowVec e)) (weights (F := F) e)) (colVec e)

end Cert.KernelIdeal.Net

namespace Cert.KernelIdeal.Whole

open Cert.KernelIdeal Cert.KernelIdeal.Gen
open Idealize.ShloMosaic Idealize.ShloMosaic.TcCoe Idealize.ShloMosaic.StableHlo
open Idealize.SL Idealize.SL.Sem

variable {F : FTy → Type} [FloatOps F] [Named F]
variable (m : (ℓ : Loc nD τ sig) → Buf (Elt F) ℓ)

/-! ## Before the first call -/

/-- The first five stretches of host operations over the launch memory, spelt out. -/
theorem W5_eq (c : Dev nD) : W5 m c = StableHlo.after hostOps0_4 (StableHlo.after hostOps0_3 (StableHlo.after hostOps0_2
    (StableHlo.after hostOps0_1 (StableHlo.after hostOps0 (fun b => m (c, b)))))) := rfl

theorem W5_v1 (c : Dev nD) : W5 m c (Proc.devRef .tc main_v1) = Net.rowVec (m ((c : Thread nD τ).loc main_arg1)) := by
  rw [W5_eq]; after_results_simp <;> rfl
theorem W5_v3 (c : Dev nD) : W5 m c (Proc.devRef .tc main_v3) = Net.colVec (m ((c : Thread nD τ).loc main_arg1)) := by
  rw [W5_eq]; after_results_simp <;> rfl
theorem W5_v37 (c : Dev nD) : W5 m c (Proc.devRef .tc main_v37) = Net.gatherRowsOf (m ((c : Thread nD τ).loc main_arg0)) (Net.rowVec (m ((c : Thread nD τ).loc main_arg1))) := by
  rw [W5_eq]; after_results_simp <;> rfl
set_option maxHeartbeats 4000000 in
theorem W5_v30 (c : Dev nD) : W5 m c (Proc.devRef .tc main_v30) = Net.weights (F := F) (m ((c : Thread nD τ).loc main_arg1)) := by
  rw [W5_eq]; after_results_simp <;> first | rfl | (unfold Net.weights; rfl)

/-! ## After the first call -/

theorem W6_v1 (c : Dev nD) : W6 m c (Proc.devRef .tc main_v1) = W5 m c (Proc.devRef .tc main_v1) := W6_of_ne m c main_v1 (by decide)
theorem W6_v3 (c : Dev nD) : W6 m c (Proc.devRef .tc main_v3) = W5 m c (Proc.devRef .tc main_v3) := W6_of_ne m c main_v3 (by decide)
theorem W6_v30 (c : Dev nD) : W6 m c (Proc.devRef .tc main_v30) = W5 m c (Proc.devRef .tc main_v30) :=
  (W6_arr m c 1).trans (Scale0.final_in1 (W5r m) c)
/-- The first call's output: every gathered row times its edge's weight. -/
theorem W6_v38 (c : Dev nD) : W6 m c (Proc.devRef .tc main_v38)
    = LayerSpec.scaleRows (W5 m c (Proc.devRef .tc main_v37)) (W5 m c (Proc.devRef .tc main_v30)) :=
  (W6_arr m c 2).trans (Scale0.final (W5r m) c)

/-! ## Before the second call -/

theorem W7_v3 (c : Dev nD) : W7 m c (Proc.devRef .tc main_v3) = W6 m c (Proc.devRef .tc main_v3) :=
  StableHlo.after_of_writes_sub hostOps1 _ hostOps1_writes (by decide)
theorem W7_v30 (c : Dev nD) : W7 m c (Proc.devRef .tc main_v30) = W6 m c (Proc.devRef .tc main_v30) :=
  StableHlo.after_of_writes_sub hostOps1 _ hostOps1_writes (by decide)
/-- The first layer: the scaled rows summed into their targets. -/
theorem W7_v41 (c : Dev nD) : W7 m c (Proc.devRef .tc main_v41)
    = Net.scatterColsOf (W6 m c (Proc.devRef .tc main_v38)) (W6 m c (Proc.devRef .tc main_v3)) := by
  show StableHlo.after hostOps1 (W6 m c) (Proc.devRef .tc main_v41) = _
  after_results <;> rfl
/-- Its rows gathered again for the second layer. -/
theorem W7_v48 (c : Dev nD) : W7 m c (Proc.devRef .tc main_v48)
    = Net.gatherRowsOf (Net.scatterColsOf (W6 m c (Proc.devRef .tc main_v38)) (W6 m c (Proc.devRef .tc main_v3))) (W6 m c (Proc.devRef .tc main_v1)) := by
  show StableHlo.after hostOps1 (W6 m c) (Proc.devRef .tc main_v48) = _
  after_results <;> rfl

/-! ## After the second call -/

theorem W8_v3 (c : Dev nD) : W8 m c (Proc.devRef .tc main_v3) = W7 m c (Proc.devRef .tc main_v3) := W8_of_ne m c main_v3 (by decide)
theorem W8_v41 (c : Dev nD) : W8 m c (Proc.devRef .tc main_v41) = W7 m c (Proc.devRef .tc main_v41) := W8_of_ne m c main_v41 (by decide)
theorem W8_v49 (c : Dev nD) : W8 m c (Proc.devRef .tc main_v49)
    = LayerSpec.scaleRows (W7 m c (Proc.devRef .tc main_v48)) (W7 m c (Proc.devRef .tc main_v30)) :=
  (W8_arr m c 2).trans (Scale1.final (W7r m) c)

/-! ## Before the averaging call -/

theorem W9_v41 (c : Dev nD) : W9 m c (Proc.devRef .tc main_v41) = W8 m c (Proc.devRef .tc main_v41) :=
  StableHlo.after_of_writes_sub hostOps2 _ hostOps2_writes (by decide)
theorem W9_v52 (c : Dev nD) : W9 m c (Proc.devRef .tc main_v52)
    = Net.scatterColsOf (W8 m c (Proc.devRef .tc main_v49)) (W8 m c (Proc.devRef .tc main_v3)) := by
  show StableHlo.after hostOps2 (W8 m c) (Proc.devRef .tc main_v52) = _
  after_results <;> rfl
theorem W9_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps2 _ hostOps2_writes (by decide)
    _ = W7 m c (Proc.devRef .tc main_arg0) := W8_of_ne m c main_arg0 (by decide)
    _ = W6 m c (Proc.devRef .tc main_arg0) := StableHlo.after_of_writes_sub hostOps1 _ hostOps1_writes (by decide)
    _ = W5 m c (Proc.devRef .tc main_arg0) := W6_of_ne m c main_arg0 (by decide)
    _ = m ((c : Thread nD τ).loc main_arg0) :=
      (Gen.V5_of m c main_arg0 (by decide)).trans <| (Gen.V4_of m c main_arg0 (by decide)).trans <|
        (Gen.V3_of m c main_arg0 (by decide)).trans <| (Gen.V2_of m c main_arg0 (by decide)).trans <|
        (Gen.V1_of m c main_arg0 (by decide)).trans rfl

/-! ## The two layers and the result -/

/-- The first layer's embedding, L x. -/
theorem layer1 (c : Dev nD) : W9 m c (Proc.devRef .tc main_v41) = Net.layer (m ((c : Thread nD τ).loc main_arg0)) (m ((c : Thread nD τ).loc main_arg1)) := by
  rw [W9_v41, W8_v41, W7_v41, W6_v38, W6_v3, W5_v37, W5_v30, W5_v3]
  rfl

/-- The second layer's embedding, L (L x). -/
theorem layer2 (c : Dev nD) : W9 m c (Proc.devRef .tc main_v52) = Net.layer (Net.layer (m ((c : Thread nD τ).loc main_arg0)) (m ((c : Thread nD τ).loc main_arg1))) (m ((c : Thread nD τ).loc main_arg1)) := by
  rw [W9_v52, W8_v49, W8_v3, W7_v48, W7_v30, W7_v3, W6_v38, W6_v3, W6_v1, W6_v30, W5_v37, W5_v30, W5_v3, W5_v1]
  rfl

/-- The result array after the run: (x + L x + L (L x)) times the kernel's constant, at every entry. -/
theorem result (c : Dev nD) : W10 m c (Proc.devRef .tc main_v53)
    = LayerSpec.mean3 (Named.named κ "inv_3" 0x3EAAAAAB#32 : F .f32) (m ((c : Thread nD τ).loc main_arg0)) (Net.layer (m ((c : Thread nD τ).loc main_arg0)) (m ((c : Thread nD τ).loc main_arg1))) (Net.layer (Net.layer (m ((c : Thread nD τ).loc main_arg0)) (m ((c : Thread nD τ).loc main_arg1))) (m ((c : Thread nD τ).loc main_arg1))) := by
  refine ((W10_arr m c 3).trans (Mean.final (W9r m) c)).trans ?_
  show LayerSpec.mean3 (Named.named κ "inv_3" 0x3EAAAAAB#32 : F .f32) (W9 m c (Proc.devRef .tc main_arg0)) (W9 m c (Proc.devRef .tc main_v41)) (W9 m c (Proc.devRef .tc main_v52)) = _
  rw [W9_arg0, layer1, layer2]

end Cert.KernelIdeal.Whole

end
-- ==== Proof.LibRowBlocks.lean ====
/-
  Blocks of rows with a short middle axis, read at an entry.

  An [a, b, n] array is a stack of a groups of b rows of length n. The steps by which a program takes one row of every
  group out, works on the [a, n] matrix of those rows, and puts the results back are each read here at an entry given
  by its coordinates, for any extents:

    the slice of the middle axis at s       [a, b, n] → [a, 1, n]   entry (r, 0, j) is entry (r, s, j);
    dropping the unit middle axis           [a, 1, n] → [a, n]      entry (r, j) is entry (r, 0, j);
    putting a unit middle axis back         [a, n] → [a, 1, n]      entry (r, 0, j) is entry (r, j), whether the program
                                                                    spells it as a shape cast or as a broadcast;
    a [1, 1, n] block flattened to a vector [1, 1, n] → [n]         entry j is entry (0, 0, j);
    three [a, 1, n] pieces joined on the middle axis → [a, 3, n]    entry (r, s, j) is entry (r, 0, j) of piece s;
    one group of rows copied to every group [1, b, n] → [a, b, n]   entry (r, s, j) is entry (0, s, j);
    a column spread across the columns      [a, 1] → [a, b]         entry (i, j) is entry (i, 0).
-/
import Idealize.ShloMosaic.Lib.ValueIdx
import Idealize.ShloMosaic.Lib.Pipeline.Value

noncomputable section

namespace Idealize.ShloMosaic.RowBlocks

open Idealize.ShloMosaic Idealize.ShloMosaic.ValueIdx

variable {α : Type}

/-- The slice of the middle axis at s: entry (r, 0, j) of the slice is entry (r, s, j) of the array. -/
theorem midSlice_apply {a b n : ℕ} (x : (⟨3, ![a, b, n]⟩ : Shape).Idx → α) (o : ℕ) (s : Fin b) (hs : s.val = o)
    (h : (⟨3, ![a, b, n]⟩ : Shape).Slices ![0, o, 0] ⟨3, ![a, 1, n]⟩) (r : Fin a) (j : Fin n) :
    extractStridedSlice ⟨3, ![a, 1, n]⟩ ![0, o, 0] x h (ix3 r (0 : Fin 1) j) = x (ix3 r s j) := by
  subst hs
  refine extractStridedSlice_apply _ x h (ix3 r (0 : Fin 1) j) (ix3 r s j) fun ax => ?_
  match ax with
  | ⟨0, _⟩ => show r.val = 0 + r.val; omega
  | ⟨1, _⟩ => show s.val = s.val + 0; omega
  | ⟨2, _⟩ => show j.val = 0 + j.val; omega

/-- Dropping the unit middle axis keeps the row-major position: (r, j) reads (r, 0, j). -/
theorem dropMid_apply {a n : ℕ} (y : (⟨3, ![a, 1, n]⟩ : Shape).Idx → α)
    (h : (⟨3, ![a, 1, n]⟩ : Shape).ShapeCasts ⟨2, ![a, n]⟩) (r : Fin a) (j : Fin n) :
    shapeCast ⟨2, ![a, n]⟩ y h (ix2 r j) = y (ix3 r (0 : Fin 1) j) := by
  refine shapeCast_apply y h (ix2 r j) (ix3 r (0 : Fin 1) j) ?_
  rw [Shape.rowMajor_val_three, Shape.rowMajor_val_two]
  show (r.val * 1 + 0) * n + j.val = r.val * n + j.val
  rw [Nat.mul_one, Nat.add_zero]

/-- Putting the unit middle axis back by a shape cast: (r, 0, j) reads (r, j). -/
theorem addMid_apply {a n : ℕ} (y : (⟨2, ![a, n]⟩ : Shape).Idx → α)
    (h : (⟨2, ![a, n]⟩ : Shape).ShapeCasts ⟨3, ![a, 1, n]⟩) (r : Fin a) (j : Fin n) :
    shapeCast ⟨3, ![a, 1, n]⟩ y h (ix3 r (0 : Fin 1) j) = y (ix2 r j) := by
  refine shapeCast_apply y h (ix3 r (0 : Fin 1) j) (ix2 r j) ?_
  rw [Shape.rowMajor_val_three, Shape.rowMajor_val_two]
  show r.val * n + j.val = (r.val * 1 + 0) * n + j.val
  rw [Nat.mul_one, Nat.add_zero]

/-- Putting the unit middle axis back by a broadcast along axes 0 and 2: (r, 0, j) reads (r, j). -/
theorem insertMid_apply {a n : ℕ} (y : (⟨2, ![a, n]⟩ : Shape).Idx → α)
    (h : (⟨2, ![a, n]⟩ : Shape).BroadcastsInDim ⟨3, ![a, 1, n]⟩ ![0, 2]) (r : Fin a) (j : Fin n) :
    broadcastInDim ⟨3, ![a, 1, n]⟩ ![0, 2] h y (ix3 r (0 : Fin 1) j) = y (ix2 r j) := by
  refine broadcastInDim_apply _ h y (ix3 r (0 : Fin 1) j) (ix2 r j) fun x => ?_
  match x with
  | ⟨0, _⟩ =>
    show r.val = if a = 1 then 0 else r.val
    split_ifs with h1
    · have := r.isLt; omega
    · rfl
  | ⟨1, _⟩ =>
    show j.val = if n = 1 then 0 else j.val
    split_ifs with h1
    · have := j.isLt; omega
    · rfl

/-- A [1, 1, n] block flattened to a vector: entry j reads (0, 0, j). -/
theorem flat11_apply {n : ℕ} (y : (⟨3, ![1, 1, n]⟩ : Shape).Idx → α)
    (h : (⟨3, ![1, 1, n]⟩ : Shape).ShapeCasts ⟨1, ![n]⟩) (j : Fin n) :
    shapeCast ⟨1, ![n]⟩ y h (ix1 j) = y (ix3 (0 : Fin 1) (0 : Fin 1) j) := by
  refine shapeCast_apply y h (ix1 j) (ix3 (0 : Fin 1) (0 : Fin 1) j) ?_
  rw [Shape.rowMajor_val_three, Shape.rowMajor_val_one]
  show (0 * 1 + 0) * n + j.val = j.val
  simp

/-- Three [a, 1, n] pieces joined on the middle axis: entry (r, s, j) is entry (r, 0, j) of piece s. -/
theorem stack3_apply {a n : ℕ} (u0 u1 u2 : (⟨3, ![a, 1, n]⟩ : Shape).Idx → α)
    (h : Shape.Concatenates [(⟨3, ![a, 1, n]⟩ : Shape), ⟨3, ![a, 1, n]⟩, ⟨3, ![a, 1, n]⟩] ⟨3, ![a, 3, n]⟩ 1)
    (r : Fin a) (s : Fin 3) (j : Fin n) :
    concatenate ⟨3, ![a, 3, n]⟩ 1 [⟨⟨3, ![a, 1, n]⟩, u0⟩, ⟨⟨3, ![a, 1, n]⟩, u1⟩, ⟨⟨3, ![a, 1, n]⟩, u2⟩] h (ix3 r s j)
      = (![u0, u1, u2] s) (ix3 r (0 : Fin 1) j) := by
  have hi : ∀ b : Fin 3, b.cast (rfl : (3 : ℕ) = 3) ≠ (1 : Fin 3) →
      ((ix3 r (0 : Fin 1) j : (⟨3, ![a, 1, n]⟩ : Shape).Idx) b).val = ((ix3 r s j : (⟨3, ![a, 3, n]⟩ : Shape).Idx) (b.cast rfl)).val := by
    intro b hb
    match b with
    | ⟨0, _⟩ => rfl
    | ⟨1, _⟩ => exact absurd rfl hb
    | ⟨2, _⟩ => rfl
  match s with
  | ⟨0, _⟩ =>
    exact concatenate_apply_piece (t := ⟨3, ![a, 3, n]⟩) (1 : Fin 3)
      [⟨⟨3, ![a, 1, n]⟩, u0⟩, ⟨⟨3, ![a, 1, n]⟩, u1⟩, ⟨⟨3, ![a, 1, n]⟩, u2⟩] h _ 0 (by simp) ⟨3, ![a, 1, n]⟩ u0 rfl rfl 0 rfl
      (ix3 r (0 : Fin 1) j) hi rfl
  | ⟨1, _⟩ =>
    exact concatenate_apply_piece (t := ⟨3, ![a, 3, n]⟩) (1 : Fin 3)
      [⟨⟨3, ![a, 1, n]⟩, u0⟩, ⟨⟨3, ![a, 1, n]⟩, u1⟩, ⟨⟨3, ![a, 1, n]⟩, u2⟩] h _ 1 (by simp) ⟨3, ![a, 1, n]⟩ u1 rfl rfl 1 rfl
      (ix3 r (0 : Fin 1) j) hi rfl
  | ⟨2, _⟩ =>
    exact concatenate_apply_piece (t := ⟨3, ![a, 3, n]⟩) (1 : Fin 3)
      [⟨⟨3, ![a, 1, n]⟩, u0⟩, ⟨⟨3, ![a, 1, n]⟩, u1⟩, ⟨⟨3, ![a, 1, n]⟩, u2⟩] h _ 2 (by simp) ⟨3, ![a, 1, n]⟩ u2 rfl rfl 2 rfl
      (ix3 r (0 : Fin 1) j) hi rfl

/-- One group of b rows copied to every group: entry (r, s, j) reads (0, s, j). -/
theorem spreadGroup_apply {a b n : ℕ} (p : (⟨3, ![1, b, n]⟩ : Shape).Idx → α)
    (h : (⟨3, ![1, b, n]⟩ : Shape).BroadcastsInDim ⟨3, ![a, b, n]⟩ ![0, 1, 2]) (r : Fin a) (s : Fin b) (j : Fin n) :
    broadcastInDim ⟨3, ![a, b, n]⟩ ![0, 1, 2] h p (ix3 r s j) = p (ix3 (0 : Fin 1) s j) := by
  refine broadcastInDim_apply _ h p (ix3 r s j) (ix3 (0 : Fin 1) s j) fun x => ?_
  match x with
  | ⟨0, _⟩ =>
    show 0 = if (1 : ℕ) = 1 then 0 else r.val
    rw [if_pos rfl]
  | ⟨1, _⟩ =>
    show s.val = if b = 1 then 0 else s.val
    split_ifs with h1
    · have := s.isLt; omega
    · rfl
  | ⟨2, _⟩ =>
    show j.val = if n = 1 then 0 else j.val
    split_ifs with h1
    · have := j.isLt; omega
    · rfl

/-- A one-column matrix spread across b columns by a broadcast along both axes: entry (i, j) reads (i, 0). -/
theorem spreadCol_apply {a b : ℕ} (w : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h w (ix2 i j) = w (ix2 i (0 : Fin 1)) := by
  refine broadcastInDim_apply _ h w (ix2 i j) (ix2 i (0 : Fin 1)) fun x => ?_
  match x with
  | ⟨0, _⟩ =>
    show i.val = if a = 1 then 0 else i.val
    split_ifs with h1
    · have := i.isLt; omega
    · rfl
  | ⟨1, _⟩ =>
    show 0 = if (1 : ℕ) = 1 then 0 else j.val
    rw [if_pos rfl]

end Idealize.ShloMosaic.RowBlocks

end
-- ==== Proof.RefNet.lean ====
/-
  The reference program's result as a function of its two argument arrays, through the layer's named pieces.

  The reference is a straight line of host operations. Its result is  (x + L x + L (L x)) / 3  where one layer is
  L h = scatter-add over the edges' targets of ( h[source] · weight ), the weight multiplied in on the host after being
  spread across the 64 columns. Here the shared pieces of that term are named (the index columns, the weight column, the
  row gather, the column scatter-add) and the result is restated over them; then the host's "spread the weight column and
  multiply" is the entrywise  h[e, j] · n[e, 0]  (LayerSpec.scaleRows), and on the extended reals the division by 3 is the
  product with 1/3 (LayerSpec.mean3 at that constant).
-/
import proofs.«129552_j68410239091164_1_alg».proof.Proof.RefRunP
import proofs.«129552_j68410239091164_1_alg».proof.Proof.LayerSpec
import proofs.«129552_j68410239091164_1_alg».proof.Proof.LibRowBlocks
import Idealize.ShloMosaic.PureOps.Ideal
import Idealize.ShloMosaic.PureOps.Ideal.Laws
import Idealize.ShloMosaic.Lib.ValueIdx

noncomputable section

namespace Cert.ReferenceIdeal.Net

open Cert.ReferenceIdeal Cert.ReferenceIdeal.Gen Idealize.ShloMosaic Idealize.ShloMosaic.TcCoe Idealize.SL.Sem Idealize.ShloMosaic.ValueIdx

variable {F : FTy → Type} [FloatOps F]

/-- Row 0 of the edge list, the edges' source nodes, as a vector; -/
def rowVec (e : IVec S2x2000000 32) : IVec S2000000 32 :=
  shapeCast S2000000 (extractStridedSlice S1x2000000 ![0, 0] (e) slices_S2x2000000_S1x2000000_0_0) shapeCasts_S1x2000000_S2000000

/-- row 1, their target nodes. -/
def colVec (e : IVec S2x2000000 32) : IVec S2000000 32 :=
  shapeCast S2000000 (extractStridedSlice S1x2000000 ![1, 0] (e) slices_S2x2000000_S1x2000000_1_0) shapeCasts_S1x2000000_S2000000

/-- A vector of node numbers as a column of indices for a scatter-add: where each row of messages is added. -/
def colIdxOf (cv : IVec S2000000 32) : IVec S2000000x1 32 :=
  broadcastInDim S2000000x1 ![0] bcast_S2000000_S2000000x1_0 cv

/-- A vector of node numbers, a negative one counted from the end, as a column of indices for a gather. -/
def rowIdxOf (rv : IVec S2000000 32) : IVec S2000000x1 32 :=
  broadcastInDim S2000000x1 ![0] bcast_S2000000_S2000000x1_0 (select (cmpi .slt rv (broadcastInDim S2000000 ![] bcast_S_S2000000 (constantI S_ 32 0#32))) (addi rv (broadcastInDim S2000000 ![] bcast_S_S2000000 (constantI S_ 32 150000#32))) rv)

/-- The edges' weights as a column: with deg the number of edges into each node and s = 1/√deg where deg > 0 and 0
    elsewhere, edge e has weight s[source e] · s[target e]. -/
def weights (e : IVec S2x2000000 32) : FVec F S2000000x1 .f32 :=
  broadcastInDim S2000000x1 ![0] bcast_S2000000_S2000000x1_0 (mulf (Host.gather gather_S150000_S2000000x1_S2000000_n_0_n_n_0_1_1 (select (cmpf .ogt (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (constant (F := F) S_ .f32 0x00000000#32))) (Host.rsqrt (select (cmpf .ogt (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (constant (F := F) S_ .f32 0x00000000#32))) (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (id (constant (F := F) S_ .f32 0x3F800000#32))))) (broadcastInDim S150000 ![] bcast_S_S150000 (id (constant (F := F) S_ .f32 0x00000000#32)))) (broadcastInDim S2000000x1 ![0] bcast_S2000000_S2000000x1_0 (select (cmpi .slt (shapeCast _ (extractStridedSlice S1x2000000 ![0, 0] (e) slices_S2x2000000_S1x2000000_0_0) shapeCasts_S1x2000000_S2000000) (broadcastInDim S2000000 ![] bcast_S_S2000000 (constantI S_ 32 0#32))) (addi (shapeCast _ (extractStridedSlice S1x2000000 ![0, 0] (e) slices_S2x2000000_S1x2000000_0_0) shapeCasts_S1x2000000_S2000000) (broadcastInDim S2000000 ![] bcast_S_S2000000 (constantI S_ 32 150000#32))) (shapeCast _ (extractStridedSlice S1x2000000 ![0, 0] (e) slices_S2x2000000_S1x2000000_0_0) shapeCasts_S1x2000000_S2000000)))) (Host.gather gather_S150000_S2000000x1_S2000000_n_0_n_n_0_1_1 (select (cmpf .ogt (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (constant (F := F) S_ .f32 0x00000000#32))) (Host.rsqrt (select (cmpf .ogt (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (constant (F := F) S_ .f32 0x00000000#32))) (Host.scatterAdd scatter_S150000_S2000000x1_S2000000_n_0_0_1 (broadcastInDim S150000 ![] bcast_S_S150000 (constant (F := F) S_ .f32 0x00000000#32)) (broadcastInDim S2000000x1 ![0] bcast_S2000000_S2000000x1_0 (shapeCast _ (extractStridedSlice S1x2000000 ![1, 0] (e) slices_S2x2000000_S1x2000000_1_0) shapeCasts_S1x2000000_S2000000)) (broadcastInDim S2000000 ![] bcast_S_S2000000 (constant (F := F) S_ .f32 0x3F800000#32))) (broadcastInDim S150000 ![] bcast_S_S150000 (id (constant (F := F) S_ .f32 0x3F800000#32))))) (broadcastInDim S150000 ![] bcast_S_S150000 (id (constant (F := F) S_ .f32 0x00000000#32)))) (broadcastInDim S2000000x1 ![0] bcast_S2000000_S2000000x1_0 (select (cmpi .slt (shapeCast _ (extractStridedSlice S1x2000000 ![1, 0] (e) slices_S2x2000000_S1x2000000_1_0) shapeCasts_S1x2000000_S2000000) (broadcastInDim S2000000 ![] bcast_S_S2000000 (constantI S_ 32 0#32))) (addi (shapeCast _ (extractStridedSlice S1x2000000 ![1, 0] (e) slices_S2x2000000_S1x2000000_1_0) shapeCasts_S1x2000000_S2000000) (broadcastInDim S2000000 ![] bcast_S_S2000000 (constantI S_ 32 150000#32))) (shapeCast _ (extractStridedSlice S1x2000000 ![1, 0] (e) slices_S2x2000000_S1x2000000_1_0) shapeCasts_S1x2000000_S2000000)))))

/-- One row of features per edge: the row of the node the edge's index names. -/
def gatherRowsOf (x : FVec F S150000x64 .f32) (rv : IVec S2000000 32) : FVec F S2000000x64 .f32 :=
  Host.gather gather_S150000x64_S2000000x1_S2000000x64_1_0_n_n_0_1_164 x (rowIdxOf rv)

/-- The rows of messages summed into the nodes their indices name, from zero. -/
def scatterColsOf (u : FVec F S2000000x64 .f32) (cv : IVec S2000000 32) : FVec F S150000x64 .f32 :=
  Host.scatterAdd scatter_S150000x64_S2000000x1_S2000000x64_1_0_0_1 (broadcastInDim S150000x64 ![] bcast_S_S150000x64 (constant (F := F) S_ .f32 0x00000000#32)) (colIdxOf cv) u

/-- One propagation layer: gather the sources' rows, weight each edge's row, sum into the targets. -/
def layer (x : FVec F S150000x64 .f32) (e : IVec S2x2000000 32) : FVec F S150000x64 .f32 :=
  scatterColsOf (LayerSpec.scaleRows (gatherRowsOf x (rowVec e)) (weights (F := F) e)) (colVec e)
/-- The same layer as the reference spells it: the weight column spread across the 64 columns, then one multiplication. -/
def layerHost (x : FVec F S150000x64 .f32) (e : IVec S2x2000000 32) : FVec F S150000x64 .f32 :=
  scatterColsOf (mulf (gatherRowsOf x (rowVec e)) (broadcastInDim S2000000x64 ![0, 1] bcast_S2000000x1_S2000000x64_0_1 (weights (F := F) e))) (colVec e)

/-- The reference's result term is  (x + L x + L (L x)) / 3  over the named pieces (the two terms are one, after unfolding the names). -/
theorem res_eq (m : (ℓ : Loc nD τ sig) → Buf (Elt F) ℓ) (c : Dev nD) :
    RunP.res_main_v58 m c
      = Host.divf (addf (addf (m ((c.tc : Thread nD τ).loc main_arg0)) (layerHost (m ((c.tc : Thread nD τ).loc main_arg0)) (m ((c.tc : Thread nD τ).loc main_arg1))))
          (layerHost (layerHost (m ((c.tc : Thread nD τ).loc main_arg0)) (m ((c.tc : Thread nD τ).loc main_arg1))) (m ((c.tc : Thread nD τ).loc main_arg1))))
        (broadcastInDim S150000x64 ![] bcast_S_S150000x64 (constant (F := F) S_ .f32 0x40400000#32)) := by
  unfold RunP.res_main_v58 layerHost scatterColsOf gatherRowsOf weights colIdxOf rowIdxOf rowVec colVec
  rfl

/-- Spreading the weight column across the columns and multiplying is the entrywise product with the row's weight. -/
theorem spread_mul (h : FVec F S2000000x64 .f32) (n : FVec F S2000000x1 .f32) :
    mulf h (broadcastInDim S2000000x64 ![0, 1] bcast_S2000000x1_S2000000x64_0_1 n) = LayerSpec.scaleRows h n := by
  funext i
  obtain ⟨r, j, rfl⟩ : ∃ (r : Fin 2000000) (j : Fin 64), i = ix2 r j := ⟨i 0, i 1, eq_ix2 i⟩
  show FloatOps.mulf (h (ix2 r j)) (broadcastInDim S2000000x64 ![0, 1] bcast_S2000000x1_S2000000x64_0_1 n (ix2 r j)) = FloatOps.mulf (h (ix2 r j)) (n (ix2 r (0 : Fin 1)))
  rw [RowBlocks.spreadCol_apply]

theorem layerHost_eq (x : FVec F S150000x64 .f32) (e : IVec S2x2000000 32) : layerHost x e = layer x e := by
  unfold layerHost layer; rw [spread_mul]

/-- The word 0x40400000 is the float 3.0, which denotes the real 3. -/
theorem ofBits_three : Ideal.ofBits .f32 0x40400000#32 = ((3 : ℝ) : EReal) := by
  simp [Ideal.ofBits, Ideal.ieee, -EReal.coe_mul]; norm_num

/-- On the extended reals the host's division by the constant 3.0 is the product with 1/3, at every extended real
    (the infinities too: 3 is a nonzero real). -/
theorem div3 (s : FVec Ideal S150000x64 .f32) (i : S150000x64.Idx) :
    Host.divf s (broadcastInDim S150000x64 ![] bcast_S_S150000x64 (constant (F := Ideal) S_ .f32 0x40400000#32)) i = s i * ((1 / 3 : ℝ) : EReal) := by
  simp only [Host.divf, broadcastInDim, constant, Ideal.hostDivf_def, Ideal.ofBits_def, ofBits_three,
    Ideal.div_coe (by norm_num : (3 : ℝ) ≠ 0)]

/-- The reference's result on the extended reals: the sum of the three layer embeddings times 1/3, the layers in the
    entrywise form — for any name k of the constant 1/3. -/
theorem result_eq (m : (ℓ : Loc nD τ sig) → Buf (Elt Ideal) ℓ) (c : Dev nD) (k : EReal) (hk : k = ((1 / 3 : ℝ) : EReal)) :
    RunP.res_main_v58 (F := Ideal) m c
      = LayerSpec.mean3 (F := Ideal) k (m ((c.tc : Thread nD τ).loc main_arg0)) (layer (m ((c.tc : Thread nD τ).loc main_arg0)) (m ((c.tc : Thread nD τ).loc main_arg1)))
          (layer (layer (m ((c.tc : Thread nD τ).loc main_arg0)) (m ((c.tc : Thread nD τ).loc main_arg1))) (m ((c.tc : Thread nD τ).loc main_arg1))) := by
  rw [res_eq, layerHost_eq, layerHost_eq]
  subst hk
  funext i
  rw [div3]
  rfl

end Cert.ReferenceIdeal.Net

end
-- ==== Proof.lean ====
/-
  Two propagation layers of a graph network and the mean of the three embeddings, computed two ways.

  With x the node features (150 000 × 64), an edge list of 2 000 000 (source, target) pairs, deg the number of edges
  into each node, s = 1/√deg where deg > 0 and 0 elsewhere, and n[e] = s[source e] · s[target e], one layer is

      (L h)[v, :] = Σ over edges e into v of  h[source e, :] · n[e],

  and the result is the mean of x, L x and L (L x). The reference does all of it with host operations and divides the sum
  by 3. The kernel program does the gathers and the sums on the host too, but multiplies the gathered rows by the weights
  in a vector kernel (twice, once per layer) and forms (x + L x + L (L x)) · k in a third, k the float nearest 1/3, which
  the idealized program reads as the rational 1/3.

  Frames. Each of the three kernels runs over a grid of row blocks whose last block overhangs the arrays; a fetch fills
  only the rows that exist and a write-back returns only those, and the bodies are entrywise, so what lies past the
  arrays' end never reaches a row that is written back. The whole program is then a chain of host stretches and calls with
  the buffers' contents known at every boundary; it terminates and leaves both arguments as launched — at the word level
  and at the extended reals alike. The reference is a straight line of host operations.

  Values. On the extended reals the kernel's two scaling calls leave h[e, j] · n[e, 0] at every entry, which is what the
  host's "spread the column, then multiply" computes; so the layer is one function in both programs. The averaging call
  leaves (x + L x + L (L x)) · (1/3), and the reference's quotient by the real 3 is the product with 1/3 at every extended
  real, the infinities included. No finiteness of x is used.
-/
import proofs.«129552_j68410239091164_1_alg».proof.Defs
import proofs.«129552_j68410239091164_1_alg».proof.Proof.Gen.Kernel
import proofs.«129552_j68410239091164_1_alg».proof.Proof.Gen.KernelIdeal
import proofs.«129552_j68410239091164_1_alg».proof.Proof.Gen.ReferenceIdeal
import proofs.«129552_j68410239091164_1_alg».proof.Proof.Gen.Pre_finite_inputs
import proofs.«129552_j68410239091164_1_alg».proof.Proof.KbRun
import proofs.«129552_j68410239091164_1_alg».proof.Proof.KiValue
import proofs.«129552_j68410239091164_1_alg».proof.Proof.RefNet
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem

/-- The kernel's named constant denotes the rational 1/3 on the extended reals, by the certificate's table. -/
theorem inv_3 : Named.named (F := Ideal) Cert.KernelIdeal.κ "inv_3" (φ := .f32) 0x3EAAAAAB#32 = ((1 / 3 : ℝ) : EReal) :=
  IdealRules.named_const.ideal_named_scalar _ _ _ _ rfl

theorem frame_k : Cert.frame_Kernel := fun m ρ _ => Cert.Kernel.Whole.frame m ρ
theorem frame_ki : Cert.frame_KernelIdeal := fun m ρ _ => Cert.KernelIdeal.Whole.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The one rewrite of the idealization: the float nearest 1/3 is read as 1/3. -/
theorem preserves : Cert.preserves_Kernel_KernelIdeal :=
  IdealRules.named_const.statement Cert.KernelIdeal.κ "inv_3" .f32 0x3EAAAAAB#32 ((1 / 3 : ℝ) : EReal) rfl

/-- One layer is the same function of the features and the edge list in the two programs: the same host operations,
    and the same entrywise product in the middle. -/
theorem layer_same (x : FVec Ideal Cert.KernelIdeal.S150000x64 .f32) (e : IVec Cert.KernelIdeal.S2x2000000 32) :
    Cert.ReferenceIdeal.Net.layer (F := Ideal) x e = Cert.KernelIdeal.Net.layer (F := Ideal) x e := rfl

/-- From memories that agree on the arguments both programs run, leave the arguments as they were, and end with equal
    result arrays: (x + L x + L (L x)) · (1/3) entry by entry. -/
theorem algebraic : Cert.algebraic_KernelIdeal_ReferenceIdeal := by
  intro m ρ m' ρ' _ hagree
  refine ⟨fun c => Cert.KernelIdeal.Whole.W10 m c (Proc.devRef .tc Cert.KernelIdeal.main_v53), ?_, ?_⟩
  · exact (θ_run Cert.KernelIdeal.defs _ _).mono (fun _ h c =>
      ⟨h c _ (Cert.KernelIdeal.Whole.mem_uc Cert.KernelIdeal.main_v53 (by decide)),
        (h c _ (Cert.KernelIdeal.Whole.mem_uc Cert.KernelIdeal.main_arg0 (by decide))).trans (Cert.KernelIdeal.Whole.W10_arg0 m c),
        (h c _ (Cert.KernelIdeal.Whole.mem_uc Cert.KernelIdeal.main_arg1 (by decide))).trans (Cert.KernelIdeal.Whole.W10_arg1 m c)⟩)
      (Cert.KernelIdeal.Whole.run m ρ)
  · refine (θ_run Cert.ReferenceIdeal.defs _ _).mono (fun _ h c => ⟨(h c).1.trans ?_, (h c).2⟩)
      (Cert.ReferenceIdeal.RunP.run (F := Ideal) m' ρ')
    refine (Cert.ReferenceIdeal.Net.result_eq m' c _ inv_3).trans ?_
    rw [(hagree c).1, (hagree c).2, layer_same, layer_same]
    exact (Cert.KernelIdeal.Whole.result m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
